-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2x2048x128 : Shape := ⟨3, ![2, 2048, 128]⟩
abbrev S2x1x2048x2048 : Shape := ⟨4, ![2, 1, 2048, 2048]⟩
abbrev S4096x2048 : Shape := ⟨2, ![4096, 2048]⟩
abbrev S1024x2048 : Shape := ⟨2, ![1024, 2048]⟩
abbrev S2048x2048 : Shape := ⟨2, ![2048, 2048]⟩
abbrev S128 : Shape := ⟨1, ![128]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2x2048x128 : S_.BroadcastsInDim S2x2048x128 (![] : Fin 0 → Fin S2x2048x128.rank)
  reducesTo_S2x2048x128_S_d0_1_2 : S2x2048x128.ReducesTo [0, 1, 2] S_
  bcast_S_S4096x2048 : S_.BroadcastsInDim S4096x2048 (![] : Fin 0 → Fin S4096x2048.rank)
  reducesTo_S4096x2048_S_d0_1 : S4096x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S1024x2048 .f32) (main_arg6 : FVec F S1024x2048 .f32) (main_arg7 : FVec F S2048x2048 .f32) (main_arg8 : FVec F S128 .f32) (main_arg9 : FVec F S128 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S1024x2048 .f32 := Host.absf main_arg5
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048x2048 .f32 := Host.absf main_arg7
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg8 main_arg9 main_v33

def fn {F : FTy → Type} [FloatOps F] (main_arg0 : FVec F S2x2048x2048 .f32) (main_arg1 : FVec F S2x2048x128 .f32) (main_arg2 : FVec F S2x2048x128 .f32) (main_arg3 : IVec S2x1x2048x2048 32) (main_arg4 : FVec F S4096x2048 .f32) (main_arg5 : FVec F S1024x2048 .f32) (main_arg6 : FVec F S1024x2048 .f32) (main_arg7 : FVec F S2048x2048 .f32) (main_arg8 : FVec F S128 .f32) (main_arg9 : FVec F S128 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2x2048x128 .f32 := Host.absf main_arg1
  let main_cst_0 : FVec F S_ .f32 := constant S_ .f32 0x7F800000#32
  let main_v5 : FVec F S2x2048x128 .f32 := broadcastInDim S2x2048x128 ![] bcast_S_S2x2048x128 main_cst_0
  let main_v6 : IVec S2x2048x128 1 := cmpf .olt main_v4 main_v5
  let main_c_1 : IVec S_ 1 := constantI S_ 1 1#1
  let main_v7 : IVec S_ 1 := (fun x v => Host.reduce IntOp.andi x v reducesTo_S2x2048x128_S_d0_1_2 h_S_) main_v6 main_c_1
  let main_v8 : IVec S_ 1 := andi main_v3 main_v7
  let main_v9 : FVec F S2x2048x128 .f32 := Host.absf main_arg2
  let main_cst_2 : FVec F S_ .f32 := constant S_ .f32 0x7F800000#32
  let main_v10 : FVec F S2x2048x128 .f32 := broadcastInDim S2x2048x128 ![] bcast_S_S2x2048x128 main_cst_2
  let main_v11 : IVec S2x2048x128 1 := cmpf .olt main_v9 main_v10
  let main_c_3 : IVec S_ 1 := constantI S_ 1 1#1
  let main_v12 : IVec S_ 1 := (fun x v => Host.reduce IntOp.andi x v reducesTo_S2x2048x128_S_d0_1_2 h_S_) main_v11 main_c_3
  let main_v13 : IVec S_ 1 := andi main_v8 main_v12
  let main_v14 : FVec F S4096x2048 .f32 := Host.absf main_arg4
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg5 main_arg6 main_arg7 main_arg8 main_arg9 main_v13 main_v16
-- ==== Kernel.lean ====
abbrev S2x2048x2048 : Shape := ⟨3, ![2, 2048, 2048]⟩
abbrev S2x2048x128 : Shape := ⟨3, ![2, 2048, 128]⟩
abbrev S2x1x2048x2048 : Shape := ⟨4, ![2, 1, 2048, 2048]⟩
abbrev S4096x2048 : Shape := ⟨2, ![4096, 2048]⟩
abbrev S1024x2048 : Shape := ⟨2, ![1024, 2048]⟩
abbrev S2048x2048 : Shape := ⟨2, ![2048, 2048]⟩
abbrev S128 : Shape := ⟨1, ![128]⟩
abbrev S4096x4096 : Shape := ⟨2, ![4096, 4096]⟩
abbrev S512x2048 : Shape := ⟨2, ![512, 2048]⟩
abbrev S2048x512 : Shape := ⟨2, ![2048, 512]⟩
abbrev S4096x1024 : Shape := ⟨2, ![4096, 1024]⟩
abbrev S2x2048x16x256 : Shape := ⟨4, ![2, 2048, 16, 256]⟩
abbrev S2x2048x16x128 : Shape := ⟨4, ![2, 2048, 16, 128]⟩
abbrev S2x2048x8x128 : Shape := ⟨4, ![2, 2048, 8, 128]⟩
abbrev S_ : Shape := ⟨0, ![]⟩
abbrev S2x2048x16 : Shape := ⟨3, ![2, 2048, 16]⟩
abbrev S2x2048x16x1 : Shape := ⟨4, ![2, 2048, 16, 1]⟩
abbrev S1x1x1x128 : Shape := ⟨4, ![1, 1, 1, 128]⟩
abbrev S2x2048x8 : Shape := ⟨3, ![2, 2048, 8]⟩
abbrev S2x2048x8x1 : Shape := ⟨4, ![2, 2048, 8, 1]⟩
abbrev S2x2048x1x128 : Shape := ⟨4, ![2, 2048, 1, 128]⟩
abbrev S2x2048x16x64 : Shape := ⟨4, ![2, 2048, 16, 64]⟩
abbrev S2x16x2048x128 : Shape := ⟨4, ![2, 16, 2048, 128]⟩
abbrev S2x2048x8x64 : Shape := ⟨4, ![2, 2048, 8, 64]⟩
abbrev S2x8x2048x128 : Shape := ⟨4, ![2, 8, 2048, 128]⟩
abbrev S2x16x2048x2048 : Shape := ⟨4, ![2, 16, 2048, 2048]⟩
abbrev S1x1x1024x128 : Shape := ⟨4, ![1, 1, 1024, 128]⟩
abbrev S1x1x2048x128 : Shape := ⟨4, ![1, 1, 2048, 128]⟩
abbrev S1x1x1024x2048 : Shape := ⟨4, ![1, 1, 1024, 2048]⟩
abbrev S1024x128 : Shape := ⟨2, ![1024, 128]⟩
abbrev S2048x128 : Shape := ⟨2, ![2048, 128]⟩
abbrev S1024 : Shape := ⟨1, ![1024]⟩
abbrev S1024x1 : Shape := ⟨2, ![1024, 1]⟩

abbrev nBuf : Space → Nat
  | .hbm => 85
  | .vmem => 38
  | .smem => 0
  | _ => 0

abbrev bufTy : (tb : Table) → Fin (tcTables nBuf tb) → BufTy
  | .hbm, ⟨0, _⟩ => ⟨S2x2048x2048, .f32⟩
  | .hbm, ⟨1, _⟩ => ⟨S2x2048x128, .f32⟩
  | .hbm, ⟨2, _⟩ => ⟨S2x2048x128, .f32⟩
  | .hbm, ⟨3, _⟩ => ⟨S2x1x2048x2048, .i32⟩
  | .hbm, ⟨4, _⟩ => ⟨S4096x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S128, .f32⟩
  | .hbm, ⟨9, _⟩ => ⟨S128, .f32⟩
  | .hbm, ⟨10, _⟩ => ⟨S4096x2048, .f32⟩
  | .hbm, ⟨11, _⟩ => ⟨S4096x4096, .bf16⟩
  | .hbm, ⟨12, _⟩ => ⟨S4096x1024, .bf16⟩
  | .hbm, ⟨13, _⟩ => ⟨S4096x1024, .bf16⟩
  | .hbm, ⟨14, _⟩ => ⟨S2x2048x16x256, .bf16⟩
  | .hbm, ⟨15, _⟩ => ⟨S2x2048x16x128, .bf16⟩
  | .hbm, ⟨16, _⟩ => ⟨S2x2048x16x128, .bf16⟩
  | .hbm, ⟨17, _⟩ => ⟨S2x2048x8x128, .bf16⟩
  | .hbm, ⟨18, _⟩ => ⟨S2x2048x8x128, .bf16⟩
  | .hbm, ⟨19, _⟩ => ⟨S2x2048x16x128, .f32⟩
  | .hbm, ⟨20, _⟩ => ⟨S2x2048x16x128, .f32⟩
  | .hbm, ⟨21, _⟩ => ⟨S_, .f32⟩
  | .hbm, ⟨22, _⟩ => ⟨S2x2048x16, .f32⟩
  | .hbm, ⟨23, _⟩ => ⟨S2x2048x16x1, .f32⟩
  | .hbm, ⟨24, _⟩ => ⟨S_, .f32⟩
  | .hbm, ⟨25, _⟩ => ⟨S2x2048x16x1, .f32⟩
  | .hbm, ⟨26, _⟩ => ⟨S2x2048x16x1, .f32⟩
  | .hbm, ⟨27, _⟩ => ⟨S_, .f32⟩
  | .hbm, ⟨28, _⟩ => ⟨S2x2048x16x1, .f32⟩
  | .hbm, ⟨29, _⟩ => ⟨S2x2048x16x1, .f32⟩
  | .hbm, ⟨30, _⟩ => ⟨S2x2048x16x1, .f32⟩
  | .hbm, ⟨31, _⟩ => ⟨S2x2048x16x128, .f32⟩
  | .hbm, ⟨32, _⟩ => ⟨S2x2048x16x128, .f32⟩
  | .hbm, ⟨33, _⟩ => ⟨S1x1x1x128, .f32⟩
  | .hbm, ⟨34, _⟩ => ⟨S2x2048x16x128, .f32⟩
  | .hbm, ⟨35, _⟩ => ⟨S2x2048x16x128, .f32⟩
  | .hbm, ⟨36, _⟩ => ⟨S2x2048x8x128, .f32⟩
  | .hbm, ⟨37, _⟩ => ⟨S2x2048x8x128, .f32⟩
  | .hbm, ⟨38, _⟩ => ⟨S_, .f32⟩
  | .hbm, ⟨39, _⟩ => ⟨S2x2048x8, .f32⟩
  | .hbm, ⟨40, _⟩ => ⟨S2x2048x8x1, .f32⟩
  | .hbm, ⟨41, _⟩ => ⟨S_, .f32⟩
  | .hbm, ⟨42, _⟩ => ⟨S2x2048x8x1, .f32⟩
  | .hbm, ⟨43, _⟩ => ⟨S2x2048x8x1, .f32⟩
  | .hbm, ⟨44, _⟩ => ⟨S_, .f32⟩
  | .hbm, ⟨45, _⟩ => ⟨S2x2048x8x1, .f32⟩
  | .hbm, ⟨46, _⟩ => ⟨S2x2048x8x1, .f32⟩
  | .hbm, ⟨47, _⟩ => ⟨S2x2048x8x1, .f32⟩
  | .hbm, ⟨48, _⟩ => ⟨S2x2048x8x128, .f32⟩
  | .hbm, ⟨49, _⟩ => ⟨S2x2048x8x128, .f32⟩
  | .hbm, ⟨50, _⟩ => ⟨S1x1x1x128, .f32⟩
  | .hbm, ⟨51, _⟩ => ⟨S2x2048x8x128, .f32⟩
  | .hbm, ⟨52, _⟩ => ⟨S2x2048x8x128, .f32⟩
  | .hbm, ⟨53, _⟩ => ⟨S2x2048x1x128, .f32⟩
  | .hbm, ⟨54, _⟩ => ⟨S2x2048x1x128, .f32⟩
  | .hbm, ⟨55, _⟩ => ⟨S2x2048x16x128, .f32⟩
  | .hbm, ⟨56, _⟩ => ⟨S2x2048x16x128, .f32⟩
  | .hbm, ⟨57, _⟩ => ⟨S2x2048x16x64, .f32⟩
  | .hbm, ⟨58, _⟩ => ⟨S2x2048x16x64, .f32⟩
  | .hbm, ⟨59, _⟩ => ⟨S2x2048x16x64, .f32⟩
  | .hbm, ⟨60, _⟩ => ⟨S2x2048x16x128, .f32⟩
  | .hbm, ⟨61, _⟩ => ⟨S2x2048x16x128, .f32⟩
  | .hbm, ⟨62, _⟩ => ⟨S2x2048x16x128, .f32⟩
  | .hbm, ⟨63, _⟩ => ⟨S2x2048x16x128, .f32⟩
  | .hbm, ⟨64, _⟩ => ⟨S2x2048x16x128, .bf16⟩
  | .hbm, ⟨65, _⟩ => ⟨S2x16x2048x128, .bf16⟩
  | .hbm, ⟨66, _⟩ => ⟨S2x2048x8x128, .f32⟩
  | .hbm, ⟨67, _⟩ => ⟨S2x2048x8x128, .f32⟩
  | .hbm, ⟨68, _⟩ => ⟨S2x2048x8x64, .f32⟩
  | .hbm, ⟨69, _⟩ => ⟨S2x2048x8x64, .f32⟩
  | .hbm, ⟨70, _⟩ => ⟨S2x2048x8x64, .f32⟩
  | .hbm, ⟨71, _⟩ => ⟨S2x2048x8x128, .f32⟩
  | .hbm, ⟨72, _⟩ => ⟨S2x2048x8x128, .f32⟩
  | .hbm, ⟨73, _⟩ => ⟨S2x2048x8x128, .f32⟩
  | .hbm, ⟨74, _⟩ => ⟨S2x2048x8x128, .f32⟩
  | .hbm, ⟨75, _⟩ => ⟨S2x2048x8x128, .bf16⟩
  | .hbm, ⟨76, _⟩ => ⟨S2x8x2048x128, .bf16⟩
  | .hbm, ⟨77, _⟩ => ⟨S2x8x2048x128, .bf16⟩
  | .hbm, ⟨78, _⟩ => ⟨S2x16x2048x128, .bf16⟩
  | .hbm, ⟨79, _⟩ => ⟨S2x16x2048x128, .f32⟩
  | .hbm, ⟨80, _⟩ => ⟨S2x16x2048x2048, .f32⟩
  | .hbm, ⟨81, _⟩ => ⟨S2x2048x16x128, .f32⟩
  | .hbm, ⟨82, _⟩ => ⟨S4096x2048, .f32⟩
  | .hbm, ⟨83, _⟩ => ⟨S4096x2048, .f32⟩
  | .hbm, ⟨84, _⟩ => ⟨S2x2048x2048, .f32⟩
  | .local _ .vmem, ⟨0, _⟩ => ⟨S2048x2048, .f32⟩
  | .local _ .vmem, ⟨1, _⟩ => ⟨S2048x2048, .f32⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x2048, .f32⟩
  | .local _ .vmem, ⟨7, _⟩ => ⟨S2048x2048, .f32⟩
  | .local _ .vmem, ⟨8, _⟩ => ⟨S512x2048, .f32⟩
  | .local _ .vmem, ⟨9, _⟩ => ⟨S512x2048, .f32⟩
  | .local _ .vmem, ⟨10, _⟩ => ⟨S2048x512, .bf16⟩
  | .local _ .vmem, ⟨11, _⟩ => ⟨S2048x512, .bf16⟩
  | .local _ .vmem, ⟨12, _⟩ => ⟨S2048x2048, .f32⟩
  | .local _ .vmem, ⟨13, _⟩ => ⟨S2048x2048, .f32⟩
  | .local _ .vmem, ⟨14, _⟩ => ⟨S512x2048, .f32⟩
  | .local _ .vmem, ⟨15, _⟩ => ⟨S512x2048, .f32⟩
  | .local _ .vmem, ⟨16, _⟩ => ⟨S2048x512, .bf16⟩
  | .local _ .vmem, ⟨17, _⟩ => ⟨S2048x512, .bf16⟩
  | .local _ .vmem, ⟨18, _⟩ => ⟨S1x1x1024x128, .bf16⟩
  | .local _ .vmem, ⟨19, _⟩ => ⟨S1x1x1024x128, .bf16⟩
  | .local _ .vmem, ⟨20, _⟩ => ⟨S1x1x2048x128, .bf16⟩
  | .local _ .vmem, ⟨21, _⟩ => ⟨S1x1x2048x128, .bf16⟩
  | .local _ .vmem, ⟨22, _⟩ => ⟨S1x1x2048x128, .bf16⟩
  | .local _ .vmem, ⟨23, _⟩ => ⟨S1x1x2048x128, .bf16⟩
  | .local _ .vmem, ⟨24, _⟩ => ⟨S1x1x1024x2048, .i32⟩
  | .local _ .vmem, ⟨25, _⟩ => ⟨S1x1x1024x2048, .i32⟩
  | .local _ .vmem, ⟨26, _⟩ => ⟨S1x1x1024x128, .bf16⟩
  | .local _ .vmem, ⟨27, _⟩ => ⟨S1x1x1024x128, .bf16⟩
  | .local _ .vmem, ⟨28, _⟩ => ⟨S1x1x1024x128, .f32⟩
  | .local _ .vmem, ⟨29, _⟩ => ⟨S1x1x1024x128, .f32⟩
  | .local _ .vmem, ⟨30, _⟩ => ⟨S1x1x1024x2048, .f32⟩
  | .local _ .vmem, ⟨31, _⟩ => ⟨S1x1x1024x2048, .f32⟩
  | .local _ .vmem, ⟨32, _⟩ => ⟨S2048x2048, .f32⟩
  | .local _ .vmem, ⟨33, _⟩ => ⟨S2048x2048, .f32⟩
  | .local _ .vmem, ⟨34, _⟩ => ⟨S512x2048, .f32⟩
  | .local _ .vmem, ⟨35, _⟩ => ⟨S512x2048, .f32⟩
  | .local _ .vmem, ⟨36, _⟩ => ⟨S2048x512, .f32⟩
  | .local _ .vmem, ⟨37, _⟩ => ⟨S2048x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63_0 : Ref sig .tc := ⟨.hbm, 79, rfl⟩
abbrev main_v63_1 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![2, 2, 16], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_6 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage3_0 : Fin 2 → Memref sig .tc .vmem S1x1x1024x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x1x1024x2048 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1x1x1024x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x1x1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev stage3_6 : Fin 2 → Memref sig .tc .vmem S1x1x1024x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  shapeCasts_S2x2048x2048_S4096x2048 : S2x2048x2048.ShapeCasts S4096x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  shapeCasts_S4096x4096_S2x2048x16x256 : S4096x4096.ShapeCasts S2x2048x16x256
  slices_S2x2048x16x256_S2x2048x16x128_0_0_0_0 : S2x2048x16x256.Slices ![0, 0, 0, 0] S2x2048x16x128
  slices_S2x2048x16x256_S2x2048x16x128_0_0_0_128 : S2x2048x16x256.Slices ![0, 0, 0, 128] S2x2048x16x128
  shapeCasts_S4096x1024_S2x2048x8x128 : S4096x1024.ShapeCasts S2x2048x8x128
  reducesTo_S2x2048x16x128_S2x2048x16_d3 : S2x2048x16x128.ReducesTo [3] S2x2048x16
  h_S_ : 0 < S_.numel
  bcast_S2x2048x16_S2x2048x16x1_0_1_2 : S2x2048x16.BroadcastsInDim S2x2048x16x1 (![0, 1, 2] : Fin 3 → Fin S2x2048x16x1.rank)
  bcast_S_S2x2048x16x1 : S_.BroadcastsInDim S2x2048x16x1 (![] : Fin 0 → Fin S2x2048x16x1.rank)
  bcast_S2x2048x16x1_S2x2048x16x128_0_1_2_3 : S2x2048x16x1.BroadcastsInDim S2x2048x16x128 (![0, 1, 2, 3] : Fin 4 → Fin S2x2048x16x128.rank)
  bcast_S128_S1x1x1x128_3 : S128.BroadcastsInDim S1x1x1x128 (![3] : Fin 1 → Fin S1x1x1x128.rank)
  bcast_S1x1x1x128_S2x2048x16x128_0_1_2_3 : S1x1x1x128.BroadcastsInDim S2x2048x16x128 (![0, 1, 2, 3] : Fin 4 → Fin S2x2048x16x128.rank)
  reducesTo_S2x2048x8x128_S2x2048x8_d3 : S2x2048x8x128.ReducesTo [3] S2x2048x8
  bcast_S2x2048x8_S2x2048x8x1_0_1_2 : S2x2048x8.BroadcastsInDim S2x2048x8x1 (![0, 1, 2] : Fin 3 → Fin S2x2048x8x1.rank)
  bcast_S_S2x2048x8x1 : S_.BroadcastsInDim S2x2048x8x1 (![] : Fin 0 → Fin S2x2048x8x1.rank)
  bcast_S2x2048x8x1_S2x2048x8x128_0_1_2_3 : S2x2048x8x1.BroadcastsInDim S2x2048x8x128 (![0, 1, 2, 3] : Fin 4 → Fin S2x2048x8x128.rank)
  bcast_S1x1x1x128_S2x2048x8x128_0_1_2_3 : S1x1x1x128.BroadcastsInDim S2x2048x8x128 (![0, 1, 2, 3] : Fin 4 → Fin S2x2048x8x128.rank)
  bcast_S2x2048x128_S2x2048x1x128_0_1_3 : S2x2048x128.BroadcastsInDim S2x2048x1x128 (![0, 1, 3] : Fin 3 → Fin S2x2048x1x128.rank)
  bcast_S2x2048x1x128_S2x2048x16x128_0_1_2_3 : S2x2048x1x128.BroadcastsInDim S2x2048x16x128 (![0, 1, 2, 3] : Fin 4 → Fin S2x2048x16x128.rank)
  slices_S2x2048x16x128_S2x2048x16x64_0_0_0_0 : S2x2048x16x128.Slices ![0, 0, 0, 0] S2x2048x16x64
  slices_S2x2048x16x128_S2x2048x16x64_0_0_0_64 : S2x2048x16x128.Slices ![0, 0, 0, 64] S2x2048x16x64
  concatenates_S2x2048x16x64_S2x2048x16x64_S2x2048x16x128_d3 : Shape.Concatenates [S2x2048x16x64, S2x2048x16x64] S2x2048x16x128 3
  transposes_S2x2048x16x128_S2x16x2048x128_0_2_1_3 : S2x2048x16x128.Transposes [0, 2, 1, 3] S2x16x2048x128
  bcast_S2x2048x1x128_S2x2048x8x128_0_1_2_3 : S2x2048x1x128.BroadcastsInDim S2x2048x8x128 (![0, 1, 2, 3] : Fin 4 → Fin S2x2048x8x128.rank)
  slices_S2x2048x8x128_S2x2048x8x64_0_0_0_0 : S2x2048x8x128.Slices ![0, 0, 0, 0] S2x2048x8x64
  slices_S2x2048x8x128_S2x2048x8x64_0_0_0_64 : S2x2048x8x128.Slices ![0, 0, 0, 64] S2x2048x8x64
  concatenates_S2x2048x8x64_S2x2048x8x64_S2x2048x8x128_d3 : Shape.Concatenates [S2x2048x8x64, S2x2048x8x64] S2x2048x8x128 3
  transposes_S2x2048x8x128_S2x8x2048x128_0_2_1_3 : S2x2048x8x128.Transposes [0, 2, 1, 3] S2x8x2048x128
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  reduces_S1024x2048_S1024 : S1024x2048.Reduces [1] S1024
  shapeCasts_S1024_S1024x1 : S1024.ShapeCasts S1024x1
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  shapeCasts_S1024x1_S1024x1 : S1024x1.ShapeCasts S1024x1
  broadcasts_S1024x1_S1024x2048 : S1024x1.Broadcasts S1024x2048
  shapeCasts_S1024x2048_S1x1x1024x2048 : S1024x2048.ShapeCasts S1x1x1024x2048
  shapeCasts_S1024x128_S1x1x1024x128 : S1024x128.ShapeCasts S1x1x1024x128
  transposes_S2x16x2048x128_S2x2048x16x128_0_2_1_3 : S2x16x2048x128.Transposes [0, 2, 1, 3] S2x2048x16x128
  shapeCasts_S2x2048x16x128_S4096x2048 : S2x2048x16x128.ShapeCasts S4096x2048
  shapeCasts_S4096x2048_S2x2048x2048 : S4096x2048.ShapeCasts S2x2048x2048
  dot_S2048x2048_S512x2048_S2048x512_1_1_0_0_n_n_wf : DotDims.WF S2048x2048 S512x2048 S2048x512 [1] [1] [0] [0] [] []
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x2048.size a
  hwx0_0 : ∀ i : grid0.Coords, EltTy.bits .f32 = 32 ∨ (Rect.block (s := S4096x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S4096x4096.size a
  hwx0_2 : ∀ i : grid0.Coords, EltTy.bits .bf16 = 32 ∨ (Rect.block (s := S4096x4096) S2048x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S4096x2048.size a
  hwx1_0 : ∀ i : grid1.Coords, EltTy.bits .f32 = 32 ∨ (Rect.block (s := S4096x2048) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S1024x2048.size a
  hwx1_1 : ∀ i : grid1.Coords, EltTy.bits .f32 = 32 ∨ (Rect.block (s := S1024x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S4096x1024.size a
  hwx1_2 : ∀ i : grid1.Coords, EltTy.bits .bf16 = 32 ∨ (Rect.block (s := S4096x1024) S2048x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S4096x2048.size a
  hwx2_0 : ∀ i : grid2.Coords, EltTy.bits .f32 = 32 ∨ (Rect.block (s := S4096x2048) S2048x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S1024x2048.size a
  hwx2_1 : ∀ i : grid2.Coords, EltTy.bits .f32 = 32 ∨ (Rect.block (s := S1024x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S4096x1024.size a
  hwx2_2 : ∀ i : grid2.Coords, EltTy.bits .bf16 = 32 ∨ (Rect.block (s := S4096x1024) S2048x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x1024x128.size a ≤ S2x16x2048x128.size a
  hwx3_0 : ∀ i : grid3.Coords, EltTy.bits .bf16 = 32 ∨ (Rect.block (s := S2x16x2048x128) S1x1x1024x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x128.size a ≤ S2x8x2048x128.size a
  hwx3_1 : ∀ i : grid3.Coords, EltTy.bits .bf16 = 32 ∨ (Rect.block (s := S2x8x2048x128) S1x1x2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x128.size a ≤ S2x8x2048x128.size a
  hwx3_2 : ∀ i : grid3.Coords, EltTy.bits .bf16 = 32 ∨ (Rect.block (s := S2x8x2048x128) S1x1x2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x1024x2048.size a ≤ S2x1x2048x2048.size a
  hwx3_3 : ∀ i : grid3.Coords, EltTy.bits .i32 = 32 ∨ (Rect.block (s := S2x1x2048x2048) S1x1x1024x2048.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x1024x128.size a ≤ S2x16x2048x128.size a
  hwx3_4 : ∀ i : grid3.Coords, EltTy.bits .bf16 = 32 ∨ (Rect.block (s := S2x16x2048x128) S1x1x1024x128.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x1024x128.size a ≤ S2x16x2048x128.size a
  hwx3_5 : ∀ i : grid3.Coords, EltTy.bits .f32 = 32 ∨ (Rect.block (s := S2x16x2048x128) S1x1x1024x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1x1024x2048.size a ≤ S2x16x2048x2048.size a
  hwx3_6 : ∀ i : grid3.Coords, EltTy.bits .f32 = 32 ∨ (Rect.block (s := S2x16x2048x2048) S1x1x1024x2048.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S4096x2048.size a
  hwx4_0 : ∀ i : grid4.Coords, EltTy.bits .f32 = 32 ∨ (Rect.block (s := S4096x2048) S2048x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2048.size a ≤ S2048x2048.size a
  hwx4_1 : ∀ i : grid4.Coords, EltTy.bits .f32 = 32 ∨ (Rect.block (s := S2048x2048) S512x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x512.size a ≤ S4096x2048.size a
  hwx4_2 : ∀ i : grid4.Coords, EltTy.bits .f32 = 32 ∨ (Rect.block (s := S4096x2048) S2048x512.size (cc4_transform_2 i) (hinb4_2 i)).WholeWords (EltTy.packing .f32)

variable [Facts₀]

def dot_S2048x2048_S512x2048_S2048x512_1_1_0_0_n_n : DotDims S2048x2048 S512x2048 S2048x512 where
  lhsContracting := [1]
  rhsContracting := [1]
  lhsNonContracting := [0]
  rhsNonContracting := [0]
  lhsBatch := []
  rhsBatch := []
  wf := dot_S2048x2048_S512x2048_S2048x512_1_1_0_0_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2048x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S1x1x1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x1x1024x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x1x1024x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v63_0) S1x1x1024x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v63_1) S1x1x1024x2048.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v65) S2048x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S512x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S2048x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x2048x2048 : Shape := ⟨3, ![2, 2048, 2048]⟩
abbrev S2x2048x128 : Shape := ⟨3, ![2, 2048, 128]⟩
abbrev S2x1x2048x2048 : Shape := ⟨4, ![2, 1, 2048, 2048]⟩
abbrev S4096x2048 : Shape := ⟨2, ![4096, 2048]⟩
abbrev S1024x2048 : Shape := ⟨2, ![1024, 2048]⟩
abbrev S2048x2048 : Shape := ⟨2, ![2048, 2048]⟩
abbrev S128 : Shape := ⟨1, ![128]⟩
abbrev S2x2048x4096 : Shape := ⟨3, ![2, 2048, 4096]⟩
abbrev S2x2048x16x256 : Shape := ⟨4, ![2, 2048, 16, 256]⟩
abbrev S2x2048x16x128 : Shape := ⟨4, ![2, 2048, 16, 128]⟩
abbrev S_ : Shape := ⟨0, ![]⟩
abbrev S2x2048x16 : Shape := ⟨3, ![2, 2048, 16]⟩
abbrev S2x2048x16x1 : Shape := ⟨4, ![2, 2048, 16, 1]⟩
abbrev S1x1x1x128 : Shape := ⟨4, ![1, 1, 1, 128]⟩
abbrev S2x16x2048x128 : Shape := ⟨4, ![2, 16, 2048, 128]⟩
abbrev S2x2048x1024 : Shape := ⟨3, ![2, 2048, 1024]⟩
abbrev S2x2048x8x128 : Shape := ⟨4, ![2, 2048, 8, 128]⟩
abbrev S2x2048x8 : Shape := ⟨3, ![2, 2048, 8]⟩
abbrev S2x2048x8x1 : Shape := ⟨4, ![2, 2048, 8, 1]⟩
abbrev S2x8x2048x128 : Shape := ⟨4, ![2, 8, 2048, 128]⟩
abbrev S2x1x2048x128 : Shape := ⟨4, ![2, 1, 2048, 128]⟩
abbrev S2x16x2048x64 : Shape := ⟨4, ![2, 16, 2048, 64]⟩
abbrev S2x8x2048x64 : Shape := ⟨4, ![2, 8, 2048, 64]⟩
abbrev S2x8x2x2048x128 : Shape := ⟨5, ![2, 8, 2, 2048, 128]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 121
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x128, .f32⟩
  | .hbm, ⟨2, _⟩ => ⟨S2x2048x128, .f32⟩
  | .hbm, ⟨3, _⟩ => ⟨S2x1x2048x2048, .i32⟩
  | .hbm, ⟨4, _⟩ => ⟨S4096x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S128, .f32⟩
  | .hbm, ⟨9, _⟩ => ⟨S128, .f32⟩
  | .hbm, ⟨10, _⟩ => ⟨S2x2048x4096, .f32⟩
  | .hbm, ⟨11, _⟩ => ⟨S2x2048x16x256, .f32⟩
  | .hbm, ⟨12, _⟩ => ⟨S2x2048x16x128, .f32⟩
  | .hbm, ⟨13, _⟩ => ⟨S2x2048x16x128, .f32⟩
  | .hbm, ⟨14, _⟩ => ⟨S2x2048x2048, .f32⟩
  | .hbm, ⟨15, _⟩ => ⟨S2x2048x16x128, .f32⟩
  | .hbm, ⟨16, _⟩ => ⟨S_, .f32⟩
  | .hbm, ⟨17, _⟩ => ⟨S2x2048x16, .f32⟩
  | .hbm, ⟨18, _⟩ => ⟨S2x2048x16x1, .f32⟩
  | .hbm, ⟨19, _⟩ => ⟨S_, .f32⟩
  | .hbm, ⟨20, _⟩ => ⟨S2x2048x16x1, .f32⟩
  | .hbm, ⟨21, _⟩ => ⟨S2x2048x16x1, .f32⟩
  | .hbm, ⟨22, _⟩ => ⟨S_, .f32⟩
  | .hbm, ⟨23, _⟩ => ⟨S2x2048x16x1, .f32⟩
  | .hbm, ⟨24, _⟩ => ⟨S2x2048x16x1, .f32⟩
  | .hbm, ⟨25, _⟩ => ⟨S2x2048x16x1, .f32⟩
  | .hbm, ⟨26, _⟩ => ⟨S2x2048x16x128, .f32⟩
  | .hbm, ⟨27, _⟩ => ⟨S2x2048x16x128, .f32⟩
  | .hbm, ⟨28, _⟩ => ⟨S1x1x1x128, .f32⟩
  | .hbm, ⟨29, _⟩ => ⟨S2x2048x16x128, .f32⟩
  | .hbm, ⟨30, _⟩ => ⟨S2x2048x16x128, .f32⟩
  | .hbm, ⟨31, _⟩ => ⟨S2x16x2048x128, .f32⟩
  | .hbm, ⟨32, _⟩ => ⟨S2x2048x1024, .f32⟩
  | .hbm, ⟨33, _⟩ => ⟨S2x2048x8x128, .f32⟩
  | .hbm, ⟨34, _⟩ => ⟨S2x2048x8x128, .f32⟩
  | .hbm, ⟨35, _⟩ => ⟨S_, .f32⟩
  | .hbm, ⟨36, _⟩ => ⟨S2x2048x8, .f32⟩
  | .hbm, ⟨37, _⟩ => ⟨S2x2048x8x1, .f32⟩
  | .hbm, ⟨38, _⟩ => ⟨S_, .f32⟩
  | .hbm, ⟨39, _⟩ => ⟨S2x2048x8x1, .f32⟩
  | .hbm, ⟨40, _⟩ => ⟨S2x2048x8x1, .f32⟩
  | .hbm, ⟨41, _⟩ => ⟨S_, .f32⟩
  | .hbm, ⟨42, _⟩ => ⟨S2x2048x8x1, .f32⟩
  | .hbm, ⟨43, _⟩ => ⟨S2x2048x8x1, .f32⟩
  | .hbm, ⟨44, _⟩ => ⟨S2x2048x8x1, .f32⟩
  | .hbm, ⟨45, _⟩ => ⟨S2x2048x8x128, .f32⟩
  | .hbm, ⟨46, _⟩ => ⟨S2x2048x8x128, .f32⟩
  | .hbm, ⟨47, _⟩ => ⟨S1x1x1x128, .f32⟩
  | .hbm, ⟨48, _⟩ => ⟨S2x2048x8x128, .f32⟩
  | .hbm, ⟨49, _⟩ => ⟨S2x2048x8x128, .f32⟩
  | .hbm, ⟨50, _⟩ => ⟨S2x8x2048x128, .f32⟩
  | .hbm, ⟨51, _⟩ => ⟨S2x2048x1024, .f32⟩
  | .hbm, ⟨52, _⟩ => ⟨S2x2048x8x128, .f32⟩
  | .hbm, ⟨53, _⟩ => ⟨S2x8x2048x128, .f32⟩
  | .hbm, ⟨54, _⟩ => ⟨S2x1x2048x128, .f32⟩
  | .hbm, ⟨55, _⟩ => ⟨S2x1x2048x128, .f32⟩
  | .hbm, ⟨56, _⟩ => ⟨S2x16x2048x128, .f32⟩
  | .hbm, ⟨57, _⟩ => ⟨S2x16x2048x128, .f32⟩
  | .hbm, ⟨58, _⟩ => ⟨S2x16x2048x64, .f32⟩
  | .hbm, ⟨59, _⟩ => ⟨S2x16x2048x64, .f32⟩
  | .hbm, ⟨60, _⟩ => ⟨S2x16x2048x64, .f32⟩
  | .hbm, ⟨61, _⟩ => ⟨S2x16x2048x128, .f32⟩
  | .hbm, ⟨62, _⟩ => ⟨S2x16x2048x128, .f32⟩
  | .hbm, ⟨63, _⟩ => ⟨S2x16x2048x128, .f32⟩
  | .hbm, ⟨64, _⟩ => ⟨S2x16x2048x128, .f32⟩
  | .hbm, ⟨65, _⟩ => ⟨S2x8x2048x128, .f32⟩
  | .hbm, ⟨66, _⟩ => ⟨S2x8x2048x128, .f32⟩
  | .hbm, ⟨67, _⟩ => ⟨S2x8x2048x64, .f32⟩
  | .hbm, ⟨68, _⟩ => ⟨S2x8x2048x64, .f32⟩
  | .hbm, ⟨69, _⟩ => ⟨S2x8x2048x64, .f32⟩
  | .hbm, ⟨70, _⟩ => ⟨S2x8x2048x128, .f32⟩
  | .hbm, ⟨71, _⟩ => ⟨S2x8x2048x128, .f32⟩
  | .hbm, ⟨72, _⟩ => ⟨S2x8x2048x128, .f32⟩
  | .hbm, ⟨73, _⟩ => ⟨S2x8x2048x128, .f32⟩
  | .hbm, ⟨74, _⟩ => ⟨S2x8x2x2048x128, .f32⟩
  | .hbm, ⟨75, _⟩ => ⟨S2x16x2048x128, .f32⟩
  | .hbm, ⟨76, _⟩ => ⟨S2x8x2x2048x128, .f32⟩
  | .hbm, ⟨77, _⟩ => ⟨S2x16x2048x128, .f32⟩
  | .hbm, ⟨78, _⟩ => ⟨S2x16x2048x2048, .f32⟩
  | .hbm, ⟨79, _⟩ => ⟨S_, .f32⟩
  | .hbm, ⟨80, _⟩ => ⟨S2x16x2048x2048, .f32⟩
  | .hbm, ⟨81, _⟩ => ⟨S2x16x2048x2048, .f32⟩
  | .hbm, ⟨82, _⟩ => ⟨S_, .f32⟩
  | .hbm, ⟨83, _⟩ => ⟨S2x16x2048, .f32⟩
  | .hbm, ⟨84, _⟩ => ⟨S2x16x2048x1, .f32⟩
  | .hbm, ⟨85, _⟩ => ⟨S_, .f32⟩
  | .hbm, ⟨86, _⟩ => ⟨S2x16x2048x1, .f32⟩
  | .hbm, ⟨87, _⟩ => ⟨S2x16x2048x1, .f32⟩
  | .hbm, ⟨88, _⟩ => ⟨S_, .i32⟩
  | .hbm, ⟨89, _⟩ => ⟨S2x1x2048x2048, .i32⟩
  | .hbm, ⟨90, _⟩ => ⟨S2x1x2048x2048, .i1⟩
  | .hbm, ⟨91, _⟩ => ⟨S2x16x2048x2048, .i1⟩
  | .hbm, ⟨92, _⟩ => ⟨S2x16x2048x2048, .f32⟩
  | .hbm, ⟨93, _⟩ => ⟨S2x16x2048x2048, .f32⟩
  | .hbm, ⟨94, _⟩ => ⟨S_, .f32⟩
  | .hbm, ⟨95, _⟩ => ⟨S2x16x2048, .f32⟩
  | .hbm, ⟨96, _⟩ => ⟨S_, .f32⟩
  | .hbm, ⟨97, _⟩ => ⟨S2x16x2048, .f32⟩
  | .hbm, ⟨98, _⟩ => ⟨S2x16x2048, .f32⟩
  | .hbm, ⟨99, _⟩ => ⟨S2x16x2048x1, .f32⟩
  | .hbm, ⟨100, _⟩ => ⟨S2x16x2048x2048, .f32⟩
  | .hbm, ⟨101, _⟩ => ⟨S2x16x2048x2048, .f32⟩
  | .hbm, ⟨102, _⟩ => ⟨S2x16x2048x2048, .f32⟩
  | .hbm, ⟨103, _⟩ => ⟨S_, .f32⟩
  | .hbm, ⟨104, _⟩ => ⟨S2x16x2048, .f32⟩
  | .hbm, ⟨105, _⟩ => ⟨S2x16x2048x1, .f32⟩
  | .hbm, ⟨106, _⟩ => ⟨S2x16x2048x2048, .f32⟩
  | .hbm, ⟨107, _⟩ => ⟨S2x16x2048x2048, .f32⟩
  | .hbm, ⟨108, _⟩ => ⟨S2x16x2048x128, .f32⟩
  | .hbm, ⟨109, _⟩ => ⟨S2x2048x16x128, .f32⟩
  | .hbm, ⟨110, _⟩ => ⟨S2x2048x2048, .f32⟩
  | .hbm, ⟨111, _⟩ => ⟨S2x2048x2048, .f32⟩
  | .hbm, ⟨112, _⟩ => ⟨S2x2048x2048, .f32⟩
  | .hbm, ⟨113, _⟩ => ⟨S_, .f32⟩
  | .hbm, ⟨114, _⟩ => ⟨S2x2048x2048, .f32⟩
  | .hbm, ⟨115, _⟩ => ⟨S2x2048x2048, .f32⟩
  | .hbm, ⟨116, _⟩ => ⟨S_, .f32⟩
  | .hbm, ⟨117, _⟩ => ⟨S2x2048x2048, .f32⟩
  | .hbm, ⟨118, _⟩ => ⟨S2x2048x2048, .f32⟩
  | .hbm, ⟨119, _⟩ => ⟨S2x2048x2048, .f32⟩
  | .hbm, ⟨120, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_5 : Ref sig .tc := ⟨.hbm, 79, rfl⟩
abbrev main_v63 : Ref sig .tc := ⟨.hbm, 80, rfl⟩
abbrev main_v64 : Ref sig .tc := ⟨.hbm, 81, rfl⟩
abbrev main_cst_6 : Ref sig .tc := ⟨.hbm, 82, rfl⟩
abbrev main_v65 : Ref sig .tc := ⟨.hbm, 83, rfl⟩
abbrev main_v66 : Ref sig .tc := ⟨.hbm, 84, rfl⟩
abbrev main_cst_7 : Ref sig .tc := ⟨.hbm, 85, rfl⟩
abbrev main_v67 : Ref sig .tc := ⟨.hbm, 86, rfl⟩
abbrev main_v68 : Ref sig .tc := ⟨.hbm, 87, rfl⟩
abbrev main_c : Ref sig .tc := ⟨.hbm, 88, rfl⟩
abbrev main_v69 : Ref sig .tc := ⟨.hbm, 89, rfl⟩
abbrev main_v70 : Ref sig .tc := ⟨.hbm, 90, rfl⟩
abbrev main_call0_v0 : Ref sig .tc := ⟨.hbm, 91, rfl⟩
abbrev main_call0_v1 : Ref sig .tc := ⟨.hbm, 92, rfl⟩
abbrev main_v71 : Ref sig .tc := ⟨.hbm, 93, rfl⟩
abbrev main_cst_8 : Ref sig .tc := ⟨.hbm, 94, rfl⟩
abbrev main_v72 : Ref sig .tc := ⟨.hbm, 95, rfl⟩
abbrev main_cst_9 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_11 : Ref sig .tc := ⟨.hbm, 113, rfl⟩
abbrev main_v88 : Ref sig .tc := ⟨.hbm, 114, rfl⟩
abbrev main_v89 : Ref sig .tc := ⟨.hbm, 115, rfl⟩
abbrev main_cst_12 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]

class Facts₀ : Prop where
  shapeCasts_S2x2048x4096_S2x2048x16x256 : S2x2048x4096.ShapeCasts S2x2048x16x256
  slices_S2x2048x16x256_S2x2048x16x128_0_0_0_0 : S2x2048x16x256.Slices ![0, 0, 0, 0] S2x2048x16x128
  slices_S2x2048x16x256_S2x2048x16x128_0_0_0_128 : S2x2048x16x256.Slices ![0, 0, 0, 128] S2x2048x16x128
  shapeCasts_S2x2048x16x128_S2x2048x2048 : S2x2048x16x128.ShapeCasts S2x2048x2048
  reducesTo_S2x2048x16x128_S2x2048x16_d3 : S2x2048x16x128.ReducesTo [3] S2x2048x16
  h_S_ : 0 < S_.numel
  bcast_S2x2048x16_S2x2048x16x1_0_1_2 : S2x2048x16.BroadcastsInDim S2x2048x16x1 (![0, 1, 2] : Fin 3 → Fin S2x2048x16x1.rank)
  bcast_S_S2x2048x16x1 : S_.BroadcastsInDim S2x2048x16x1 (![] : Fin 0 → Fin S2x2048x16x1.rank)
  bcast_S2x2048x16x1_S2x2048x16x128_0_1_2_3 : S2x2048x16x1.BroadcastsInDim S2x2048x16x128 (![0, 1, 2, 3] : Fin 4 → Fin S2x2048x16x128.rank)
  bcast_S128_S1x1x1x128_3 : S128.BroadcastsInDim S1x1x1x128 (![3] : Fin 1 → Fin S1x1x1x128.rank)
  bcast_S1x1x1x128_S2x2048x16x128_0_1_2_3 : S1x1x1x128.BroadcastsInDim S2x2048x16x128 (![0, 1, 2, 3] : Fin 4 → Fin S2x2048x16x128.rank)
  transposes_S2x2048x16x128_S2x16x2048x128_0_2_1_3 : S2x2048x16x128.Transposes [0, 2, 1, 3] S2x16x2048x128
  shapeCasts_S2x2048x1024_S2x2048x8x128 : S2x2048x1024.ShapeCasts S2x2048x8x128
  reducesTo_S2x2048x8x128_S2x2048x8_d3 : S2x2048x8x128.ReducesTo [3] S2x2048x8
  bcast_S2x2048x8_S2x2048x8x1_0_1_2 : S2x2048x8.BroadcastsInDim S2x2048x8x1 (![0, 1, 2] : Fin 3 → Fin S2x2048x8x1.rank)
  bcast_S_S2x2048x8x1 : S_.BroadcastsInDim S2x2048x8x1 (![] : Fin 0 → Fin S2x2048x8x1.rank)
  bcast_S2x2048x8x1_S2x2048x8x128_0_1_2_3 : S2x2048x8x1.BroadcastsInDim S2x2048x8x128 (![0, 1, 2, 3] : Fin 4 → Fin S2x2048x8x128.rank)
  bcast_S1x1x1x128_S2x2048x8x128_0_1_2_3 : S1x1x1x128.BroadcastsInDim S2x2048x8x128 (![0, 1, 2, 3] : Fin 4 → Fin S2x2048x8x128.rank)
  transposes_S2x2048x8x128_S2x8x2048x128_0_2_1_3 : S2x2048x8x128.Transposes [0, 2, 1, 3] S2x8x2048x128
  bcast_S2x2048x128_S2x1x2048x128_0_2_3 : S2x2048x128.BroadcastsInDim S2x1x2048x128 (![0, 2, 3] : Fin 3 → Fin S2x1x2048x128.rank)
  bcast_S2x1x2048x128_S2x16x2048x128_0_1_2_3 : S2x1x2048x128.BroadcastsInDim S2x16x2048x128 (![0, 1, 2, 3] : Fin 4 → Fin S2x16x2048x128.rank)
  slices_S2x16x2048x128_S2x16x2048x64_0_0_0_0 : S2x16x2048x128.Slices ![0, 0, 0, 0] S2x16x2048x64
  slices_S2x16x2048x128_S2x16x2048x64_0_0_0_64 : S2x16x2048x128.Slices ![0, 0, 0, 64] S2x16x2048x64
  concatenates_S2x16x2048x64_S2x16x2048x64_S2x16x2048x128_d3 : Shape.Concatenates [S2x16x2048x64, S2x16x2048x64] S2x16x2048x128 3
  bcast_S2x1x2048x128_S2x8x2048x128_0_1_2_3 : S2x1x2048x128.BroadcastsInDim S2x8x2048x128 (![0, 1, 2, 3] : Fin 4 → Fin S2x8x2048x128.rank)
  slices_S2x8x2048x128_S2x8x2048x64_0_0_0_0 : S2x8x2048x128.Slices ![0, 0, 0, 0] S2x8x2048x64
  slices_S2x8x2048x128_S2x8x2048x64_0_0_0_64 : S2x8x2048x128.Slices ![0, 0, 0, 64] S2x8x2048x64
  concatenates_S2x8x2048x64_S2x8x2048x64_S2x8x2048x128_d3 : Shape.Concatenates [S2x8x2048x64, S2x8x2048x64] S2x8x2048x128 3
  bcast_S2x8x2048x128_S2x8x2x2048x128_0_1_3_4 : S2x8x2048x128.BroadcastsInDim S2x8x2x2048x128 (![0, 1, 3, 4] : Fin 4 → Fin S2x8x2x2048x128.rank)
  shapeCasts_S2x8x2x2048x128_S2x16x2048x128 : S2x8x2x2048x128.ShapeCasts S2x16x2048x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  bcast_S2x16x2048x1_S2x16x2048x2048_0_1_2_3 : S2x16x2048x1.BroadcastsInDim S2x16x2048x2048 (![0, 1, 2, 3] : Fin 4 → Fin S2x16x2048x2048.rank)
  bcast_S_S2x16x2048 : S_.BroadcastsInDim S2x16x2048 (![] : Fin 0 → Fin S2x16x2048.rank)
  transposes_S2x16x2048x128_S2x2048x16x128_0_2_1_3 : S2x16x2048x128.Transposes [0, 2, 1, 3] S2x2048x16x128
  bcast_S_S2x2048x2048 : S_.BroadcastsInDim S2x2048x2048 (![] : Fin 0 → Fin S2x2048x2048.rank)
  dot_S2x2048x2048_S4096x2048_S2x2048x4096_2_1_01_0_n_n_wf : DotDims.WF S2x2048x2048 S4096x2048 S2x2048x4096 [2] [1] [0, 1] [0] [] []
  dot_S2x2048x2048_S1024x2048_S2x2048x1024_2_1_01_0_n_n_wf : DotDims.WF S2x2048x2048 S1024x2048 S2x2048x1024 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]
  dot_S2x2048x2048_S2048x2048_S2x2048x2048_2_1_01_0_n_n_wf : DotDims.WF S2x2048x2048 S2048x2048 S2x2048x2048 [2] [1] [0, 1] [0] [] []

variable [Facts₀]

def dot_S2x2048x2048_S4096x2048_S2x2048x4096_2_1_01_0_n_n : DotDims S2x2048x2048 S4096x2048 S2x2048x4096 where
  lhsContracting := [2]
  rhsContracting := [1]
  lhsNonContracting := [0, 1]
  rhsNonContracting := [0]
  lhsBatch := []
  rhsBatch := []
  wf := dot_S2x2048x2048_S4096x2048_S2x2048x4096_2_1_01_0_n_n_wf
def dot_S2x2048x2048_S1024x2048_S2x2048x1024_2_1_01_0_n_n : DotDims S2x2048x2048 S1024x2048 S2x2048x1024 where
  lhsContracting := [2]
  rhsContracting := [1]
  lhsNonContracting := [0, 1]
  rhsNonContracting := [0]
  lhsBatch := []
  rhsBatch := []
  wf := dot_S2x2048x2048_S1024x2048_S2x2048x1024_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf
def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf

class Facts : Prop extends Facts₀ where

variable [Facts]
-- ==== Proof.KernelRun.lean ====
/-
  The kernel program's run with its two results named.

  @main is nine segments: four stretches of host operations and five pipelined regions. The contents of every
  unscoped buffer at each boundary form a fold from the launch memory (the boundaries' valuations, the last one
  being the contents at the return). Every weakly fair execution terminates without a fault, and at the return every
  unscoped buffer holds the last boundary's contents; here that fact is kept for the two result buffers (the output
  projection and the attention weights) beside the arguments, which end as launched.
-/
import proofs.«164297_j75917841924554_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; at the return the two result buffers hold the
    last boundary's contents and the arguments are as launched. -/
theorem results : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_v63_1) = W9 m ρ c (Proc.devRef .tc main_v63_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v67 (by decide)),
       h c _ (mem_uc main_v63_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Run

end
-- ==== Proof.KernelFold.lean ====
/-
  The kernel program's buffers at the boundaries of its nine segments, walked back.

  The contents of the buffers at each boundary are a fold from the launch memory: a stretch of host operations
  rewrites the buffers its operations write and no other; a pipelined region rewrites its output arrays (to what its
  write-backs leave) and no other buffer, its input arrays included. So a buffer that nothing between two boundaries
  writes holds the same contents at both. These are the walks the value proof needs: each argument from the boundary
  where a region or a host stretch reads it back to the launch memory; the reshaped hidden states, which three
  regions read, back to the first boundary; each region's output array from the boundary where it is next read
  back to the region that wrote it.
-/
import proofs.«164297_j75917841924554_2_alg».proof.Proof.Gen.KernelIdeal.Frame

set_option maxRecDepth 16384

noncomputable section

namespace Cert.KernelIdeal.Fold

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg) (c : Dev nD)

/-! ## Arguments, from where they are read back to the launch -/

/-- The query weights, as the first projection finds them. -/
theorem arg4_at1 : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The key weights, as the second projection finds them. -/
theorem arg5_at2 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The value weights, as the third projection finds them. -/
theorem arg6_at3 : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The cosines, as the host stretch between the projections and the attention finds them. -/
theorem arg1_at4 : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The sines, as the host stretch between the projections and the attention finds them. -/
theorem arg2_at4 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The query normalisation weights, as the host stretch between the projections and the attention finds them. -/
theorem arg8_at4 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The key normalisation weights, as the host stretch between the projections and the attention finds them. -/
theorem arg9_at4 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The mask, as the attention region finds it. -/
theorem arg3_at5 : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The output weights, as the last projection finds them. -/
theorem arg7_at7 : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The reshaped hidden states: written by the first host operation, read by three regions -/

/-- The second projection finds the reshaped hidden states as the first did. -/
theorem v0_at2 : W2 m ρ c (Proc.devRef .tc main_v0) = W1 m ρ c (Proc.devRef .tc main_v0) :=
  calc W2 m ρ c (Proc.devRef .tc main_v0)
    _ = W1 m ρ c (Proc.devRef .tc main_v0) := (W2_arr m ρ c 0).trans (((dat0 (V1 m ρ) c).arrAt_in 0 rfl _).trans (A_eq0 (V1 m ρ) c 0))

/-- So does the third. -/
theorem v0_at3 : W3 m ρ c (Proc.devRef .tc main_v0) = W1 m ρ c (Proc.devRef .tc main_v0) :=
  calc W3 m ρ c (Proc.devRef .tc main_v0)
    _ = W2 m ρ c (Proc.devRef .tc main_v0) := (W3_arr m ρ c 0).trans (((dat1 (V2 m ρ) c).arrAt_in 0 rfl _).trans (A_eq1 (V2 m ρ) c 0))
    _ = W1 m ρ c (Proc.devRef .tc main_v0) := (W2_arr m ρ c 0).trans (((dat0 (V1 m ρ) c).arrAt_in 0 rfl _).trans (A_eq0 (V1 m ρ) c 0))

/-! ## Each region's output array, where it is next read -/

/-- The raw query projection (with the gates) at the host stretch that normalises it: what region 0 left. -/
theorem v1_at4 : W4 m ρ c (Proc.devRef .tc main_v1) = (dat0 (V1 m ρ) c).arrAt 2 cfg0.N :=
  calc W4 m ρ c (Proc.devRef .tc main_v1)
    _ = W3 m ρ c (Proc.devRef .tc main_v1) := W4_of_ne m ρ c main_v1 (by decide)
    _ = W2 m ρ c (Proc.devRef .tc main_v1) := W3_of_ne m ρ c main_v1 (by decide)
    _ = (dat0 (V1 m ρ) c).arrAt 2 cfg0.N := W2_arr m ρ c 2

/-- The raw key projection there: what region 1 left. -/
theorem v2_at4 : W4 m ρ c (Proc.devRef .tc main_v2) = (dat1 (V2 m ρ) c).arrAt 2 cfg1.N :=
  calc W4 m ρ c (Proc.devRef .tc main_v2)
    _ = W3 m ρ c (Proc.devRef .tc main_v2) := W4_of_ne m ρ c main_v2 (by decide)
    _ = (dat1 (V2 m ρ) c).arrAt 2 cfg1.N := W3_arr m ρ c 2

/-- The value projection there: what region 2 left. -/
theorem v3_at4 : W4 m ρ c (Proc.devRef .tc main_v3) = (dat2 (V3 m ρ) c).arrAt 2 cfg2.N := W4_arr m ρ c 2

/-- The gated context where it is transposed for the output projection: what the attention region left. -/
theorem ctx_at6 : W6 m ρ c (Proc.devRef .tc main_v63_0) = (dat3 (V5 m ρ) c).arrAt 5 cfg3.N := W6_arr m ρ c 5

/-- The attention weights at the return: what the attention region left, untouched since. -/
theorem attn_at9 : W9 m ρ c (Proc.devRef .tc main_v63_1) = (dat3 (V5 m ρ) c).arrAt 6 cfg3.N :=
  calc W9 m ρ c (Proc.devRef .tc main_v63_1)
    _ = W8 m ρ c (Proc.devRef .tc main_v63_1) := StableHlo.after_of_forall_not_mem (b := Proc.devRef .tc main_v63_1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v63_1) := W8_of_ne m ρ c main_v63_1 (by decide)
    _ = W6 m ρ c (Proc.devRef .tc main_v63_1) := StableHlo.after_of_forall_not_mem (b := Proc.devRef .tc main_v63_1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat3 (V5 m ρ) c).arrAt 6 cfg3.N := W6_arr m ρ c 6

/-- The output projection before its last reshape: what region 4 left. -/
theorem out_at8 : W8 m ρ c (Proc.devRef .tc main_v66) = (dat4 (V7 m ρ) c).arrAt 2 cfg4.N := W8_arr m ρ c 2

end Cert.KernelIdeal.Fold

end
-- ==== Proof.Spec.lean ====
/-
  The function both programs compute, written once over the extended reals and independent of either program's
  layout: gated grouped-query attention with rotary embedding and per-head RMS normalisation.

  For a batch `b`, a position `s` and an output feature `o`, `lin W b s o = ∑ₖ X b s k · W o k` is a linear map
  (`y = x Wᵀ`). The query projection has 16 heads of width 256: the first 128 features of head `h` are the query,
  the last 128 its gate. Keys and values have 8 heads of width 128, each shared by two query heads (`h / 2`).
  Queries and keys are RMS-normalised over the 128 features of a head and rotated (`rope`). A row of scores is
  the scaled inner products of one query with all 2048 keys; masked entries are replaced by (row minimum − 20);
  the row is then soft-maxed (`softrow`). The context is the attention-weighted sum of values times the logistic
  of the gate, and the result is its linear image under `Wo`, heads laid side by side (`k = 128 h + d`).

  Float literals stay as their words (`Ideal.ofBits`): both programs carry the same words, so none is evaluated here.
-/
import Idealize.ShloMosaic.PureOps.Ideal
import Idealize.ShloMosaic.Lib.ValueIdx

noncomputable section

namespace Cert.Spec

open Idealize.ShloMosaic

/-- 128, the width of a head (the divisor of the mean of squares). -/
abbrev w128 : EReal := Ideal.ofBits .f32 0x43000000#32
/-- The normalisation's epsilon, 1e-6 rounded to f32. -/
abbrev wEps : EReal := Ideal.ofBits .f32 0x358637BD#32
/-- The score scale, 128^(-1/2) rounded to f32. -/
abbrev wScale : EReal := Ideal.ofBits .f32 0x3DB504F3#32
/-- +∞, the start of a row's minimum. -/
abbrev wPosInf : EReal := Ideal.ofBits .f32 0x7F800000#32
/-- −∞, the start of a row's maximum. -/
abbrev wNegInf : EReal := Ideal.ofBits .f32 0xFF800000#32
/-- 20, the offset below the row minimum that a masked score takes. -/
abbrev w20 : EReal := Ideal.ofBits .f32 0x41A00000#32

/-- `y = x Wᵀ` at batch `b`, position `s`, output feature `o`. -/
def lin {N : ℕ} (X : Fin 2 → Fin 2048 → Fin 2048 → EReal) (W : Fin N → Fin 2048 → EReal)
    (b : Fin 2) (s : Fin 2048) (o : Fin N) : EReal :=
  ∑ k : Fin 2048, X b s k * W o k

/-- RMS normalisation of one head's 128 features `y` with weights `w`: `y · rsqrt(mean(y²) + ε) · w`. -/
def rms (y w : Fin 128 → EReal) (d : Fin 128) : EReal :=
  y d * Ideal.rsqrt (Ideal.div (∑ e : Fin 128, y e * y e) w128 + wEps) * w d

/-- The half rotation: the upper half negated in front of the lower half. -/
def rot (y : Fin 128 → EReal) (d : Fin 128) : EReal :=
  if h : d.val < 64 then -(y ⟨d.val + 64, by omega⟩) else y ⟨d.val - 64, by omega⟩

/-- Rotary embedding of one head's features with that position's cosines and sines. -/
def rope (y cs sn : Fin 128 → EReal) (d : Fin 128) : EReal :=
  y d * cs d + rot y d * sn d

/-- What a masked score is replaced by: the row's minimum less 20. -/
def fill (sc : Fin 2048 → EReal) : EReal :=
  (Finset.univ : Finset (Fin 2048)).fold min wPosInf sc - w20

/-- A row of scores with the masked ones (mask word nonzero) replaced. -/
def masked (sc : Fin 2048 → EReal) (mk : Fin 2048 → BitVec 32) (s : Fin 2048) : EReal :=
  if mk s = 0#32 then sc s else fill sc

/-- A row's maximum, from −∞. -/
def rowmax (f : Fin 2048 → EReal) : EReal :=
  (Finset.univ : Finset (Fin 2048)).fold max wNegInf f

/-- The soft-max of the masked row at key `s`. -/
def softrow (sc : Fin 2048 → EReal) (mk : Fin 2048 → BitVec 32) (s : Fin 2048) : EReal :=
  Ideal.div (Ideal.exp (masked sc mk s - rowmax (masked sc mk)))
    (∑ s' : Fin 2048, Ideal.exp (masked sc mk s' - rowmax (masked sc mk)))

section Whole

variable (X : Fin 2 → Fin 2048 → Fin 2048 → EReal) (Cs Sn : Fin 2 → Fin 2048 → Fin 128 → EReal)
  (Mk : Fin 2 → Fin 2048 → Fin 2048 → BitVec 32)
  (Wq : Fin 4096 → Fin 2048 → EReal) (Wk Wv : Fin 1024 → Fin 2048 → EReal) (Wo : Fin 2048 → Fin 2048 → EReal)
  (qw kw : Fin 128 → EReal)

/-- The raw query features of head `h` (the first 128 of its 256 projected features). -/
def qraw (b : Fin 2) (s : Fin 2048) (h : Fin 16) (e : Fin 128) : EReal :=
  lin X Wq b s ⟨256 * h.val + e.val, by omega⟩

/-- The gate of head `h` (the last 128 of its 256 projected features). -/
def gate (b : Fin 2) (h : Fin 16) (s : Fin 2048) (d : Fin 128) : EReal :=
  lin X Wq b s ⟨256 * h.val + 128 + d.val, by omega⟩

/-- The raw key features of key head `g`. -/
def kraw (b : Fin 2) (s : Fin 2048) (g : Fin 8) (e : Fin 128) : EReal :=
  lin X Wk b s ⟨128 * g.val + e.val, by omega⟩

/-- The values of key head `g`. -/
def val (b : Fin 2) (g : Fin 8) (s : Fin 2048) (d : Fin 128) : EReal :=
  lin X Wv b s ⟨128 * g.val + d.val, by omega⟩

/-- Normalised, rotated queries. -/
def qry (b : Fin 2) (h : Fin 16) (s : Fin 2048) (d : Fin 128) : EReal :=
  rope (rms (qraw X Wq b s h) qw) (Cs b s) (Sn b s) d

/-- Normalised, rotated keys. -/
def key (b : Fin 2) (g : Fin 8) (s : Fin 2048) (d : Fin 128) : EReal :=
  rope (rms (kraw X Wk b s g) kw) (Cs b s) (Sn b s) d

/-- The scaled score of query position `q` of head `h` against key position `s` of its key head. -/
def score (b : Fin 2) (h : Fin 16) (q s : Fin 2048) : EReal :=
  (∑ d : Fin 128, qry X Cs Sn Wq qw b h q d * key X Cs Sn Wk kw b ⟨h.val / 2, by omega⟩ s d) * wScale

/-- The attention weights: the second result. -/
def attn (b : Fin 2) (h : Fin 16) (q s : Fin 2048) : EReal :=
  softrow (score X Cs Sn Wq Wk qw kw b h q) (Mk b q) s

/-- The gated context of head `h`. -/
def ctx (b : Fin 2) (h : Fin 16) (q : Fin 2048) (d : Fin 128) : EReal :=
  (∑ s : Fin 2048, attn X Cs Sn Mk Wq Wk qw kw b h q s * val X Wv b ⟨h.val / 2, by omega⟩ s d)
    * Ideal.logistic (gate X Wq b h q d)

/-- The output projection: the first result. -/
def out (b : Fin 2) (s : Fin 2048) (o : Fin 2048) : EReal :=
  ∑ k : Fin 2048, ctx X Cs Sn Mk Wq Wk Wv qw kw b ⟨k.val / 128, by omega⟩ s ⟨k.val % 128, by omega⟩ * Wo o k

end Whole

end Cert.Spec

end
-- ==== Proof.SpecArr.lean ====
/-
  The two results as whole arrays, and the arguments as curried functions of their coordinates.

  Both programs are compared with the same two arrays: the output projection [2, 2048, 2048] and the attention
  weights [2, 16, 2048, 2048], each the specification's function of the ten argument arrays read at coordinates.
-/
import proofs.«164297_j75917841924554_2_alg».proof.Proof.Spec

noncomputable section

namespace Cert.Spec

open Idealize.ShloMosaic Idealize.ShloMosaic.ValueIdx

/-- A [2, 2048, K] array by batch, position, feature. -/
abbrev c3 {K : ℕ} (x : (⟨3, ![2, 2048, K]⟩ : Shape).Idx → EReal) : Fin 2 → Fin 2048 → Fin K → EReal :=
  fun b s k => x (ix3 b s k)
/-- The mask [2, 1, 2048, 2048] by batch, query position, key position. -/
abbrev cM (x : (⟨4, ![2, 1, 2048, 2048]⟩ : Shape).Idx → BitVec 32) : Fin 2 → Fin 2048 → Fin 2048 → BitVec 32 :=
  fun b q s => x (ix4 b (0 : Fin 1) q s)
/-- A weight matrix [N, 2048] by output feature, input feature. -/
abbrev cW {N : ℕ} (x : (⟨2, ![N, 2048]⟩ : Shape).Idx → EReal) : Fin N → Fin 2048 → EReal :=
  fun o k => x (ix2 o k)
/-- A normalisation weight vector [128]. -/
abbrev cN (x : (⟨1, ![128]⟩ : Shape).Idx → EReal) : Fin 128 → EReal :=
  fun e => x (ix1 e)

variable (x0 : (⟨3, ![2, 2048, 2048]⟩ : Shape).Idx → EReal) (x1 x2 : (⟨3, ![2, 2048, 128]⟩ : Shape).Idx → EReal)
  (x3 : (⟨4, ![2, 1, 2048, 2048]⟩ : Shape).Idx → BitVec 32)
  (x4 : (⟨2, ![4096, 2048]⟩ : Shape).Idx → EReal) (x5 x6 : (⟨2, ![1024, 2048]⟩ : Shape).Idx → EReal)
  (x7 : (⟨2, ![2048, 2048]⟩ : Shape).Idx → EReal) (x8 x9 : (⟨1, ![128]⟩ : Shape).Idx → EReal)

/-- The attention weights as an array. -/
def attnArr : (⟨4, ![2, 16, 2048, 2048]⟩ : Shape).Idx → EReal :=
  fun i => attn (c3 x0) (c3 x1) (c3 x2) (cM x3) (cW x4) (cW x5) (cN x8) (cN x9) (i 0) (i 1) (i 2) (i 3)

/-- The output projection as an array. -/
def outArr : (⟨3, ![2, 2048, 2048]⟩ : Shape).Idx → EReal :=
  fun i => out (c3 x0) (c3 x1) (c3 x2) (cM x3) (cW x4) (cW x5) (cW x6) (cW x7) (cN x8) (cN x9) (i 0) (i 1) (i 2)

theorem attnArr_apply (b : Fin 2) (h : Fin 16) (q s : Fin 2048) :
    attnArr x0 x1 x2 x3 x4 x5 x8 x9 (ix4 b h q s)
      = attn (c3 x0) (c3 x1) (c3 x2) (cM x3) (cW x4) (cW x5) (cN x8) (cN x9) b h q s := rfl

theorem outArr_apply (b : Fin 2) (s o : Fin 2048) :
    outArr x0 x1 x2 x3 x4 x5 x6 x7 x8 x9 (ix3 b s o)
      = out (c3 x0) (c3 x1) (c3 x2) (cM x3) (cW x4) (cW x5) (cW x6) (cW x7) (cN x8) (cN x9) b s o := rfl

end Cert.Spec

end
-- ==== Proof.RegionMMPay.lean ====
/-
  The body shared by the four projection regions, read at one entry.

  Each of these regions loads a [2048, 2048] block `x` of the left array and a [512, 2048] block `w` of the right
  array and stores, into a [2048, 512] block, the product that contracts the second axis of `x` against the second
  axis of `w`, accumulated from zero. At the extended reals a change of float format is the identity and the zero
  accumulator adds nothing, so entry (a, b) of the stored block is the plain sum over k of x (a, k) · w (b, k).

  The contraction's index set has one axis of extent 2048; the sum over it is re-indexed through that one coordinate,
  and the dimension numbers read the left operand at (a, k) and the right operand at (b, k).
-/
import proofs.«164297_j75917841924554_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.ValueIdx

namespace Cert.KernelIdeal.RegionMM

open Cert.KernelIdeal Cert.KernelIdeal.Gen

/-- The offset pair (0, 0), as the constant zero function of the axis: every load and the store of these bodies start
    at the corner of their block. -/
theorem off_zero : (![0, 0] : Fin 2 → Nat) = fun _ => 0 := funext fun a => by fin_cases a <;> rfl

/-! ## Where the dimension numbers read their operands -/

/-- The left operand's row is the result's row. -/
theorem lhs_row (i : S2048x512.Idx) (q : dot_S2048x2048_S512x2048_S2048x512_1_1_0_0_n_n.contr.Idx) :
    (dot_S2048x2048_S512x2048_S2048x512_1_1_0_0_n_n.lhsIdx i q 0).val = (i 0).val := by
  unfold DotDims.lhsIdx
  rw [dif_neg (show ¬(0 : Fin S2048x2048.rank) ∈ dot_S2048x2048_S512x2048_S2048x512_1_1_0_0_n_n.lhsBatch by decide),
    dif_pos (show (0 : Fin S2048x2048.rank) ∈ dot_S2048x2048_S512x2048_S2048x512_1_1_0_0_n_n.lhsNonContracting by decide)]
  rfl

/-- The left operand's column is the contracted coordinate. -/
theorem lhs_col (i : S2048x512.Idx) (q : dot_S2048x2048_S512x2048_S2048x512_1_1_0_0_n_n.contr.Idx) :
    (dot_S2048x2048_S512x2048_S2048x512_1_1_0_0_n_n.lhsIdx i q 1).val = (q ⟨0, by decide⟩).val :=
  dot_S2048x2048_S512x2048_S2048x512_1_1_0_0_n_n.lhsIdx_val_of_single rfl i q

/-- The right operand's row is the result's column. -/
theorem rhs_row (i : S2048x512.Idx) (q : dot_S2048x2048_S512x2048_S2048x512_1_1_0_0_n_n.contr.Idx) :
    (dot_S2048x2048_S512x2048_S2048x512_1_1_0_0_n_n.rhsIdx i q 0).val = (i 1).val := by
  unfold DotDims.rhsIdx
  rw [dif_neg (show ¬(0 : Fin S512x2048.rank) ∈ dot_S2048x2048_S512x2048_S2048x512_1_1_0_0_n_n.rhsBatch by decide),
    dif_pos (show (0 : Fin S512x2048.rank) ∈ dot_S2048x2048_S512x2048_S2048x512_1_1_0_0_n_n.rhsNonContracting by decide)]
  rfl

/-- The right operand's column is the contracted coordinate. -/
theorem rhs_col (i : S2048x512.Idx) (q : dot_S2048x2048_S512x2048_S2048x512_1_1_0_0_n_n.contr.Idx) :
    (dot_S2048x2048_S512x2048_S2048x512_1_1_0_0_n_n.rhsIdx i q 1).val = (q ⟨0, by decide⟩).val :=
  dot_S2048x2048_S512x2048_S2048x512_1_1_0_0_n_n.rhsIdx_val_of_single rfl i q

/-! ## The product into a zero accumulator at an entry -/

/-- Entry (a, b) of the product accumulated from zero is the sum over k of l (a, k) · r (b, k). -/
theorem matmul_at {φ₁ φ₂ : FTy} (l : FVec Ideal S2048x2048 φ₁) (r : FVec Ideal S512x2048 φ₂) (a : Fin 2048) (b : Fin 512) :
    FloatOps.matmul dot_S2048x2048_S512x2048_S2048x512_1_1_0_0_n_n none l r (constant S2048x512 .f32 0x00000000#32) (ix2 a b)
      = ∑ k : Fin 2048, l (ix2 a k) * r (ix2 b k) := by
  rw [Ideal.matmul_constant_zero_apply,
    ← Equiv.sum_comp (contrEquiv1 dot_S2048x2048_S512x2048_S2048x512_1_1_0_0_n_n 2048 rfl rfl).symm]
  refine Finset.sum_congr rfl fun k _ => ?_
  have hk := contrEquiv1_symm_val dot_S2048x2048_S512x2048_S2048x512_1_1_0_0_n_n 2048 rfl rfl k
  have el : dot_S2048x2048_S512x2048_S2048x512_1_1_0_0_n_n.lhsIdx (ix2 a b)
      ((contrEquiv1 dot_S2048x2048_S512x2048_S2048x512_1_1_0_0_n_n 2048 rfl rfl).symm k) = ix2 a k :=
    funext fun d => Fin.ext (by
      match d with
      | ⟨0, _⟩ => exact lhs_row _ _
      | ⟨1, _⟩ => exact (lhs_col _ _).trans hk)
  have er : dot_S2048x2048_S512x2048_S2048x512_1_1_0_0_n_n.rhsIdx (ix2 a b)
      ((contrEquiv1 dot_S2048x2048_S512x2048_S2048x512_1_1_0_0_n_n 2048 rfl rfl).symm k) = ix2 b k :=
    funext fun d => Fin.ext (by
      match d with
      | ⟨0, _⟩ => exact rhs_row _ _
      | ⟨1, _⟩ => exact (rhs_col _ _).trans hk)
  rw [el, er]

/-! ## The four payloads at an entry -/

/-- Region 0's stored block at (a, b): the format changes and the identity cast drop out, the product remains. -/
theorem pay0_at (x0 : Vec Ideal S2048x2048 .f32) (x1 : Vec Ideal S512x2048 .f32) (a : Fin 2048) (b : Fin 512) :
    (k0_pay1 (F := Ideal) x0 x1 : S2048x512.Idx → EReal) (ix2 a b) = ∑ k : Fin 2048, x0 (ix2 a k) * x1 (ix2 b k) := by
  unfold k0_pay1
  refine (matmul_at (φ₁ := .bf16) (φ₂ := .bf16)
    (truncf .bf16 (shapeCast S2048x2048 x0 shapeCasts_S2048x2048_S2048x2048) bitsLt_bf16_f32)
    (truncf .bf16 x1 bitsLt_bf16_f32) a b).trans ?_
  refine Finset.sum_congr rfl fun k _ => ?_
  rw [truncf_apply, truncf_apply, shapeCast_self]

/-- Region 1's stored block at (a, b). -/
theorem pay1_at (x0 : Vec Ideal S2048x2048 .f32) (x1 : Vec Ideal S512x2048 .f32) (a : Fin 2048) (b : Fin 512) :
    (k1_pay1 (F := Ideal) x0 x1 : S2048x512.Idx → EReal) (ix2 a b) = ∑ k : Fin 2048, x0 (ix2 a k) * x1 (ix2 b k) := by
  unfold k1_pay1
  refine (matmul_at (φ₁ := .bf16) (φ₂ := .bf16)
    (truncf .bf16 (shapeCast S2048x2048 x0 shapeCasts_S2048x2048_S2048x2048) bitsLt_bf16_f32)
    (truncf .bf16 x1 bitsLt_bf16_f32) a b).trans ?_
  refine Finset.sum_congr rfl fun k _ => ?_
  rw [truncf_apply, truncf_apply, shapeCast_self]

/-- Region 2's stored block at (a, b). -/
theorem pay2_at (x0 : Vec Ideal S2048x2048 .f32) (x1 : Vec Ideal S512x2048 .f32) (a : Fin 2048) (b : Fin 512) :
    (k2_pay1 (F := Ideal) x0 x1 : S2048x512.Idx → EReal) (ix2 a b) = ∑ k : Fin 2048, x0 (ix2 a k) * x1 (ix2 b k) := by
  unfold k2_pay1
  refine (matmul_at (φ₁ := .bf16) (φ₂ := .bf16)
    (truncf .bf16 (shapeCast S2048x2048 x0 shapeCasts_S2048x2048_S2048x2048) bitsLt_bf16_f32)
    (truncf .bf16 x1 bitsLt_bf16_f32) a b).trans ?_
  refine Finset.sum_congr rfl fun k _ => ?_
  rw [truncf_apply, truncf_apply, shapeCast_self]

/-- Region 4's stored block at (a, b): the same product, stored without a last change of format. -/
theorem pay4_at (x0 : Vec Ideal S2048x2048 .f32) (x1 : Vec Ideal S512x2048 .f32) (a : Fin 2048) (b : Fin 512) :
    (k4_pay1 (F := Ideal) x0 x1 : S2048x512.Idx → EReal) (ix2 a b) = ∑ k : Fin 2048, x0 (ix2 a k) * x1 (ix2 b k) := by
  unfold k4_pay1
  refine (matmul_at (φ₁ := .bf16) (φ₂ := .bf16)
    (truncf .bf16 (shapeCast S2048x2048 x0 shapeCasts_S2048x2048_S2048x2048) bitsLt_bf16_f32)
    (truncf .bf16 x1 bitsLt_bf16_f32) a b).trans ?_
  refine Finset.sum_congr rfl fun k _ => ?_
  rw [truncf_apply, truncf_apply, shapeCast_self]

end Cert.KernelIdeal.RegionMM

end
-- ==== Proof.RegionMM0.lean ====
/-
  Projection region 0: the array it leaves is the whole product.

  The region runs its body on a grid of 2 × 8 points. At the point with block indices (i, j) the body reads rows
  2048·i … 2048·i + 2047 of the left array (all 2048 columns) and rows 512·j … 512·j + 511 of the right array (all
  2048 columns), and its result block goes to rows 2048·i …, columns 512·j … of the output. Entry (a, b) of that block
  is ∑ₖ left (2048·i + a, k) · right (512·j + b, k): entry (2048·i + a, 512·j + b) of the one function
  (p, q) ↦ ∑ₖ left (p, k) · right (q, k). The 2 × 8 blocks tile the [4096, 4096] output, so the output array after
  the region is that function, whatever the two arrays hold when the region is entered.
-/
import proofs.«164297_j75917841924554_2_alg».proof.Proof.Gen.KernelIdeal.Frame
import proofs.«164297_j75917841924554_2_alg».proof.Proof.RegionMMPay
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionMM

open Cert.KernelIdeal Cert.KernelIdeal.Gen

variable (V : (c : Dev nD) → (b : Ref sig .tc) → Buf (Elt Ideal) ((c : Thread nD τ).loc b)) (c : Dev nD)

/-- The whole product: entry (p, q) is the sum over k of left (p, k) · right (q, k). -/
def prod0 (X : S4096x2048.Idx → EReal) (W : S4096x2048.Idx → EReal) : S4096x4096.Idx → EReal :=
  fun i => ∑ k : Fin 2048, X (ix2 (⟨(i 0).val, idx2_lt0 i⟩ : Fin 4096) k) * W (ix2 (⟨(i 1).val, idx2_lt1 i⟩ : Fin 4096) k)

/-- The block indices at every grid point: the left window moves with the output's row block and the right window with
    the output's column block, both windows take all 2048 columns, and the output's block indices stay within 2 × 8. -/
theorem idx_facts0 : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 1 ∧ win0_2.index t (1 : Fin 2) ≤ 7 :=
  (by decide +kernel : ∀ t : Fin grid0.N, _)

/-- Every pair of block indices in 2 × 8 is the output window's at some grid point. -/
theorem idx_onto0 : ∀ (q0 : Fin 2) (q1 : Fin 8), ∃ t : Fin cfg0.N, win0_2.index t = ![q0.val, q1.val] :=
  (by decide +kernel : ∀ (q0 : Fin 2) (q1 : Fin 8), ∃ t : Fin grid0.N, win0_2.index t = ![q0.val, q1.val])

/-- What a grid point writes back is its block of the whole product: the body's entry (a, b) sums the left block's row
    a against the right block's row b, and those rows are rows 2048·i + a and 512·j + b of the arrays. -/
theorem flushed0_eq (t : Fin cfg0.N) :
    (dat0 (F := Ideal) V c).flushed 2 t
      = ((cfg0.win 2).blk t).view.read (Elt Ideal) (prod0 (V c main_v0) (V c main_arg4)) := by
  show (cfg0.win 2).cut (grid0.coords t) ((dat0 V c).after 2 t) = _
  rw [after0_2]
  unfold out0_2
  rw [View.canon_unit_zero off_zero]
  simp only [View.ld_unit_zero (S := S2048x2048) off_zero, View.ld_unit_zero (S := S512x2048) off_zero]
  obtain ⟨e0, e1, e2, e3, -, -⟩ := idx_facts0 t
  funext j
  have ha : (j 0).val < 2048 := (j 0).isLt
  have hb : (j 1).val < 512 := (j 1).isLt
  have hj : (win0 2).xinj (grid0.coords t) j = ix2 (⟨(j 0).val, ha⟩ : Fin 2048) (⟨(j 1).val, hb⟩ : Fin 512) :=
    funext fun d => Fin.ext (by match d with | ⟨0, _⟩ => rfl | ⟨1, _⟩ => rfl)
  show k0_pay1 (iblk0 V c 0 t) (iblk0 V c 1 t) ((win0 2).xinj (grid0.coords t) j)
      = prod0 (V c main_v0) (V c main_arg4) (((cfg0.win 2).blk t).view.emb j)
  rw [hj]
  refine (pay0_at (iblk0 V c 0 t) (iblk0 V c 1 t) ⟨(j 0).val, ha⟩ ⟨(j 1).val, hb⟩).trans ?_
  unfold prod0
  refine Finset.sum_congr rfl fun k _ => ?_
  -- row a of the left block is the row of the left array that the output entry sits on; its columns are the array's
  have h0 : ((cfg0.win 0).blk t).view.emb (ix2 (⟨(j 0).val, ha⟩ : Fin 2048) k)
      = ix2 (⟨(((cfg0.win 2).blk t).view.emb j 0).val, idx2_lt0 _⟩ : Fin 4096) k := by
    funext d; apply Fin.ext
    match d with
    | ⟨0, _⟩ => show win0_0.index t (0 : Fin 2) * 2048 + 1 * (j 0).val = win0_2.index t (0 : Fin 2) * 2048 + 1 * (j 0).val; omega
    | ⟨1, _⟩ => show win0_0.index t (1 : Fin 2) * 2048 + 1 * k.val = k.val; omega
  -- row b of the right block is the row of the right array numbered by the output entry's column
  have h1 : ((cfg0.win 1).blk t).view.emb (ix2 (⟨(j 1).val, hb⟩ : Fin 512) k)
      = ix2 (⟨(((cfg0.win 2).blk t).view.emb j 1).val, idx2_lt1 _⟩ : Fin 4096) k := by
    funext d; apply Fin.ext
    match d with
    | ⟨0, _⟩ => show win0_1.index t (0 : Fin 2) * 512 + 1 * (j 1).val = win0_2.index t (1 : Fin 2) * 512 + 1 * (j 1).val; omega
    | ⟨1, _⟩ => show win0_1.index t (1 : Fin 2) * 2048 + 1 * k.val = k.val; omega
  have f0 : iblk0 V c 0 t (ix2 (⟨(j 0).val, ha⟩ : Fin 2048) k)
      = V c main_v0 (ix2 (⟨(((cfg0.win 2).blk t).view.emb j 0).val, idx2_lt0 _⟩ : Fin 4096) k) := by
    show V c main_v0 (((cfg0.win 0).blk t).view.emb (ix2 (⟨(j 0).val, ha⟩ : Fin 2048) k)) = _
    rw [h0]
  have f1 : iblk0 V c 1 t (ix2 (⟨(j 1).val, hb⟩ : Fin 512) k)
      = V c main_arg4 (ix2 (⟨(((cfg0.win 2).blk t).view.emb j 1).val, idx2_lt1 _⟩ : Fin 4096) k) := by
    show V c main_arg4 (((cfg0.win 1).blk t).view.emb (ix2 (⟨(j 1).val, hb⟩ : Fin 512) k)) = _
    rw [h1]
  rw [f0, f1]

/-- An entry of the output is in a point's block exactly when each coordinate lies in the block's range on its axis. -/
theorem mem_blk0 (t : Fin cfg0.N) (i : S4096x4096.Idx) :
    i ∈ ((cfg0.win 2).blk t).view.set
      ↔ ∀ a : Fin 2, win0_2.index t a * S2048x512.size a ≤ (i a).val
          ∧ (i a).val < win0_2.index t a * S2048x512.size a + S2048x512.size a := by
  show i ∈ ((View.whole main_v1).slice (win0_2.rect t)).set ↔ _
  rw [View.set_slice_whole, Rect.mem_set_unit]
  exact Iff.rfl

/-- The blocks tile the output: entry (p, q) is in the block with indices (p / 2048, q / 512), and every point writes
    its block back. -/
theorem cover0 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto0 ⟨(i 0).val / 2048, by omega⟩ ⟨(i 1).val / 512, by omega⟩
  have q0 : win0_2.index t (0 : Fin 2) = (i 0).val / 2048 := congrFun ht 0
  have q1 : win0_2.index t (1 : Fin 2) = (i 1).val / 512 := congrFun ht 1
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- The output array after the region is the whole product of the two arrays as the region finds them. -/
theorem arr0_eq : (dat0 (F := Ideal) V c).arrAt 2 cfg0.N = prod0 (V c main_v0) (V c main_arg4) :=
  (dat0 (F := Ideal) V c).arrAt_eq_of_cover 2 (prod0 (V c main_v0) (V c main_arg4))
    (fun t _ => flushed0_eq V c t) cover0

/-- Entry (p, q) of the output array after region 0. -/
theorem final0 (x : S4096x2048.Idx → EReal) (w : S4096x2048.Idx → EReal) (y : S4096x4096.Idx → EReal)
    (hx : V c main_v0 = x) (hw : V c main_arg4 = w) (hy : (dat0 (F := Ideal) V c).arrAt 2 cfg0.N = y)
    (p : Fin 4096) (q : Fin 4096) :
    y (ix2 p q) = ∑ k : Fin 2048, x (ix2 p k) * w (ix2 q k) := by
  subst hx hw hy
  rw [arr0_eq]
  rfl

end Cert.KernelIdeal.RegionMM

end
-- ==== Proof.RegionMM1.lean ====
/-
  Projection region 1: the array it leaves is the whole product.

  The region runs its body on a grid of 2 × 2 points. At the point with block indices (i, j) the body reads rows
  2048·i … 2048·i + 2047 of the left array (all 2048 columns) and rows 512·j … 512·j + 511 of the right array (all
  2048 columns), and its result block goes to rows 2048·i …, columns 512·j … of the output. Entry (a, b) of that block
  is ∑ₖ left (2048·i + a, k) · right (512·j + b, k): entry (2048·i + a, 512·j + b) of the one function
  (p, q) ↦ ∑ₖ left (p, k) · right (q, k). The 2 × 2 blocks tile the [4096, 1024] output, so the output array after
  the region is that function, whatever the two arrays hold when the region is entered.
-/
import proofs.«164297_j75917841924554_2_alg».proof.Proof.Gen.KernelIdeal.Frame
import proofs.«164297_j75917841924554_2_alg».proof.Proof.RegionMMPay
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionMM

open Cert.KernelIdeal Cert.KernelIdeal.Gen

variable (V : (c : Dev nD) → (b : Ref sig .tc) → Buf (Elt Ideal) ((c : Thread nD τ).loc b)) (c : Dev nD)

/-- The whole product: entry (p, q) is the sum over k of left (p, k) · right (q, k). -/
def prod1 (X : S4096x2048.Idx → EReal) (W : S1024x2048.Idx → EReal) : S4096x1024.Idx → EReal :=
  fun i => ∑ k : Fin 2048, X (ix2 (⟨(i 0).val, idx2_lt0 i⟩ : Fin 4096) k) * W (ix2 (⟨(i 1).val, idx2_lt1 i⟩ : Fin 1024) k)

/-- The block indices at every grid point: the left window moves with the output's row block and the right window with
    the output's column block, both windows take all 2048 columns, and the output's block indices stay within 2 × 2. -/
theorem idx_facts1 : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 1 ∧ win1_2.index t (1 : Fin 2) ≤ 1 :=
  (by decide +kernel : ∀ t : Fin grid1.N, _)

/-- Every pair of block indices in 2 × 2 is the output window's at some grid point. -/
theorem idx_onto1 : ∀ (q0 : Fin 2) (q1 : Fin 2), ∃ t : Fin cfg1.N, win1_2.index t = ![q0.val, q1.val] :=
  (by decide +kernel : ∀ (q0 : Fin 2) (q1 : Fin 2), ∃ t : Fin grid1.N, win1_2.index t = ![q0.val, q1.val])

/-- What a grid point writes back is its block of the whole product: the body's entry (a, b) sums the left block's row
    a against the right block's row b, and those rows are rows 2048·i + a and 512·j + b of the arrays. -/
theorem flushed1_eq (t : Fin cfg1.N) :
    (dat1 (F := Ideal) V c).flushed 2 t
      = ((cfg1.win 2).blk t).view.read (Elt Ideal) (prod1 (V c main_v0) (V c main_arg5)) := by
  show (cfg1.win 2).cut (grid1.coords t) ((dat1 V c).after 2 t) = _
  rw [after1_2]
  unfold out1_2
  rw [View.canon_unit_zero off_zero]
  simp only [View.ld_unit_zero (S := S2048x2048) off_zero, View.ld_unit_zero (S := S512x2048) off_zero]
  obtain ⟨e0, e1, e2, e3, -, -⟩ := idx_facts1 t
  funext j
  have ha : (j 0).val < 2048 := (j 0).isLt
  have hb : (j 1).val < 512 := (j 1).isLt
  have hj : (win1 2).xinj (grid1.coords t) j = ix2 (⟨(j 0).val, ha⟩ : Fin 2048) (⟨(j 1).val, hb⟩ : Fin 512) :=
    funext fun d => Fin.ext (by match d with | ⟨0, _⟩ => rfl | ⟨1, _⟩ => rfl)
  show k1_pay1 (iblk1 V c 0 t) (iblk1 V c 1 t) ((win1 2).xinj (grid1.coords t) j)
      = prod1 (V c main_v0) (V c main_arg5) (((cfg1.win 2).blk t).view.emb j)
  rw [hj]
  refine (pay1_at (iblk1 V c 0 t) (iblk1 V c 1 t) ⟨(j 0).val, ha⟩ ⟨(j 1).val, hb⟩).trans ?_
  unfold prod1
  refine Finset.sum_congr rfl fun k _ => ?_
  -- row a of the left block is the row of the left array that the output entry sits on; its columns are the array's
  have h0 : ((cfg1.win 0).blk t).view.emb (ix2 (⟨(j 0).val, ha⟩ : Fin 2048) k)
      = ix2 (⟨(((cfg1.win 2).blk t).view.emb j 0).val, idx2_lt0 _⟩ : Fin 4096) k := by
    funext d; apply Fin.ext
    match d with
    | ⟨0, _⟩ => show win1_0.index t (0 : Fin 2) * 2048 + 1 * (j 0).val = win1_2.index t (0 : Fin 2) * 2048 + 1 * (j 0).val; omega
    | ⟨1, _⟩ => show win1_0.index t (1 : Fin 2) * 2048 + 1 * k.val = k.val; omega
  -- row b of the right block is the row of the right array numbered by the output entry's column
  have h1 : ((cfg1.win 1).blk t).view.emb (ix2 (⟨(j 1).val, hb⟩ : Fin 512) k)
      = ix2 (⟨(((cfg1.win 2).blk t).view.emb j 1).val, idx2_lt1 _⟩ : Fin 1024) k := by
    funext d; apply Fin.ext
    match d with
    | ⟨0, _⟩ => show win1_1.index t (0 : Fin 2) * 512 + 1 * (j 1).val = win1_2.index t (1 : Fin 2) * 512 + 1 * (j 1).val; omega
    | ⟨1, _⟩ => show win1_1.index t (1 : Fin 2) * 2048 + 1 * k.val = k.val; omega
  have f0 : iblk1 V c 0 t (ix2 (⟨(j 0).val, ha⟩ : Fin 2048) k)
      = V c main_v0 (ix2 (⟨(((cfg1.win 2).blk t).view.emb j 0).val, idx2_lt0 _⟩ : Fin 4096) k) := by
    show V c main_v0 (((cfg1.win 0).blk t).view.emb (ix2 (⟨(j 0).val, ha⟩ : Fin 2048) k)) = _
    rw [h0]
  have f1 : iblk1 V c 1 t (ix2 (⟨(j 1).val, hb⟩ : Fin 512) k)
      = V c main_arg5 (ix2 (⟨(((cfg1.win 2).blk t).view.emb j 1).val, idx2_lt1 _⟩ : Fin 1024) k) := by
    show V c main_arg5 (((cfg1.win 1).blk t).view.emb (ix2 (⟨(j 1).val, hb⟩ : Fin 512) k)) = _
    rw [h1]
  rw [f0, f1]

/-- An entry of the output is in a point's block exactly when each coordinate lies in the block's range on its axis. -/
theorem mem_blk1 (t : Fin cfg1.N) (i : S4096x1024.Idx) :
    i ∈ ((cfg1.win 2).blk t).view.set
      ↔ ∀ a : Fin 2, win1_2.index t a * S2048x512.size a ≤ (i a).val
          ∧ (i a).val < win1_2.index t a * S2048x512.size a + S2048x512.size a := by
  show i ∈ ((View.whole main_v2).slice (win1_2.rect t)).set ↔ _
  rw [View.set_slice_whole, Rect.mem_set_unit]
  exact Iff.rfl

/-- The blocks tile the output: entry (p, q) is in the block with indices (p / 2048, q / 512), and every point writes
    its block back. -/
theorem cover1 (i : S4096x1024.Idx) :
    ∃ t : Fin cfg1.N, (cfg1.win 2).flush t = true ∧ i ∈ ((cfg1.win 2).blk t).view.set := by
  have hi0 : (i 0).val < 4096 := (i 0).isLt
  have hi1 : (i 1).val < 1024 := (i 1).isLt
  obtain ⟨t, ht⟩ := idx_onto1 ⟨(i 0).val / 2048, by omega⟩ ⟨(i 1).val / 512, by omega⟩
  have q0 : win1_2.index t (0 : Fin 2) = (i 0).val / 2048 := congrFun ht 0
  have q1 : win1_2.index t (1 : Fin 2) = (i 1).val / 512 := congrFun ht 1
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 512 ≤ (i 1).val ∧ (i 1).val < win1_2.index t (1 : Fin 2) * 512 + 512; omega

/-- The output array after the region is the whole product of the two arrays as the region finds them. -/
theorem arr1_eq : (dat1 (F := Ideal) V c).arrAt 2 cfg1.N = prod1 (V c main_v0) (V c main_arg5) :=
  (dat1 (F := Ideal) V c).arrAt_eq_of_cover 2 (prod1 (V c main_v0) (V c main_arg5))
    (fun t _ => flushed1_eq V c t) cover1

/-- Entry (p, q) of the output array after region 1. -/
theorem final1 (x : S4096x2048.Idx → EReal) (w : S1024x2048.Idx → EReal) (y : S4096x1024.Idx → EReal)
    (hx : V c main_v0 = x) (hw : V c main_arg5 = w) (hy : (dat1 (F := Ideal) V c).arrAt 2 cfg1.N = y)
    (p : Fin 4096) (q : Fin 1024) :
    y (ix2 p q) = ∑ k : Fin 2048, x (ix2 p k) * w (ix2 q k) := by
  subst hx hw hy
  rw [arr1_eq]
  rfl

end Cert.KernelIdeal.RegionMM

end
-- ==== Proof.RegionMM2.lean ====
/-
  Projection region 2: the array it leaves is the whole product.

  The region runs its body on a grid of 2 × 2 points. At the point with block indices (i, j) the body reads rows
  2048·i … 2048·i + 2047 of the left array (all 2048 columns) and rows 512·j … 512·j + 511 of the right array (all
  2048 columns), and its result block goes to rows 2048·i …, columns 512·j … of the output. Entry (a, b) of that block
  is ∑ₖ left (2048·i + a, k) · right (512·j + b, k): entry (2048·i + a, 512·j + b) of the one function
  (p, q) ↦ ∑ₖ left (p, k) · right (q, k). The 2 × 2 blocks tile the [4096, 1024] output, so the output array after
  the region is that function, whatever the two arrays hold when the region is entered.
-/
import proofs.«164297_j75917841924554_2_alg».proof.Proof.Gen.KernelIdeal.Frame
import proofs.«164297_j75917841924554_2_alg».proof.Proof.RegionMMPay
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionMM

open Cert.KernelIdeal Cert.KernelIdeal.Gen

variable (V : (c : Dev nD) → (b : Ref sig .tc) → Buf (Elt Ideal) ((c : Thread nD τ).loc b)) (c : Dev nD)

/-- The whole product: entry (p, q) is the sum over k of left (p, k) · right (q, k). -/
def prod2 (X : S4096x2048.Idx → EReal) (W : S1024x2048.Idx → EReal) : S4096x1024.Idx → EReal :=
  fun i => ∑ k : Fin 2048, X (ix2 (⟨(i 0).val, idx2_lt0 i⟩ : Fin 4096) k) * W (ix2 (⟨(i 1).val, idx2_lt1 i⟩ : Fin 1024) k)

/-- The block indices at every grid point: the left window moves with the output's row block and the right window with
    the output's column block, both windows take all 2048 columns, and the output's block indices stay within 2 × 2. -/
theorem idx_facts2 : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 1 ∧ win2_2.index t (1 : Fin 2) ≤ 1 :=
  (by decide +kernel : ∀ t : Fin grid2.N, _)

/-- Every pair of block indices in 2 × 2 is the output window's at some grid point. -/
theorem idx_onto2 : ∀ (q0 : Fin 2) (q1 : Fin 2), ∃ t : Fin cfg2.N, win2_2.index t = ![q0.val, q1.val] :=
  (by decide +kernel : ∀ (q0 : Fin 2) (q1 : Fin 2), ∃ t : Fin grid2.N, win2_2.index t = ![q0.val, q1.val])

/-- What a grid point writes back is its block of the whole product: the body's entry (a, b) sums the left block's row
    a against the right block's row b, and those rows are rows 2048·i + a and 512·j + b of the arrays. -/
theorem flushed2_eq (t : Fin cfg2.N) :
    (dat2 (F := Ideal) V c).flushed 2 t
      = ((cfg2.win 2).blk t).view.read (Elt Ideal) (prod2 (V c main_v0) (V c main_arg6)) := by
  show (cfg2.win 2).cut (grid2.coords t) ((dat2 V c).after 2 t) = _
  rw [after2_2]
  unfold out2_2
  rw [View.canon_unit_zero off_zero]
  simp only [View.ld_unit_zero (S := S2048x2048) off_zero, View.ld_unit_zero (S := S512x2048) off_zero]
  obtain ⟨e0, e1, e2, e3, -, -⟩ := idx_facts2 t
  funext j
  have ha : (j 0).val < 2048 := (j 0).isLt
  have hb : (j 1).val < 512 := (j 1).isLt
  have hj : (win2 2).xinj (grid2.coords t) j = ix2 (⟨(j 0).val, ha⟩ : Fin 2048) (⟨(j 1).val, hb⟩ : Fin 512) :=
    funext fun d => Fin.ext (by match d with | ⟨0, _⟩ => rfl | ⟨1, _⟩ => rfl)
  show k2_pay1 (iblk2 V c 0 t) (iblk2 V c 1 t) ((win2 2).xinj (grid2.coords t) j)
      = prod2 (V c main_v0) (V c main_arg6) (((cfg2.win 2).blk t).view.emb j)
  rw [hj]
  refine (pay2_at (iblk2 V c 0 t) (iblk2 V c 1 t) ⟨(j 0).val, ha⟩ ⟨(j 1).val, hb⟩).trans ?_
  unfold prod2
  refine Finset.sum_congr rfl fun k _ => ?_
  -- row a of the left block is the row of the left array that the output entry sits on; its columns are the array's
  have h0 : ((cfg2.win 0).blk t).view.emb (ix2 (⟨(j 0).val, ha⟩ : Fin 2048) k)
      = ix2 (⟨(((cfg2.win 2).blk t).view.emb j 0).val, idx2_lt0 _⟩ : Fin 4096) k := by
    funext d; apply Fin.ext
    match d with
    | ⟨0, _⟩ => show win2_0.index t (0 : Fin 2) * 2048 + 1 * (j 0).val = win2_2.index t (0 : Fin 2) * 2048 + 1 * (j 0).val; omega
    | ⟨1, _⟩ => show win2_0.index t (1 : Fin 2) * 2048 + 1 * k.val = k.val; omega
  -- row b of the right block is the row of the right array numbered by the output entry's column
  have h1 : ((cfg2.win 1).blk t).view.emb (ix2 (⟨(j 1).val, hb⟩ : Fin 512) k)
      = ix2 (⟨(((cfg2.win 2).blk t).view.emb j 1).val, idx2_lt1 _⟩ : Fin 1024) k := by
    funext d; apply Fin.ext
    match d with
    | ⟨0, _⟩ => show win2_1.index t (0 : Fin 2) * 512 + 1 * (j 1).val = win2_2.index t (1 : Fin 2) * 512 + 1 * (j 1).val; omega
    | ⟨1, _⟩ => show win2_1.index t (1 : Fin 2) * 2048 + 1 * k.val = k.val; omega
  have f0 : iblk2 V c 0 t (ix2 (⟨(j 0).val, ha⟩ : Fin 2048) k)
      = V c main_v0 (ix2 (⟨(((cfg2.win 2).blk t).view.emb j 0).val, idx2_lt0 _⟩ : Fin 4096) k) := by
    show V c main_v0 (((cfg2.win 0).blk t).view.emb (ix2 (⟨(j 0).val, ha⟩ : Fin 2048) k)) = _
    rw [h0]
  have f1 : iblk2 V c 1 t (ix2 (⟨(j 1).val, hb⟩ : Fin 512) k)
      = V c main_arg6 (ix2 (⟨(((cfg2.win 2).blk t).view.emb j 1).val, idx2_lt1 _⟩ : Fin 1024) k) := by
    show V c main_arg6 (((cfg2.win 1).blk t).view.emb (ix2 (⟨(j 1).val, hb⟩ : Fin 512) k)) = _
    rw [h1]
  rw [f0, f1]

/-- An entry of the output is in a point's block exactly when each coordinate lies in the block's range on its axis. -/
theorem mem_blk2 (t : Fin cfg2.N) (i : S4096x1024.Idx) :
    i ∈ ((cfg2.win 2).blk t).view.set
      ↔ ∀ a : Fin 2, win2_2.index t a * S2048x512.size a ≤ (i a).val
          ∧ (i a).val < win2_2.index t a * S2048x512.size a + S2048x512.size a := by
  show i ∈ ((View.whole main_v3).slice (win2_2.rect t)).set ↔ _
  rw [View.set_slice_whole, Rect.mem_set_unit]
  exact Iff.rfl

/-- The blocks tile the output: entry (p, q) is in the block with indices (p / 2048, q / 512), and every point writes
    its block back. -/
theorem cover2 (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := idx_onto2 ⟨(i 0).val / 2048, by omega⟩ ⟨(i 1).val / 512, by omega⟩
  have q0 : win2_2.index t (0 : Fin 2) = (i 0).val / 2048 := congrFun ht 0
  have q1 : win2_2.index t (1 : Fin 2) = (i 1).val / 512 := congrFun ht 1
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 512 ≤ (i 1).val ∧ (i 1).val < win2_2.index t (1 : Fin 2) * 512 + 512; omega

/-- The output array after the region is the whole product of the two arrays as the region finds them. -/
theorem arr2_eq : (dat2 (F := Ideal) V c).arrAt 2 cfg2.N = prod2 (V c main_v0) (V c main_arg6) :=
  (dat2 (F := Ideal) V c).arrAt_eq_of_cover 2 (prod2 (V c main_v0) (V c main_arg6))
    (fun t _ => flushed2_eq V c t) cover2

/-- Entry (p, q) of the output array after region 2. -/
theorem final2 (x : S4096x2048.Idx → EReal) (w : S1024x2048.Idx → EReal) (y : S4096x1024.Idx → EReal)
    (hx : V c main_v0 = x) (hw : V c main_arg6 = w) (hy : (dat2 (F := Ideal) V c).arrAt 2 cfg2.N = y)
    (p : Fin 4096) (q : Fin 1024) :
    y (ix2 p q) = ∑ k : Fin 2048, x (ix2 p k) * w (ix2 q k) := by
  subst hx hw hy
  rw [arr2_eq]
  rfl

end Cert.KernelIdeal.RegionMM

end
-- ==== Proof.RegionMM4.lean ====
/-
  Projection region 4: the array it leaves is the whole product.

  The region runs its body on a grid of 2 × 4 points. At the point with block indices (i, j) the body reads rows
  2048·i … 2048·i + 2047 of the left array (all 2048 columns) and rows 512·j … 512·j + 511 of the right array (all
  2048 columns), and its result block goes to rows 2048·i …, columns 512·j … of the output. Entry (a, b) of that block
  is ∑ₖ left (2048·i + a, k) · right (512·j + b, k): entry (2048·i + a, 512·j + b) of the one function
  (p, q) ↦ ∑ₖ left (p, k) · right (q, k). The 2 × 4 blocks tile the [4096, 2048] output, so the output array after
  the region is that function, whatever the two arrays hold when the region is entered.
-/
import proofs.«164297_j75917841924554_2_alg».proof.Proof.Gen.KernelIdeal.Frame
import proofs.«164297_j75917841924554_2_alg».proof.Proof.RegionMMPay
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionMM

open Cert.KernelIdeal Cert.KernelIdeal.Gen

variable (V : (c : Dev nD) → (b : Ref sig .tc) → Buf (Elt Ideal) ((c : Thread nD τ).loc b)) (c : Dev nD)

/-- The whole product: entry (p, q) is the sum over k of left (p, k) · right (q, k). -/
def prod4 (X : S4096x2048.Idx → EReal) (W : S2048x2048.Idx → EReal) : S4096x2048.Idx → EReal :=
  fun i => ∑ k : Fin 2048, X (ix2 (⟨(i 0).val, idx2_lt0 i⟩ : Fin 4096) k) * W (ix2 (⟨(i 1).val, idx2_lt1 i⟩ : Fin 2048) k)

/-- The block indices at every grid point: the left window moves with the output's row block and the right window with
    the output's column block, both windows take all 2048 columns, and the output's block indices stay within 2 × 4. -/
theorem idx_facts4 : ∀ t : Fin cfg4.N,
    win4_0.index t (0 : Fin 2) = win4_2.index t (0 : Fin 2) ∧ win4_0.index t (1 : Fin 2) = 0
    ∧ win4_1.index t (0 : Fin 2) = win4_2.index t (1 : Fin 2) ∧ win4_1.index t (1 : Fin 2) = 0
    ∧ win4_2.index t (0 : Fin 2) ≤ 1 ∧ win4_2.index t (1 : Fin 2) ≤ 3 :=
  (by decide +kernel : ∀ t : Fin grid4.N, _)

/-- Every pair of block indices in 2 × 4 is the output window's at some grid point. -/
theorem idx_onto4 : ∀ (q0 : Fin 2) (q1 : Fin 4), ∃ t : Fin cfg4.N, win4_2.index t = ![q0.val, q1.val] :=
  (by decide +kernel : ∀ (q0 : Fin 2) (q1 : Fin 4), ∃ t : Fin grid4.N, win4_2.index t = ![q0.val, q1.val])

/-- What a grid point writes back is its block of the whole product: the body's entry (a, b) sums the left block's row
    a against the right block's row b, and those rows are rows 2048·i + a and 512·j + b of the arrays. -/
theorem flushed4_eq (t : Fin cfg4.N) :
    (dat4 (F := Ideal) V c).flushed 2 t
      = ((cfg4.win 2).blk t).view.read (Elt Ideal) (prod4 (V c main_v65) (V c main_arg7)) := by
  show (cfg4.win 2).cut (grid4.coords t) ((dat4 V c).after 2 t) = _
  rw [after4_2]
  unfold out4_2
  rw [View.canon_unit_zero off_zero]
  simp only [View.ld_unit_zero (S := S2048x2048) off_zero, View.ld_unit_zero (S := S512x2048) off_zero]
  obtain ⟨e0, e1, e2, e3, -, -⟩ := idx_facts4 t
  funext j
  have ha : (j 0).val < 2048 := (j 0).isLt
  have hb : (j 1).val < 512 := (j 1).isLt
  have hj : (win4 2).xinj (grid4.coords t) j = ix2 (⟨(j 0).val, ha⟩ : Fin 2048) (⟨(j 1).val, hb⟩ : Fin 512) :=
    funext fun d => Fin.ext (by match d with | ⟨0, _⟩ => rfl | ⟨1, _⟩ => rfl)
  show k4_pay1 (iblk4 V c 0 t) (iblk4 V c 1 t) ((win4 2).xinj (grid4.coords t) j)
      = prod4 (V c main_v65) (V c main_arg7) (((cfg4.win 2).blk t).view.emb j)
  rw [hj]
  refine (pay4_at (iblk4 V c 0 t) (iblk4 V c 1 t) ⟨(j 0).val, ha⟩ ⟨(j 1).val, hb⟩).trans ?_
  unfold prod4
  refine Finset.sum_congr rfl fun k _ => ?_
  -- row a of the left block is the row of the left array that the output entry sits on; its columns are the array's
  have h0 : ((cfg4.win 0).blk t).view.emb (ix2 (⟨(j 0).val, ha⟩ : Fin 2048) k)
      = ix2 (⟨(((cfg4.win 2).blk t).view.emb j 0).val, idx2_lt0 _⟩ : Fin 4096) k := by
    funext d; apply Fin.ext
    match d with
    | ⟨0, _⟩ => show win4_0.index t (0 : Fin 2) * 2048 + 1 * (j 0).val = win4_2.index t (0 : Fin 2) * 2048 + 1 * (j 0).val; omega
    | ⟨1, _⟩ => show win4_0.index t (1 : Fin 2) * 2048 + 1 * k.val = k.val; omega
  -- row b of the right block is the row of the right array numbered by the output entry's column
  have h1 : ((cfg4.win 1).blk t).view.emb (ix2 (⟨(j 1).val, hb⟩ : Fin 512) k)
      = ix2 (⟨(((cfg4.win 2).blk t).view.emb j 1).val, idx2_lt1 _⟩ : Fin 2048) k := by
    funext d; apply Fin.ext
    match d with
    | ⟨0, _⟩ => show win4_1.index t (0 : Fin 2) * 512 + 1 * (j 1).val = win4_2.index t (1 : Fin 2) * 512 + 1 * (j 1).val; omega
    | ⟨1, _⟩ => show win4_1.index t (1 : Fin 2) * 2048 + 1 * k.val = k.val; omega
  have f0 : iblk4 V c 0 t (ix2 (⟨(j 0).val, ha⟩ : Fin 2048) k)
      = V c main_v65 (ix2 (⟨(((cfg4.win 2).blk t).view.emb j 0).val, idx2_lt0 _⟩ : Fin 4096) k) := by
    show V c main_v65 (((cfg4.win 0).blk t).view.emb (ix2 (⟨(j 0).val, ha⟩ : Fin 2048) k)) = _
    rw [h0]
  have f1 : iblk4 V c 1 t (ix2 (⟨(j 1).val, hb⟩ : Fin 512) k)
      = V c main_arg7 (ix2 (⟨(((cfg4.win 2).blk t).view.emb j 1).val, idx2_lt1 _⟩ : Fin 2048) k) := by
    show V c main_arg7 (((cfg4.win 1).blk t).view.emb (ix2 (⟨(j 1).val, hb⟩ : Fin 512) k)) = _
    rw [h1]
  rw [f0, f1]

/-- An entry of the output is in a point's block exactly when each coordinate lies in the block's range on its axis. -/
theorem mem_blk4 (t : Fin cfg4.N) (i : S4096x2048.Idx) :
    i ∈ ((cfg4.win 2).blk t).view.set
      ↔ ∀ a : Fin 2, win4_2.index t a * S2048x512.size a ≤ (i a).val
          ∧ (i a).val < win4_2.index t a * S2048x512.size a + S2048x512.size a := by
  show i ∈ ((View.whole main_v66).slice (win4_2.rect t)).set ↔ _
  rw [View.set_slice_whole, Rect.mem_set_unit]
  exact Iff.rfl

/-- The blocks tile the output: entry (p, q) is in the block with indices (p / 2048, q / 512), and every point writes
    its block back. -/
theorem cover4 (i : S4096x2048.Idx) :
    ∃ t : Fin cfg4.N, (cfg4.win 2).flush t = true ∧ i ∈ ((cfg4.win 2).blk t).view.set := by
  have hi0 : (i 0).val < 4096 := (i 0).isLt
  have hi1 : (i 1).val < 2048 := (i 1).isLt
  obtain ⟨t, ht⟩ := idx_onto4 ⟨(i 0).val / 2048, by omega⟩ ⟨(i 1).val / 512, by omega⟩
  have q0 : win4_2.index t (0 : Fin 2) = (i 0).val / 2048 := congrFun ht 0
  have q1 : win4_2.index t (1 : Fin 2) = (i 1).val / 512 := congrFun ht 1
  refine ⟨t, flush4_2 t, ?_⟩
  rw [mem_blk4]
  intro a
  match a with
  | ⟨0, _⟩ => show win4_2.index t (0 : Fin 2) * 2048 ≤ (i 0).val ∧ (i 0).val < win4_2.index t (0 : Fin 2) * 2048 + 2048; omega
  | ⟨1, _⟩ => show win4_2.index t (1 : Fin 2) * 512 ≤ (i 1).val ∧ (i 1).val < win4_2.index t (1 : Fin 2) * 512 + 512; omega

/-- The output array after the region is the whole product of the two arrays as the region finds them. -/
theorem arr4_eq : (dat4 (F := Ideal) V c).arrAt 2 cfg4.N = prod4 (V c main_v65) (V c main_arg7) :=
  (dat4 (F := Ideal) V c).arrAt_eq_of_cover 2 (prod4 (V c main_v65) (V c main_arg7))
    (fun t _ => flushed4_eq V c t) cover4

/-- Entry (p, q) of the output array after region 4. -/
theorem final4 (x : S4096x2048.Idx → EReal) (w : S2048x2048.Idx → EReal) (y : S4096x2048.Idx → EReal)
    (hx : V c main_v65 = x) (hw : V c main_arg7 = w) (hy : (dat4 (F := Ideal) V c).arrAt 2 cfg4.N = y)
    (p : Fin 4096) (q : Fin 2048) :
    y (ix2 p q) = ∑ k : Fin 2048, x (ix2 p k) * w (ix2 q k) := by
  subst hx hw hy
  rw [arr4_eq]
  rfl

end Cert.KernelIdeal.RegionMM

end
-- ==== Proof.RegionMM.lean ====
/-
  The four projection regions together.

  Regions 0, 1, 2 and 4 each leave, in their output array, the product of the two arrays they are entered with:
  entry (p, q) is the sum over k of left (p, k) · right (q, k), for outputs of extent [4096, 4096], [4096, 1024],
  [4096, 1024] and [4096, 2048] and a contraction over 2048 columns in each.
-/
import proofs.«164297_j75917841924554_2_alg».proof.Proof.RegionMM0
import proofs.«164297_j75917841924554_2_alg».proof.Proof.RegionMM1
import proofs.«164297_j75917841924554_2_alg».proof.Proof.RegionMM2
import proofs.«164297_j75917841924554_2_alg».proof.Proof.RegionMM4
-- ==== Proof.LibRowMinTransposedDot.lean ====
/-
  Three operations read at an index given by coordinates, generic in the extents.

  * A block of a rank-4 array whose two leading axes are unit axes, viewed as the matrix of its two trailing axes and
    back: a row-major position in `[1, 1, a, b]` is `(0 · 1 + 0) · a + i) · b + j = i · b + j`, the position of
    `(i, j)` in `[a, b]`.
  * The minimum along the rows of an `[a, b]` array of exact values, at row `p`: the fold of `min` over the row's
    `b` entries started from what the word of `+∞` denotes (`min` on the extended reals commutes and associates, so
    the order of the fold is immaterial).
  * A matrix product `[N, K] × [M, K] → [N, M]` that contracts the SECOND axis of both operands (the right operand is
    used transposed), into a zero accumulator: at entry `(p, q)` the sum over `k` of `l (p, k) · r (q, k)`.
-/
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.RegionAttnOps

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.mul_one, Nat.add_zero])

/-- The minimum along the rows of an `[a, b]` array of exact values, at row `p`: the fold of `min` over the row's `b`
    entries, started from what the word of `+∞` denotes. -/
theorem multiReduction_minimumf_row {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = 0x7F800000#32) (p : Fin a) :
    multiReduction .minimumf [1] ⟨1, ![a]⟩ src 0x7F800000#32 h hφ hacc (ix1 p)
      = (Finset.univ : Finset (Fin b)).fold min (Ideal.ofBits .f32 0x7F800000#32) (fun t => src (ix2 p t)) := by
  refine (multiReduction_minimumf_eq_fold src 0x7F800000#32 h hφ hacc (ix1 p)).trans ?_
  refine (h.fold_filter_drop_single (FloatOps.minimumf (F := Ideal) (φ := .f32)) (FloatOps.ofBits .f32 0x7F800000#32) src (ix1 p)).trans ?_
  refine congrArg ((Finset.univ : Finset (Fin b)).fold min (Ideal.ofBits .f32 0x7F800000#32)) (funext fun t => ?_)
  exact congrArg src (funext fun c => Fin.ext (by
    match c with
    | ⟨0, _⟩ => rfl
    | ⟨1, _⟩ => rfl))

/-- The contraction's sum of a product that contracts axis 1 of both operands, re-indexed by the contracted coordinate. -/
theorem sum_contr_nt {N K M : Nat} {β : Type} [AddCommMonoid β] [Mul β]
    (D : DotDims ⟨2, ![N, K]⟩ ⟨2, ![M, K]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (i 1).val)
    (hr1 : ∀ (i : (⟨2, ![N, M]⟩ : Shape).Idx) (k : D.contr.Idx), (D.rhsIdx i k 1).val = (k ⟨0, by omega⟩).val)
    (l : (⟨2, ![N, K]⟩ : Shape).Idx → β) (r : (⟨2, ![M, K]⟩ : Shape).Idx → β) (p : Fin N) (q : Fin M) :
    ∑ k : D.contr.Idx, l (D.lhsIdx (ix2 p q) k) * r (D.rhsIdx (ix2 p q) k) = ∑ k : Fin K, l (ix2 p k) * r (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

/-- Such a product into a zero accumulator, at the extended reals, read at entry `(p, q)`. -/
theorem matmul_zero_nt {N K M : Nat} {φ₁ φ₂ : FTy}
    (D : DotDims ⟨2, ![N, K]⟩ ⟨2, ![M, K]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (i 1).val)
    (hr1 : ∀ (i : (⟨2, ![N, M]⟩ : Shape).Idx) (k : D.contr.Idx), (D.rhsIdx i k 1).val = (k ⟨0, by omega⟩).val)
    (prec : Option ContractPrecision)
    (l : FVec Ideal ⟨2, ![N, K]⟩ φ₁) (r : FVec Ideal ⟨2, ![M, K]⟩ φ₂) (p : Fin N) (q : Fin M) :
    FloatOps.matmul D prec l r (constant ⟨2, ![N, M]⟩ .f32 0x00000000#32) (ix2 p q) = ∑ k : Fin K, l (ix2 p k) * r (ix2 q k) :=
  (Ideal.matmul_constant_zero_apply D prec l r (ix2 p q)).trans (sum_contr_nt D hr hs hl0 hl1 hr0 hr1 l r p q)

end Cert.RegionAttnOps

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowReduce.lean ====
/-
  Row reductions of a matrix and a scalar broadcast, read at an index given by coordinates, at the exact values.

  A `vector.multi_reduction` along axis `1` of an `[a, b]` array, read at row `p`: for `<add>` from the zero word the sum
  over the row's `b` entries; for `<maximumf>` from the word of `-∞` the fold of `max` over them, in any order. Both are
  stated with the accumulator hypothesis as the printed programs carry it (an equation between two copies of the same
  word), so that they apply to a printed reduction as it stands. A `[1, 1]` array broadcast to `[a, b]` reads its one
  entry everywhere. Generic in `a` and `b`.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A `[1, 1]` array broadcast to `[a, b]` reads, at every `(p, c)`, its one entry: both axes of the operand are unit
    axes and read coordinate `0`. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax => by
    match ax with
    | ⟨0, _⟩ => rfl
    | ⟨1, _⟩ => rfl

/-- The sum along the rows of an `[a, b]` array of exact values, at row `p`: the sum over the row's `b` entries (the
    reduced index with the coordinate `t` put back on axis `1` is `(p, t)`). -/
theorem multiReduction_add_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ t : Fin b, src (ix2 p t) := by
  refine (Ideal.multiReduction_add_single src 0x00000000#32 h hφ hacc (ix1 p)).trans ?_
  exact Finset.sum_congr rfl fun t _ => congrArg src (funext fun c => Fin.ext (by
    match c with
    | ⟨0, _⟩ => rfl
    | ⟨1, _⟩ => rfl))

/-- The maximum along the rows of an `[a, b]` array of exact values, at row `p`: the fold of `max` over the row's `b`
    entries, started from what the word of `-∞` denotes. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun t => src (ix2 p t)) := by
  refine (Ideal.multiReduction_maximumf_single src 0xFF800000#32 h hφ hacc (ix1 p)).trans ?_
  refine congrArg ((Finset.univ : Finset (Fin b)).fold max (Ideal.ofBits .f32 0xFF800000#32)) (funext fun t => ?_)
  exact congrArg src (funext fun c => Fin.ext (by
    match c with
    | ⟨0, _⟩ => rfl
    | ⟨1, _⟩ => rfl))

end Idealize.ShloMosaic.ValueIdx
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.RegionAttnPay.lean ====
/-
  The arithmetic of the attention body, read entry by entry.

  The body's score / mask / soft-max term is cut into four stages, each a function of arrays and each read at an entry
  `(p, s)` of the `[1024, 2048]` block:

  * `scoreBlk`: the product of the query block with the transposed key block, times the scale word — at `(p, s)` the sum
    over the 128 features of query row `p` against key row `s`, scaled;
  * `maskedBlk`: where the mask word is zero the score, elsewhere the row's minimum less 20 (the minimum of row `p` depends
    on the whole row `p` of scores and on nothing else);
  * `expBlk`: the exponential of the entry less its row's maximum;
  * `softBlk`: that exponential over the row's sum of exponentials.

  Row `p` of the result depends on row `p` of the scores and of the mask only, which is what lets a block of rows be
  computed independently of the others. The second half reads the context block: the attention block times the value
  block, each entry multiplied by the logistic of the gate entry.
-/
import proofs.«164297_j75917841924554_2_alg».proof.Proof.Gen.KernelIdeal.Skeleton
import proofs.«164297_j75917841924554_2_alg».proof.Proof.Spec
import proofs.«164297_j75917841924554_2_alg».proof.Proof.LibRowMinTransposedDot
import proofs.«164297_j75917841924554_2_alg».proof.Proof.LibKeepdims
import proofs.«164297_j75917841924554_2_alg».proof.Proof.LibRowReduce
import proofs.«164297_j75917841924554_2_alg».proof.Proof.LibDotPlain
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionAttnPay

open Idealize.ShloMosaic Idealize.ShloMosaic.ValueIdx Cert.KernelIdeal Cert.KernelIdeal.Gen

/-! ## Where the two products read their operands -/

local notation "DS" => dot_S1024x128_S2048x128_S1024x2048_1_1_0_0_n_n
local notation "DC" => dot_S1024x2048_S2048x128_S1024x128_1_0_0_1_n_n

theorem ds_l0 (i : S1024x2048.Idx) (k : (DS).contr.Idx) : ((DS).lhsIdx i k 0).val = (i 0).val := by
  unfold DotDims.lhsIdx
  rw [dif_neg (show ¬(0 : Fin S1024x128.rank) ∈ (DS).lhsBatch by decide), dif_pos (show (0 : Fin S1024x128.rank) ∈ (DS).lhsNonContracting by decide)]
  rfl
theorem ds_l1 (i : S1024x2048.Idx) (k : (DS).contr.Idx) : ((DS).lhsIdx i k 1).val = (k ⟨0, by decide⟩).val :=
  (DS).lhsIdx_val_of_single rfl i k
theorem ds_r0 (i : S1024x2048.Idx) (k : (DS).contr.Idx) : ((DS).rhsIdx i k 0).val = (i 1).val := by
  unfold DotDims.rhsIdx
  rw [dif_neg (show ¬(0 : Fin S2048x128.rank) ∈ (DS).rhsBatch by decide), dif_pos (show (0 : Fin S2048x128.rank) ∈ (DS).rhsNonContracting by decide)]
  rfl
theorem ds_r1 (i : S1024x2048.Idx) (k : (DS).contr.Idx) : ((DS).rhsIdx i k 1).val = (k ⟨0, by decide⟩).val :=
  (DS).rhsIdx_val_of_single rfl i k

theorem dc_l0 (i : S1024x128.Idx) (k : (DC).contr.Idx) : ((DC).lhsIdx i k 0).val = (i 0).val := by
  unfold DotDims.lhsIdx
  rw [dif_neg (show ¬(0 : Fin S1024x2048.rank) ∈ (DC).lhsBatch by decide), dif_pos (show (0 : Fin S1024x2048.rank) ∈ (DC).lhsNonContracting by decide)]
  rfl
theorem dc_l1 (i : S1024x128.Idx) (k : (DC).contr.Idx) : ((DC).lhsIdx i k 1).val = (k ⟨0, by decide⟩).val :=
  (DC).lhsIdx_val_of_single rfl i k
theorem dc_r0 (i : S1024x128.Idx) (k : (DC).contr.Idx) : ((DC).rhsIdx i k 0).val = (k ⟨0, by decide⟩).val :=
  (DC).rhsIdx_val_of_single rfl i k
theorem dc_r1 (i : S1024x128.Idx) (k : (DC).contr.Idx) : ((DC).rhsIdx i k 1).val = (i 1).val := by
  unfold DotDims.rhsIdx
  rw [dif_neg (show ¬(1 : Fin S2048x128.rank) ∈ (DC).rhsBatch by decide), dif_pos (show (1 : Fin S2048x128.rank) ∈ (DC).rhsNonContracting by decide)]
  rfl

/-! ## The four stages -/

/-- The scaled scores of a block of 1024 queries against all 2048 keys. -/
def scoreBlk (x0 : Vec Ideal S1x1x1024x128 .bf16) (x1 : Vec Ideal S1x1x2048x128 .bf16) : FVec Ideal S1024x2048 .f32 :=
  mulf (matmul DS none (shapeCast S1024x128 x0 shapeCasts_S1x1x1024x128_S1024x128 : FVec Ideal S1024x128 .bf16)
      (shapeCast S2048x128 x1 shapeCasts_S1x1x2048x128_S2048x128 : FVec Ideal S2048x128 .bf16) (constant S1024x2048 .f32 0x00000000#32))
    (broadcast S1024x2048 (Scalar.ofBits .f32 0x3DB504F3#32))

/-- The scores with the masked ones replaced by their row's minimum less 20. -/
def maskedBlk (sc : FVec Ideal S1024x2048 .f32) (mk : IVec S1024x2048 32) : FVec Ideal S1024x2048 .f32 :=
  select (cmpi .eq mk (broadcast S1024x2048 0#32)) sc
    (broadcastTo S1024x2048
      (shapeCast S1024x1
        (subf (shapeCast S1024x1 (multiReduction .minimumf [1] S1024 sc 0x7F800000#32 reduces_S1024x2048_S1024 (.inl rfl) rfl) shapeCasts_S1024_S1024x1)
          (broadcast S1024x1 (Scalar.ofBits .f32 0x41A00000#32)))
        shapeCasts_S1024x1_S1024x1)
      broadcasts_S1024x1_S1024x2048)

/-- The exponentials of the entries less their row's maximum. -/
def expBlk (v : FVec Ideal S1024x2048 .f32) : FVec Ideal S1024x2048 .f32 :=
  exp (subf v
    (broadcastTo S1024x2048
      (shapeCast S1024x1 (multiReduction .maximumf [1] S1024 v 0xFF800000#32 reduces_S1024x2048_S1024 (.inl rfl) rfl) shapeCasts_S1024_S1024x1)
      broadcasts_S1024x1_S1024x2048))

/-- Each exponential over its row's sum of exponentials. -/
def softBlk (v : FVec Ideal S1024x2048 .f32) : FVec Ideal S1024x2048 .f32 :=
  divf (expBlk v)
    (broadcastTo S1024x2048
      (shapeCast S1024x1 (multiReduction .add [1] S1024 (expBlk v) 0x00000000#32 reduces_S1024x2048_S1024 (.inl rfl) rfl) shapeCasts_S1024_S1024x1)
      broadcasts_S1024x1_S1024x2048)

set_option maxRecDepth 65536 in
/-- The body's score / mask / soft-max term is the four stages composed. -/
theorem pay4_eq (x0 : Vec Ideal S1x1x1024x128 .bf16) (x1 : Vec Ideal S1x1x2048x128 .bf16) (x3 : Vec Ideal S1x1x1024x2048 .i32) :
    k3_pay4 (F := Ideal) x0 x1 x3
      = softBlk (maskedBlk (scoreBlk x0 x1) (shapeCast S1024x2048 x3 shapeCasts_S1x1x1024x2048_S1024x2048)) := rfl

/-! ## The stages at an entry -/

/-- A comparison of two words for equality, selecting between two values. -/
theorem select_cmpi_eq {α : Type} (x y : BitVec 32) (a b : α) :
    Scalar.select (IntOp.cmpi .eq x y) a b = if x = y then a else b := by
  show (if BitVec.ofBool (x == y) = 1 then a else b) = if x = y then a else b
  by_cases h : x = y
  · rw [if_pos h, h, beq_self_eq_true]; exact if_pos (by decide)
  · rw [if_neg h, show (x == y) = false from beq_eq_false_iff_ne.mpr h]; exact if_neg (by decide)

/-- The scaled score at `(p, s)`: query row `p` against key row `s`, the sum over the 128 features, times the scale. -/
theorem scoreBlk_apply (x0 : S1x1x1024x128.Idx → EReal) (x1 : S1x1x2048x128.Idx → EReal) (p : Fin 1024) (s : Fin 2048) :
    scoreBlk x0 x1 (ix2 p s)
      = (∑ d : Fin 128, x0 (ix4 (0 : Fin 1) (0 : Fin 1) p d) * x1 (ix4 (0 : Fin 1) (0 : Fin 1) s d)) * Cert.Spec.wScale := by
  unfold scoreBlk
  rw [mulf_apply, broadcast_apply]
  refine congrArg (· * Cert.Spec.wScale) ?_
  refine (Cert.RegionAttnOps.matmul_zero_nt DS rfl rfl ds_l0 ds_l1 ds_r0 ds_r1 none _ _ p s).trans ?_
  refine Finset.sum_congr rfl fun d _ => ?_
  rw [Cert.RegionAttnOps.shapeCast_11ab_ab_apply, Cert.RegionAttnOps.shapeCast_11ab_ab_apply]

/-- The masked score at `(p, s)` is the specification's masked row `p` at `s`. -/
theorem maskedBlk_apply (sc : S1024x2048.Idx → EReal) (mk : S1024x2048.Idx → BitVec 32) (p : Fin 1024) (s : Fin 2048) :
    maskedBlk sc mk (ix2 p s) = Cert.Spec.masked (fun t => sc (ix2 p t)) (fun t => mk (ix2 p t)) s := by
  unfold maskedBlk Cert.Spec.masked Cert.Spec.fill
  rw [select_apply]
  show Scalar.select (IntOp.cmpi .eq (mk (ix2 p s)) 0#32) (sc (ix2 p s)) _ = _
  rw [select_cmpi_eq]
  refine if_congr Iff.rfl rfl ?_
  rw [broadcastTo_a1_ab_apply, shapeCast_self, subf_apply, broadcast_apply, shapeCast_a_a1_apply,
    Cert.RegionAttnOps.multiReduction_minimumf_row]
  rfl

/-- The exponential at `(p, s)`: of the entry less the maximum of row `p`. -/
theorem expBlk_apply (v : S1024x2048.Idx → EReal) (p : Fin 1024) (s : Fin 2048) :
    expBlk v (ix2 p s) = Ideal.exp (v (ix2 p s) - Cert.Spec.rowmax (fun t => v (ix2 p t))) := by
  unfold expBlk Cert.Spec.rowmax
  show Ideal.exp (v (ix2 p s) - broadcastTo S1024x2048 _ _ (ix2 p s)) = _
  rw [broadcastTo_a1_ab_apply, shapeCast_a_a1_apply, multiReduction_maximumf_row]

/-- The soft-max at `(p, s)`: the exponential over the sum of row `p`'s exponentials. -/
theorem softBlk_apply (v : S1024x2048.Idx → EReal) (p : Fin 1024) (s : Fin 2048) :
    softBlk v (ix2 p s)
      = Ideal.div (Ideal.exp (v (ix2 p s) - Cert.Spec.rowmax (fun t => v (ix2 p t))))
          (∑ t : Fin 2048, Ideal.exp (v (ix2 p t) - Cert.Spec.rowmax (fun t' => v (ix2 p t')))) := by
  unfold softBlk
  rw [divf_apply, broadcastTo_a1_ab_apply, shapeCast_a_a1_apply, multiReduction_add_row, expBlk_apply]
  exact congrArg (Ideal.div _) (Finset.sum_congr rfl fun t _ => expBlk_apply v p t)

/-- THE ATTENTION BLOCK at `(p, s)`: the specification's soft-max of the scaled scores of query row `p` against all keys,
    under mask row `p`. -/
theorem pay4_apply (x0 : S1x1x1024x128.Idx → EReal) (x1 : S1x1x2048x128.Idx → EReal) (x3 : S1x1x1024x2048.Idx → BitVec 32)
    (p : Fin 1024) (s : Fin 2048) :
    k3_pay4 (F := Ideal) x0 x1 x3 (ix2 p s)
      = Cert.Spec.softrow
          (fun s' => (∑ d : Fin 128, x0 (ix4 (0 : Fin 1) (0 : Fin 1) p d) * x1 (ix4 (0 : Fin 1) (0 : Fin 1) s' d)) * Cert.Spec.wScale)
          (fun s' => x3 (ix4 (0 : Fin 1) (0 : Fin 1) p s')) s := by
  have hsc : (fun t => scoreBlk x0 x1 (ix2 p t))
      = fun s' => (∑ d : Fin 128, x0 (ix4 (0 : Fin 1) (0 : Fin 1) p d) * x1 (ix4 (0 : Fin 1) (0 : Fin 1) s' d)) * Cert.Spec.wScale :=
    funext fun t => scoreBlk_apply x0 x1 p t
  have hmk : (fun t => (shapeCast S1024x2048 x3 shapeCasts_S1x1x1024x2048_S1024x2048 : S1024x2048.Idx → BitVec 32) (ix2 p t))
      = fun s' => x3 (ix4 (0 : Fin 1) (0 : Fin 1) p s') :=
    funext fun t => Cert.RegionAttnOps.shapeCast_11ab_ab_apply x3 _ p t
  rw [pay4_eq, softBlk_apply]
  simp only [maskedBlk_apply, hsc, hmk]
  rfl

/-! ## The stored blocks -/

/-- The stored attention block is the attention block with two unit axes in front. -/
theorem pay1_apply (a : S1024x2048.Idx → EReal) (u v : Fin 1) (p : Fin 1024) (s : Fin 2048) :
    k3_pay1 (F := Ideal) a (ix4 u v p s) = a (ix2 p s) := by
  unfold k3_pay1
  exact Cert.RegionAttnOps.shapeCast_ab_11ab_apply a _ u v p s

/-- The value block as a matrix. -/
theorem pay3_apply (x2 : S1x1x2048x128.Idx → EReal) (s : Fin 2048) (d : Fin 128) :
    k3_pay3 (F := Ideal) x2 (ix2 s d) = x2 (ix4 (0 : Fin 1) (0 : Fin 1) s d) := by
  unfold k3_pay3
  exact Cert.RegionAttnOps.shapeCast_11ab_ab_apply x2 _ s d

/-- THE CONTEXT BLOCK at `(p, d)`: attention row `p` against column `d` of the values, times the logistic of the gate. -/
theorem pay2_apply (vb : S2048x128.Idx → EReal) (a : S1024x2048.Idx → EReal) (g : S1x1x1024x128.Idx → EReal)
    (u v : Fin 1) (p : Fin 1024) (d : Fin 128) :
    k3_pay2 (F := Ideal) vb a g (ix4 u v p d)
      = (∑ s : Fin 2048, a (ix2 p s) * vb (ix2 s d)) * Ideal.logistic (g (ix4 (0 : Fin 1) (0 : Fin 1) p d)) := by
  unfold k3_pay2
  refine (Cert.RegionAttnOps.shapeCast_ab_11ab_apply _ _ u v p d).trans ?_
  show matmul DC none (truncf .bf16 a bitsLt_bf16_f32 : FVec Ideal S1024x2048 .bf16) vb (constant S1024x128 .f32 0x00000000#32) (ix2 p d)
      * Ideal.logistic ((shapeCast S1024x128 g shapeCasts_S1x1x1024x128_S1024x128 : S1024x128.Idx → EReal) (ix2 p d)) = _
  rw [Cert.RegionAttnOps.shapeCast_11ab_ab_apply]
  refine congrArg (· * Ideal.logistic (g (ix4 (0 : Fin 1) (0 : Fin 1) p d))) ?_
  exact Cert.LibDotPlain.matmul_zero_plain DC rfl rfl dc_l0 dc_l1 dc_r0 dc_r1 none _ vb p d

end Cert.KernelIdeal.RegionAttnPay

end
-- ==== Proof.RegionAttnBlocks.lean ====
/-
  Where the attention region's blocks sit in their arrays.

  The region runs on the grid (batch 2, query half 2, head 16). At a point with batch `B`, query half `Qh` and head `H`
  the query, gate and both output blocks are rows `1024·Qh … 1024·Qh + 1023` of head `H` of batch `B`; the key and value
  blocks are ALL 2048 rows of key head `H / 2` of batch `B`; the mask block is rows `1024·Qh …` of batch `B`. The relations
  between the printed index maps are decided once over the 64 points; each input block is then read at coordinates, and
  the output blocks are shown to tile their arrays (the point covering `(b, h, q)` has `B = b`, `H = h`, `Qh = q / 1024`).
-/
import proofs.«164297_j75917841924554_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.RegionAttnBlocks

open Cert.KernelIdeal Cert.KernelIdeal.Gen

theorem hz4 : (![0, 0, 0, 0] : Fin 4 → Nat) = fun _ => 0 := funext fun a => by fin_cases a <;> rfl

/-! ## The printed index maps, decided over the grid -/

/-- The attention output's block indices stay in their ranges; its last axis is not blocked. -/
theorem idx3_6 : ∀ t : Fin cfg3.N, win3_6.index t (0 : Fin 4) ≤ 1 ∧ win3_6.index t (1 : Fin 4) ≤ 15
    ∧ win3_6.index t (2 : Fin 4) ≤ 1 ∧ win3_6.index t (3 : Fin 4) = 0 :=
  (by decide +kernel : ∀ t : Fin grid3.N, _)

/-- The query block moves with the attention output's block. -/
theorem idx3_0 : ∀ t : Fin cfg3.N, win3_0.index t (0 : Fin 4) = win3_6.index t (0 : Fin 4)
    ∧ win3_0.index t (1 : Fin 4) = win3_6.index t (1 : Fin 4) ∧ win3_0.index t (2 : Fin 4) = win3_6.index t (2 : Fin 4)
    ∧ win3_0.index t (3 : Fin 4) = 0 :=
  (by decide +kernel : ∀ t : Fin grid3.N, _)

/-- The key block is the whole key head `H / 2` of the same batch. -/
theorem idx3_1 : ∀ t : Fin cfg3.N, win3_1.index t (0 : Fin 4) = win3_6.index t (0 : Fin 4)
    ∧ win3_1.index t (1 : Fin 4) = win3_6.index t (1 : Fin 4) / 2 ∧ win3_1.index t (2 : Fin 4) = 0
    ∧ win3_1.index t (3 : Fin 4) = 0 :=
  (by decide +kernel : ∀ t : Fin grid3.N, _)

/-- The value block likewise. -/
theorem idx3_2 : ∀ t : Fin cfg3.N, win3_2.index t (0 : Fin 4) = win3_6.index t (0 : Fin 4)
    ∧ win3_2.index t (1 : Fin 4) = win3_6.index t (1 : Fin 4) / 2 ∧ win3_2.index t (2 : Fin 4) = 0
    ∧ win3_2.index t (3 : Fin 4) = 0 :=
  (by decide +kernel : ∀ t : Fin grid3.N, _)

/-- The mask block: the same batch and rows, the one mask head. -/
theorem idx3_3 : ∀ t : Fin cfg3.N, win3_3.index t (0 : Fin 4) = win3_6.index t (0 : Fin 4)
    ∧ win3_3.index t (1 : Fin 4) = 0 ∧ win3_3.index t (2 : Fin 4) = win3_6.index t (2 : Fin 4)
    ∧ win3_3.index t (3 : Fin 4) = 0 :=
  (by decide +kernel : ∀ t : Fin grid3.N, _)

/-- The gate block moves with the attention output's block. -/
theorem idx3_4 : ∀ t : Fin cfg3.N, win3_4.index t (0 : Fin 4) = win3_6.index t (0 : Fin 4)
    ∧ win3_4.index t (1 : Fin 4) = win3_6.index t (1 : Fin 4) ∧ win3_4.index t (2 : Fin 4) = win3_6.index t (2 : Fin 4)
    ∧ win3_4.index t (3 : Fin 4) = 0 :=
  (by decide +kernel : ∀ t : Fin grid3.N, _)

/-- The context output's block too. -/
theorem idx3_5 : ∀ t : Fin cfg3.N, win3_5.index t (0 : Fin 4) = win3_6.index t (0 : Fin 4)
    ∧ win3_5.index t (1 : Fin 4) = win3_6.index t (1 : Fin 4) ∧ win3_5.index t (2 : Fin 4) = win3_6.index t (2 : Fin 4)
    ∧ win3_5.index t (3 : Fin 4) = 0 :=
  (by decide +kernel : ∀ t : Fin grid3.N, _)

/-- Every (batch, head, query half) is some point's. -/
theorem idx3_onto : ∀ (b : Fin 2) (h : Fin 16) (qh : Fin 2), ∃ t : Fin cfg3.N, win3_6.index t = ![b.val, h.val, qh.val, 0] :=
  (by decide +kernel : ∀ (b : Fin 2) (h : Fin 16) (qh : Fin 2), ∃ t : Fin grid3.N, win3_6.index t = ![b.val, h.val, qh.val, 0])

/-! ## Each input block read at coordinates

At a point of batch `b`, head `h` (key head `g = h / 2`) and query half `Qh`, row `p` of a 1024-row block is row
`q = 1024·Qh + p` of its array, and row `s` of a key or value block is row `s` of key head `g`; the unit axes of a block read
coordinate `0` and the last axis is read in place. -/

section Reads

variable (V : (c : Dev nD) → (b : Ref sig .tc) → Buf (Elt Ideal) ((c : Thread nD τ).loc b)) (c : Dev nD)

/-- The query block's row `p` is row `q` of head `h` of batch `b` of the query array. -/
theorem iblk0_apply (t : Fin cfg3.N) (x0 : S1x1x1024x128.Idx → EReal) (qs : S2x16x2048x128.Idx → EReal)
    (hx : iblk3 (F := Ideal) V c 0 t = x0) (hq : V c main_v49 = qs)
    (b : Fin 2) (h : Fin 16) (q : Fin 2048) (p : Fin 1024) (d : Fin 128)
    (hb : b.val = win3_6.index t (0 : Fin 4)) (hh : h.val = win3_6.index t (1 : Fin 4))
    (hqv : q.val = win3_6.index t (2 : Fin 4) * 1024 + p.val) :
    x0 (ix4 (0 : Fin 1) (0 : Fin 1) p d) = qs (ix4 b h q d) := by
  subst hx hq
  obtain ⟨e0, e1, e2, e3⟩ := idx3_0 t
  unfold iblk3
  rw [View.read_apply]
  show V c main_v49 (((cfg3.win 0).blk t).view.emb (ix4 (0 : Fin 1) (0 : Fin 1) p d)) = V c main_v49 (ix4 b h q d)
  refine congrArg (V c main_v49) (funext fun a => Fin.ext ?_)
  match a with
  | ⟨0, _⟩ => show win3_0.index t (0 : Fin 4) * 1 + 1 * 0 = b.val; omega
  | ⟨1, _⟩ => show win3_0.index t (1 : Fin 4) * 1 + 1 * 0 = h.val; omega
  | ⟨2, _⟩ => show win3_0.index t (2 : Fin 4) * 1024 + 1 * p.val = q.val; omega
  | ⟨3, _⟩ => show win3_0.index t (3 : Fin 4) * 128 + 1 * d.val = d.val; omega

/-- The key block's row `s` is row `s` of key head `g` of batch `b` of the key array. -/
theorem iblk1_apply (t : Fin cfg3.N) (x1 : S1x1x2048x128.Idx → EReal) (ks : S2x8x2048x128.Idx → EReal)
    (hx : iblk3 (F := Ideal) V c 1 t = x1) (hk : V c main_v60 = ks)
    (b : Fin 2) (g : Fin 8) (s : Fin 2048) (d : Fin 128)
    (hb : b.val = win3_6.index t (0 : Fin 4)) (hg : g.val = win3_6.index t (1 : Fin 4) / 2) :
    x1 (ix4 (0 : Fin 1) (0 : Fin 1) s d) = ks (ix4 b g s d) := by
  subst hx hk
  obtain ⟨e0, e1, e2, e3⟩ := idx3_1 t
  unfold iblk3
  rw [View.read_apply]
  show V c main_v60 (((cfg3.win 1).blk t).view.emb (ix4 (0 : Fin 1) (0 : Fin 1) s d)) = V c main_v60 (ix4 b g s d)
  refine congrArg (V c main_v60) (funext fun a => Fin.ext ?_)
  match a with
  | ⟨0, _⟩ => show win3_1.index t (0 : Fin 4) * 1 + 1 * 0 = b.val; omega
  | ⟨1, _⟩ => show win3_1.index t (1 : Fin 4) * 1 + 1 * 0 = g.val; omega
  | ⟨2, _⟩ => show win3_1.index t (2 : Fin 4) * 2048 + 1 * s.val = s.val; omega
  | ⟨3, _⟩ => show win3_1.index t (3 : Fin 4) * 128 + 1 * d.val = d.val; omega

/-- The value block's row `s` is row `s` of key head `g` of batch `b` of the value array. -/
theorem iblk2_apply (t : Fin cfg3.N) (x2 : S1x1x2048x128.Idx → EReal) (vs : S2x8x2048x128.Idx → EReal)
    (hx : iblk3 (F := Ideal) V c 2 t = x2) (hv : V c main_v61 = vs)
    (b : Fin 2) (g : Fin 8) (s : Fin 2048) (d : Fin 128)
    (hb : b.val = win3_6.index t (0 : Fin 4)) (hg : g.val = win3_6.index t (1 : Fin 4) / 2) :
    x2 (ix4 (0 : Fin 1) (0 : Fin 1) s d) = vs (ix4 b g s d) := by
  subst hx hv
  obtain ⟨e0, e1, e2, e3⟩ := idx3_2 t
  unfold iblk3
  rw [View.read_apply]
  show V c main_v61 (((cfg3.win 2).blk t).view.emb (ix4 (0 : Fin 1) (0 : Fin 1) s d)) = V c main_v61 (ix4 b g s d)
  refine congrArg (V c main_v61) (funext fun a => Fin.ext ?_)
  match a with
  | ⟨0, _⟩ => show win3_2.index t (0 : Fin 4) * 1 + 1 * 0 = b.val; omega
  | ⟨1, _⟩ => show win3_2.index t (1 : Fin 4) * 1 + 1 * 0 = g.val; omega
  | ⟨2, _⟩ => show win3_2.index t (2 : Fin 4) * 2048 + 1 * s.val = s.val; omega
  | ⟨3, _⟩ => show win3_2.index t (3 : Fin 4) * 128 + 1 * d.val = d.val; omega

/-- The mask block's row `p` is row `q` of batch `b` of the mask array (which has one head). -/
theorem iblk3_apply (t : Fin cfg3.N) (x3 : S1x1x1024x2048.Idx → BitVec 32) (mk : S2x1x2048x2048.Idx → BitVec 32)
    (hx : iblk3 (F := Ideal) V c 3 t = x3) (hm : V c main_arg3 = mk)
    (b : Fin 2) (q : Fin 2048) (p : Fin 1024) (s : Fin 2048)
    (hb : b.val = win3_6.index t (0 : Fin 4)) (hqv : q.val = win3_6.index t (2 : Fin 4) * 1024 + p.val) :
    x3 (ix4 (0 : Fin 1) (0 : Fin 1) p s) = mk (ix4 b (0 : Fin 1) q s) := by
  subst hx hm
  obtain ⟨e0, e1, e2, e3⟩ := idx3_3 t
  unfold iblk3
  rw [View.read_apply]
  show V c main_arg3 (((cfg3.win 3).blk t).view.emb (ix4 (0 : Fin 1) (0 : Fin 1) p s)) = V c main_arg3 (ix4 b (0 : Fin 1) q s)
  refine congrArg (V c main_arg3) (funext fun a => Fin.ext ?_)
  match a with
  | ⟨0, _⟩ => show win3_3.index t (0 : Fin 4) * 1 + 1 * 0 = b.val; omega
  | ⟨1, _⟩ => show win3_3.index t (1 : Fin 4) * 1 + 1 * 0 = 0; omega
  | ⟨2, _⟩ => show win3_3.index t (2 : Fin 4) * 1024 + 1 * p.val = q.val; omega
  | ⟨3, _⟩ => show win3_3.index t (3 : Fin 4) * 2048 + 1 * s.val = s.val; omega

/-- The gate block's row `p` is row `q` of head `h` of batch `b` of the gate array. -/
theorem iblk4_apply (t : Fin cfg3.N) (x4 : S1x1x1024x128.Idx → EReal) (gs : S2x16x2048x128.Idx → EReal)
    (hx : iblk3 (F := Ideal) V c 4 t = x4) (hg : V c main_v62 = gs)
    (b : Fin 2) (h : Fin 16) (q : Fin 2048) (p : Fin 1024) (d : Fin 128)
    (hb : b.val = win3_6.index t (0 : Fin 4)) (hh : h.val = win3_6.index t (1 : Fin 4))
    (hqv : q.val = win3_6.index t (2 : Fin 4) * 1024 + p.val) :
    x4 (ix4 (0 : Fin 1) (0 : Fin 1) p d) = gs (ix4 b h q d) := by
  subst hx hg
  obtain ⟨e0, e1, e2, e3⟩ := idx3_4 t
  unfold iblk3
  rw [View.read_apply]
  show V c main_v62 (((cfg3.win 4).blk t).view.emb (ix4 (0 : Fin 1) (0 : Fin 1) p d)) = V c main_v62 (ix4 b h q d)
  refine congrArg (V c main_v62) (funext fun a => Fin.ext ?_)
  match a with
  | ⟨0, _⟩ => show win3_4.index t (0 : Fin 4) * 1 + 1 * 0 = b.val; omega
  | ⟨1, _⟩ => show win3_4.index t (1 : Fin 4) * 1 + 1 * 0 = h.val; omega
  | ⟨2, _⟩ => show win3_4.index t (2 : Fin 4) * 1024 + 1 * p.val = q.val; omega
  | ⟨3, _⟩ => show win3_4.index t (3 : Fin 4) * 128 + 1 * d.val = d.val; omega

end Reads

/-! ## Where the output blocks' entries sit, and that the blocks tile their arrays -/

/-- Entry `(u, v, p, s)` of the attention output's block sits at `(b, h, q, s)` of its array. -/
theorem emb6 (t : Fin cfg3.N) (u v : Fin 1) (p : Fin 1024) (s : Fin 2048) (b : Fin 2) (h : Fin 16) (q : Fin 2048)
    (hb : b.val = win3_6.index t (0 : Fin 4)) (hh : h.val = win3_6.index t (1 : Fin 4))
    (hqv : q.val = win3_6.index t (2 : Fin 4) * 1024 + p.val) :
    ((cfg3.win 6).blk t).view.emb (ix4 u v p s) = (ix4 b h q s : S2x16x2048x2048.Idx) := by
  obtain ⟨e0, e1, e2, e3⟩ := idx3_6 t
  have hu : u.val = 0 := by omega
  have hv : v.val = 0 := by omega
  refine funext fun a => Fin.ext ?_
  match a with
  | ⟨0, _⟩ => show win3_6.index t (0 : Fin 4) * 1 + 1 * u.val = b.val; omega
  | ⟨1, _⟩ => show win3_6.index t (1 : Fin 4) * 1 + 1 * v.val = h.val; omega
  | ⟨2, _⟩ => show win3_6.index t (2 : Fin 4) * 1024 + 1 * p.val = q.val; omega
  | ⟨3, _⟩ => show win3_6.index t (3 : Fin 4) * 2048 + 1 * s.val = s.val; omega

/-- Entry `(u, v, p, d)` of the context output's block sits at `(b, h, q, d)` of its array. -/
theorem emb5 (t : Fin cfg3.N) (u v : Fin 1) (p : Fin 1024) (d : Fin 128) (b : Fin 2) (h : Fin 16) (q : Fin 2048)
    (hb : b.val = win3_6.index t (0 : Fin 4)) (hh : h.val = win3_6.index t (1 : Fin 4))
    (hqv : q.val = win3_6.index t (2 : Fin 4) * 1024 + p.val) :
    ((cfg3.win 5).blk t).view.emb (ix4 u v p d) = (ix4 b h q d : S2x16x2048x128.Idx) := by
  obtain ⟨e0, e1, e2, e3⟩ := idx3_5 t
  have hu : u.val = 0 := by omega
  have hv : v.val = 0 := by omega
  refine funext fun a => Fin.ext ?_
  match a with
  | ⟨0, _⟩ => show win3_5.index t (0 : Fin 4) * 1 + 1 * u.val = b.val; omega
  | ⟨1, _⟩ => show win3_5.index t (1 : Fin 4) * 1 + 1 * v.val = h.val; omega
  | ⟨2, _⟩ => show win3_5.index t (2 : Fin 4) * 1024 + 1 * p.val = q.val; omega
  | ⟨3, _⟩ => show win3_5.index t (3 : Fin 4) * 128 + 1 * d.val = d.val; omega

/-- Every entry of the attention array is in some point's block: the point of its batch, its head and its row's half. -/
theorem cover6 (i : S2x16x2048x2048.Idx) :
    ∃ t : Fin cfg3.N, (cfg3.win 6).flush t = true ∧ i ∈ ((cfg3.win 6).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, ht⟩ := idx3_onto ⟨(i 0).val, h0⟩ ⟨(i 1).val, h1⟩ ⟨(i 2).val / 1024, by omega⟩
  have q0 : win3_6.index t (0 : Fin 4) = (i 0).val := congrFun ht 0
  have q1 : win3_6.index t (1 : Fin 4) = (i 1).val := congrFun ht 1
  have q2 : win3_6.index t (2 : Fin 4) = (i 2).val / 1024 := congrFun ht 2
  have q3 : win3_6.index t (3 : Fin 4) = 0 := congrFun ht 3
  refine ⟨t, flush3_6 t, ?_⟩
  show i ∈ ((View.whole main_v63_1).slice (win3_6.rect t)).set
  rw [View.set_slice_whole, Rect.mem_set_unit]
  intro a
  match a with
  | ⟨0, _⟩ => show win3_6.index t (0 : Fin 4) * 1 ≤ (i 0).val ∧ (i 0).val < win3_6.index t (0 : Fin 4) * 1 + 1; omega
  | ⟨1, _⟩ => show win3_6.index t (1 : Fin 4) * 1 ≤ (i 1).val ∧ (i 1).val < win3_6.index t (1 : Fin 4) * 1 + 1; omega
  | ⟨2, _⟩ => show win3_6.index t (2 : Fin 4) * 1024 ≤ (i 2).val ∧ (i 2).val < win3_6.index t (2 : Fin 4) * 1024 + 1024; omega
  | ⟨3, _⟩ => show win3_6.index t (3 : Fin 4) * 2048 ≤ (i 3).val ∧ (i 3).val < win3_6.index t (3 : Fin 4) * 2048 + 2048; omega

/-- Every entry of the context array is in some point's block. -/
theorem cover5 (i : S2x16x2048x128.Idx) :
    ∃ t : Fin cfg3.N, (cfg3.win 5).flush t = true ∧ i ∈ ((cfg3.win 5).blk t).view.set := by
  have h0 : (i 0).val < 2 := (i 0).isLt
  have h1 : (i 1).val < 16 := (i 1).isLt
  have h2 : (i 2).val < 2048 := (i 2).isLt
  have h3 : (i 3).val < 128 := (i 3).isLt
  obtain ⟨t, ht⟩ := idx3_onto ⟨(i 0).val, h0⟩ ⟨(i 1).val, h1⟩ ⟨(i 2).val / 1024, by omega⟩
  have q0 : win3_6.index t (0 : Fin 4) = (i 0).val := congrFun ht 0
  have q1 : win3_6.index t (1 : Fin 4) = (i 1).val := congrFun ht 1
  have q2 : win3_6.index t (2 : Fin 4) = (i 2).val / 1024 := congrFun ht 2
  obtain ⟨e0, e1, e2, e3⟩ := idx3_5 t
  refine ⟨t, flush3_5 t, ?_⟩
  show i ∈ ((View.whole main_v63_0).slice (win3_5.rect t)).set
  rw [View.set_slice_whole, Rect.mem_set_unit]
  intro a
  match a with
  | ⟨0, _⟩ => show win3_5.index t (0 : Fin 4) * 1 ≤ (i 0).val ∧ (i 0).val < win3_5.index t (0 : Fin 4) * 1 + 1; omega
  | ⟨1, _⟩ => show win3_5.index t (1 : Fin 4) * 1 ≤ (i 1).val ∧ (i 1).val < win3_5.index t (1 : Fin 4) * 1 + 1; omega
  | ⟨2, _⟩ => show win3_5.index t (2 : Fin 4) * 1024 ≤ (i 2).val ∧ (i 2).val < win3_5.index t (2 : Fin 4) * 1024 + 1024; omega
  | ⟨3, _⟩ => show win3_5.index t (3 : Fin 4) * 128 ≤ (i 3).val ∧ (i 3).val < win3_5.index t (3 : Fin 4) * 128 + 128; omega

end Cert.KernelIdeal.RegionAttnBlocks

end
-- ==== Proof.RegionAttn.lean ====
/-
  The attention region's two result arrays, entry by entry.

  At a point of the grid the body leaves, in the attention output's block, the soft-max of the scaled scores of the
  block's 1024 queries against all 2048 keys of their key head under the mask's rows; that block is the restriction of
  ONE function of the query, key and mask arrays (`attnArr`), because row `q` of the result depends only on row `q` of
  the queries and of the mask and on the whole key head. The blocks tile the array, so the array ends holding that
  function. The context block is the attention block times the value head, each entry multiplied by the logistic of the
  gate; its attention block is the corresponding block of the attention ARRAY just read, so the context array is stated
  over the attention array and the soft-max is not opened a second time.
-/
import proofs.«164297_j75917841924554_2_alg».proof.Proof.Gen.KernelIdeal.Frame
import proofs.«164297_j75917841924554_2_alg».proof.Proof.Spec
import proofs.«164297_j75917841924554_2_alg».proof.Proof.RegionAttnPay
import proofs.«164297_j75917841924554_2_alg».proof.Proof.RegionAttnBlocks
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionAttn

open Cert.KernelIdeal Cert.KernelIdeal.Gen Cert.KernelIdeal.RegionAttnPay Cert.KernelIdeal.RegionAttnBlocks

/-! ## The two results as functions of the arrays -/

/-- The attention weight of query `q` of head `h` of batch `b` on key `s`: the soft-max, under mask row `q`, of the scaled
    scores of that query against every key of key head `h / 2`. -/
def attnAt (qs : S2x16x2048x128.Idx → EReal) (ks : S2x8x2048x128.Idx → EReal) (mk : S2x1x2048x2048.Idx → BitVec 32)
    (b : Fin 2) (h : Fin 16) (q s : Fin 2048) : EReal :=
  Cert.Spec.softrow
    (fun s' => (∑ d : Fin 128, qs (ix4 b h q d) * ks (ix4 b (⟨h.val / 2, by omega⟩ : Fin 8) s' d)) * Cert.Spec.wScale)
    (fun s' => mk (ix4 b (0 : Fin 1) q s')) s

/-- The same as an array. -/
def attnArr (qs : S2x16x2048x128.Idx → EReal) (ks : S2x8x2048x128.Idx → EReal) (mk : S2x1x2048x2048.Idx → BitVec 32) :
    S2x16x2048x2048.Idx → EReal :=
  fun i => attnAt qs ks mk (i 0) (i 1) (i 2) (i 3)

/-- The gated context of query `q` of head `h` at feature `d`, over an attention array `at'`. -/
def ctxAt (at' : S2x16x2048x2048.Idx → EReal) (vs : S2x8x2048x128.Idx → EReal) (gs : S2x16x2048x128.Idx → EReal)
    (b : Fin 2) (h : Fin 16) (q : Fin 2048) (d : Fin 128) : EReal :=
  (∑ s : Fin 2048, at' (ix4 b h q s) * vs (ix4 b (⟨h.val / 2, by omega⟩ : Fin 8) s d)) * Ideal.logistic (gs (ix4 b h q d))

/-- The same as an array. -/
def ctxArr (at' : S2x16x2048x2048.Idx → EReal) (vs : S2x8x2048x128.Idx → EReal) (gs : S2x16x2048x128.Idx → EReal) :
    S2x16x2048x128.Idx → EReal :=
  fun i => ctxAt at' vs gs (i 0) (i 1) (i 2) (i 3)

/-! ## The body's blocks when its input blocks are restrictions of the arrays -/

/-- The attention block at `(p, s)` when the query and mask blocks are rows `q` of the arrays and the key block is the key
    head: the attention weight at `(b, h, q, s)`. -/
theorem pay4_at (x0 : S1x1x1024x128.Idx → EReal) (x1 : S1x1x2048x128.Idx → EReal) (x3 : S1x1x1024x2048.Idx → BitVec 32)
    (qs : S2x16x2048x128.Idx → EReal) (ks : S2x8x2048x128.Idx → EReal) (mk : S2x1x2048x2048.Idx → BitVec 32)
    (p : Fin 1024) (s : Fin 2048) (b : Fin 2) (h : Fin 16) (q : Fin 2048)
    (h0 : ∀ d : Fin 128, x0 (ix4 (0 : Fin 1) (0 : Fin 1) p d) = qs (ix4 b h q d))
    (h1 : ∀ (s' : Fin 2048) (d : Fin 128), x1 (ix4 (0 : Fin 1) (0 : Fin 1) s' d) = ks (ix4 b (⟨h.val / 2, by omega⟩ : Fin 8) s' d))
    (h3 : ∀ s' : Fin 2048, x3 (ix4 (0 : Fin 1) (0 : Fin 1) p s') = mk (ix4 b (0 : Fin 1) q s')) :
    k3_pay4 (F := Ideal) x0 x1 x3 (ix2 p s) = attnAt qs ks mk b h q s := by
  rw [pay4_apply]
  unfold attnAt
  simp only [h0, h1, h3]

/-- The context block at `(u, v, p, d)` when its attention block is rows `q` of an attention array and the value and gate
    blocks are restrictions of their arrays: the gated context at `(b, h, q, d)`. -/
theorem pay2_at (x0 : S1x1x1024x128.Idx → EReal) (x1 x2 : S1x1x2048x128.Idx → EReal) (x3 : S1x1x1024x2048.Idx → BitVec 32)
    (x4 : S1x1x1024x128.Idx → EReal)
    (at' : S2x16x2048x2048.Idx → EReal) (vs : S2x8x2048x128.Idx → EReal) (gs : S2x16x2048x128.Idx → EReal)
    (u v : Fin 1) (p : Fin 1024) (d : Fin 128) (b : Fin 2) (h : Fin 16) (q : Fin 2048)
    (ha : ∀ s : Fin 2048, k3_pay4 (F := Ideal) x0 x1 x3 (ix2 p s) = at' (ix4 b h q s))
    (h2 : ∀ s : Fin 2048, x2 (ix4 (0 : Fin 1) (0 : Fin 1) s d) = vs (ix4 b (⟨h.val / 2, by omega⟩ : Fin 8) s d))
    (h4 : x4 (ix4 (0 : Fin 1) (0 : Fin 1) p d) = gs (ix4 b h q d)) :
    k3_pay2 (F := Ideal) (k3_pay3 (F := Ideal) x2) (k3_pay4 (F := Ideal) x0 x1 x3) x4 (ix4 u v p d) = ctxAt at' vs gs b h q d := by
  rw [pay2_apply]
  unfold ctxAt
  simp only [ha, pay3_apply, h2, h4]

section Region

variable (V : (c : Dev nD) → (b : Ref sig .tc) → Buf (Elt Ideal) ((c : Thread nD τ).loc b)) (c : Dev nD)

/-! ## The attention array -/

/-- What a point writes back into the attention array is its block of `attnArr` of the arrays as the region finds them. -/
theorem flushed6_eq (t : Fin cfg3.N) :
    (dat3 (F := Ideal) V c).flushed 6 t
      = ((cfg3.win 6).blk t).view.read (Elt Ideal) (attnArr (V c main_v49) (V c main_v60) (V c main_arg3)) := by
  show (cfg3.win 6).cut (grid3.coords t) ((dat3 (F := Ideal) V c).after 6 t) = _
  rw [after3_6]
  unfold out3_6
  rw [View.canon_unit_zero hz4]
  simp only [View.ld_unit_zero (S := S1x1x1024x128) hz4, View.ld_unit_zero (S := S1x1x2048x128) hz4,
    View.ld_unit_zero (S := S1x1x1024x2048) hz4]
  refine funext fun (j : S1x1x1024x2048.Idx) => ?_
  show k3_pay1 (F := Ideal) (k3_pay4 (F := Ideal) (iblk3 V c 0 t) (iblk3 V c 1 t) (iblk3 V c 3 t)) j
      = attnArr (V c main_v49) (V c main_v60) (V c main_arg3) (((cfg3.win 6).blk t).view.emb j)
  obtain ⟨u, v, p, s, rfl⟩ : ∃ (u v : Fin 1) (p : Fin 1024) (s : Fin 2048), j = ix4 u v p s := ⟨j 0, j 1, j 2, j 3, eq_ix4 j⟩
  obtain ⟨e0, e1, e2, e3⟩ := idx3_6 t
  obtain ⟨b, hb⟩ : ∃ b : Fin 2, b.val = win3_6.index t (0 : Fin 4) := ⟨⟨win3_6.index t (0 : Fin 4), by omega⟩, rfl⟩
  obtain ⟨h, hh⟩ : ∃ h : Fin 16, h.val = win3_6.index t (1 : Fin 4) := ⟨⟨win3_6.index t (1 : Fin 4), by omega⟩, rfl⟩
  obtain ⟨q, hq⟩ : ∃ q : Fin 2048, q.val = win3_6.index t (2 : Fin 4) * 1024 + p.val := ⟨⟨win3_6.index t (2 : Fin 4) * 1024 + p.val, by omega⟩, rfl⟩
  rw [emb6 t u v p s b h q hb hh hq, pay1_apply]
  show _ = attnAt (V c main_v49) (V c main_v60) (V c main_arg3) b h q s
  exact pay4_at (iblk3 V c 0 t) (iblk3 V c 1 t) (iblk3 V c 3 t) (V c main_v49) (V c main_v60) (V c main_arg3) p s b h q
    (fun d => iblk0_apply V c t _ _ rfl rfl b h q p d hb hh hq)
    (fun s' d => iblk1_apply V c t _ _ rfl rfl b ⟨h.val / 2, by omega⟩ s' d hb (by show h.val / 2 = _; rw [hh]))
    (fun s' => iblk3_apply V c t _ _ rfl rfl b q p s' hb hq)

/-- THE ATTENTION ARRAY after the region: `attnArr` of the query, key and mask arrays as the region finds them. -/
theorem final6 : (dat3 (F := Ideal) V c).arrAt 6 cfg3.N = attnArr (V c main_v49) (V c main_v60) (V c main_arg3) :=
  (dat3 (F := Ideal) V c).arrAt_eq_of_cover 6 (attnArr (V c main_v49) (V c main_v60) (V c main_arg3))
    (fun t _ => flushed6_eq V c t) cover6

theorem final_attn (qs : S2x16x2048x128.Idx → EReal) (ks : S2x8x2048x128.Idx → EReal) (mk : S2x1x2048x2048.Idx → BitVec 32)
    (at' : S2x16x2048x2048.Idx → EReal)
    (hq : V c main_v49 = qs) (hk : V c main_v60 = ks) (hm : V c main_arg3 = mk)
    (hat : (dat3 (F := Ideal) V c).arrAt 6 cfg3.N = at') (b : Fin 2) (h : Fin 16) (q s : Fin 2048) :
    at' (ix4 b h q s)
      = Cert.Spec.softrow
          (fun s' => (∑ d : Fin 128, qs (ix4 b h q d) * ks (ix4 b (⟨h.val / 2, by omega⟩ : Fin 8) s' d)) * Cert.Spec.wScale)
          (fun s' => mk (ix4 b (0 : Fin 1) q s')) s := by
  subst hq hk hm hat
  rw [final6]
  rfl

/-! ## The context array -/

/-- What a point writes back into the context array is its block of `ctxArr` of the attention array after the region and
    of the value and gate arrays as the region finds them: the point's attention block is the attention array's rows. -/
theorem flushed5_eq (t : Fin cfg3.N) :
    (dat3 (F := Ideal) V c).flushed 5 t
      = ((cfg3.win 5).blk t).view.read (Elt Ideal)
          (ctxArr ((dat3 (F := Ideal) V c).arrAt 6 cfg3.N) (V c main_v61) (V c main_v62)) := by
  show (cfg3.win 5).cut (grid3.coords t) ((dat3 (F := Ideal) V c).after 5 t) = _
  rw [after3_5]
  unfold out3_5
  rw [View.canon_unit_zero hz4]
  simp only [View.ld_unit_zero (S := S1x1x1024x128) hz4, View.ld_unit_zero (S := S1x1x2048x128) hz4,
    View.ld_unit_zero (S := S1x1x1024x2048) hz4]
  refine funext fun (j : S1x1x1024x128.Idx) => ?_
  show k3_pay2 (F := Ideal) (k3_pay3 (F := Ideal) (iblk3 V c 2 t))
        (k3_pay4 (F := Ideal) (iblk3 V c 0 t) (iblk3 V c 1 t) (iblk3 V c 3 t)) (iblk3 V c 4 t) j
      = ctxArr ((dat3 (F := Ideal) V c).arrAt 6 cfg3.N) (V c main_v61) (V c main_v62) (((cfg3.win 5).blk t).view.emb j)
  obtain ⟨u, v, p, d, rfl⟩ : ∃ (u v : Fin 1) (p : Fin 1024) (d : Fin 128), j = ix4 u v p d := ⟨j 0, j 1, j 2, j 3, eq_ix4 j⟩
  obtain ⟨e0, e1, e2, e3⟩ := idx3_6 t
  obtain ⟨b, hb⟩ : ∃ b : Fin 2, b.val = win3_6.index t (0 : Fin 4) := ⟨⟨win3_6.index t (0 : Fin 4), by omega⟩, rfl⟩
  obtain ⟨h, hh⟩ : ∃ h : Fin 16, h.val = win3_6.index t (1 : Fin 4) := ⟨⟨win3_6.index t (1 : Fin 4), by omega⟩, rfl⟩
  obtain ⟨q, hq⟩ : ∃ q : Fin 2048, q.val = win3_6.index t (2 : Fin 4) * 1024 + p.val := ⟨⟨win3_6.index t (2 : Fin 4) * 1024 + p.val, by omega⟩, rfl⟩
  rw [emb5 t u v p d b h q hb hh hq]
  show _ = ctxAt ((dat3 (F := Ideal) V c).arrAt 6 cfg3.N) (V c main_v61) (V c main_v62) b h q d
  refine pay2_at (iblk3 V c 0 t) (iblk3 V c 1 t) (iblk3 V c 2 t) (iblk3 V c 3 t) (iblk3 V c 4 t)
    ((dat3 (F := Ideal) V c).arrAt 6 cfg3.N) (V c main_v61) (V c main_v62) u v p d b h q (fun s => ?_)
    (fun s => iblk2_apply V c t _ _ rfl rfl b ⟨h.val / 2, by omega⟩ s d hb (by show h.val / 2 = _; rw [hh]))
    (iblk4_apply V c t _ _ rfl rfl b h q p d hb hh hq)
  rw [final6]
  show _ = attnAt (V c main_v49) (V c main_v60) (V c main_arg3) b h q s
  exact pay4_at (iblk3 V c 0 t) (iblk3 V c 1 t) (iblk3 V c 3 t) (V c main_v49) (V c main_v60) (V c main_arg3) p s b h q
    (fun d' => iblk0_apply V c t _ _ rfl rfl b h q p d' hb hh hq)
    (fun s' d' => iblk1_apply V c t _ _ rfl rfl b ⟨h.val / 2, by omega⟩ s' d' hb (by show h.val / 2 = _; rw [hh]))
    (fun s' => iblk3_apply V c t _ _ rfl rfl b q p s' hb hq)

/-- THE CONTEXT ARRAY after the region: `ctxArr` of the attention array after the region and of the value and gate arrays. -/
theorem final5 : (dat3 (F := Ideal) V c).arrAt 5 cfg3.N
    = ctxArr ((dat3 (F := Ideal) V c).arrAt 6 cfg3.N) (V c main_v61) (V c main_v62) :=
  (dat3 (F := Ideal) V c).arrAt_eq_of_cover 5 (ctxArr ((dat3 (F := Ideal) V c).arrAt 6 cfg3.N) (V c main_v61) (V c main_v62))
    (fun t _ => flushed5_eq V c t) cover5

theorem final_ctx (vs : S2x8x2048x128.Idx → EReal) (gs : S2x16x2048x128.Idx → EReal)
    (at' : S2x16x2048x2048.Idx → EReal) (cx : S2x16x2048x128.Idx → EReal)
    (hv : V c main_v61 = vs) (hg : V c main_v62 = gs)
    (hat : (dat3 (F := Ideal) V c).arrAt 6 cfg3.N = at') (hcx : (dat3 (F := Ideal) V c).arrAt 5 cfg3.N = cx)
    (b : Fin 2) (h : Fin 16) (q : Fin 2048) (d : Fin 128) :
    cx (ix4 b h q d)
      = (∑ s : Fin 2048, at' (ix4 b h q s) * vs (ix4 b (⟨h.val / 2, by omega⟩ : Fin 8) s d))
          * Ideal.logistic (gs (ix4 b h q d)) := by
  subst hv hg hat hcx
  rw [final5]
  rfl

end Region

end Cert.KernelIdeal.RegionAttn

end
-- ==== Proof.HostReadLayout.lean ====
/-
  Layout operations of the host stretches, each read at an index given by its coordinates.

  A reshape keeps the row-major position: row `2048 b + s` and column `D h + e` of a matrix with `H D` columns is entry
  `(b, s, h, e)` of the four-axis array. A slice shifts one coordinate by its offset, a transpose swaps the two middle
  coordinates, a broadcast along a unit axis forgets the coordinate on it, and a two-piece join along the last axis
  reads the first piece below its extent and the second piece above it.
-/
import proofs.«164297_j75917841924554_2_alg».proof.KernelIdeal
import Idealize.ShloMosaic.Lib.Pipeline.Value
import Idealize.ShloMosaic.Lib.ValueIdx

noncomputable section

namespace Cert.KernelIdeal.HostRead

open Idealize.ShloMosaic Idealize.ShloMosaic.ValueIdx Cert.KernelIdeal

variable {α : Type}

/-! ## Reshapes -/

/-- Rows `2048 b + s` of a `[4096, 2048]` matrix are the positions `(b, s)` of a `[2, 2048, 2048]` array. -/
theorem cast_rows_apply (x : S2x2048x2048.Idx → α) (hc : S2x2048x2048.ShapeCasts S4096x2048) (b : Fin 2) (s k : Fin 2048) :
    shapeCast S4096x2048 x hc (ix2 (⟨2048 * b.val + s.val, by omega⟩ : Fin 4096) k) = x (ix3 b s k) :=
  shapeCast_apply x hc _ _ (by
    rw [Shape.rowMajor_val_two, Shape.rowMajor_val_three]
    show (b.val * 2048 + s.val) * 2048 + k.val = (2048 * b.val + s.val) * 2048 + k.val
    omega)

/-- The inverse reading: position `(b, s)` of the `[2, 2048, 2048]` array is row `2048 b + s` of the matrix. -/
theorem cast_unrows_apply (x : S4096x2048.Idx → α) (hc : S4096x2048.ShapeCasts S2x2048x2048) (b : Fin 2) (s o : Fin 2048) :
    shapeCast S2x2048x2048 x hc (ix3 b s o) = x (ix2 (⟨2048 * b.val + s.val, by omega⟩ : Fin 4096) o) :=
  shapeCast_apply x hc _ _ (by
    rw [Shape.rowMajor_val_two, Shape.rowMajor_val_three]
    show (2048 * b.val + s.val) * 2048 + o.val = (b.val * 2048 + s.val) * 2048 + o.val
    omega)

/-- Sixteen heads of 256 features side by side in a row of 4096. -/
theorem cast_heads16x256_apply (x : S4096x4096.Idx → α) (hc : S4096x4096.ShapeCasts S2x2048x16x256)
    (b : Fin 2) (s : Fin 2048) (h : Fin 16) (e : Fin 256) :
    shapeCast S2x2048x16x256 x hc (ix4 b s h e)
      = x (ix2 (⟨2048 * b.val + s.val, by omega⟩ : Fin 4096) (⟨256 * h.val + e.val, by omega⟩ : Fin 4096)) :=
  shapeCast_apply x hc _ _ (by
    rw [Shape.rowMajor_val_two, Shape.rowMajor_val_four]
    show (2048 * b.val + s.val) * 4096 + (256 * h.val + e.val) = ((b.val * 2048 + s.val) * 16 + h.val) * 256 + e.val
    omega)

/-- Eight heads of 128 features side by side in a row of 1024. -/
theorem cast_heads8x128_apply (x : S4096x1024.Idx → α) (hc : S4096x1024.ShapeCasts S2x2048x8x128)
    (b : Fin 2) (s : Fin 2048) (g : Fin 8) (e : Fin 128) :
    shapeCast S2x2048x8x128 x hc (ix4 b s g e)
      = x (ix2 (⟨2048 * b.val + s.val, by omega⟩ : Fin 4096) (⟨128 * g.val + e.val, by omega⟩ : Fin 1024)) :=
  shapeCast_apply x hc _ _ (by
    rw [Shape.rowMajor_val_two, Shape.rowMajor_val_four]
    show (2048 * b.val + s.val) * 1024 + (128 * g.val + e.val) = ((b.val * 2048 + s.val) * 8 + g.val) * 128 + e.val
    omega)

/-- Sixteen heads of 128 features laid side by side into a row of 2048. -/
theorem cast_join16x128_apply (x : S2x2048x16x128.Idx → α) (hc : S2x2048x16x128.ShapeCasts S4096x2048)
    (b : Fin 2) (s : Fin 2048) (h : Fin 16) (d : Fin 128) :
    shapeCast S4096x2048 x hc (ix2 (⟨2048 * b.val + s.val, by omega⟩ : Fin 4096) (⟨128 * h.val + d.val, by omega⟩ : Fin 2048))
      = x (ix4 b s h d) :=
  shapeCast_apply x hc _ _ (by
    rw [Shape.rowMajor_val_two, Shape.rowMajor_val_four]
    show ((b.val * 2048 + s.val) * 16 + h.val) * 128 + d.val = (2048 * b.val + s.val) * 2048 + (128 * h.val + d.val)
    omega)

/-! ## Slices along the last axis -/

/-- The first 128 of a head's 256 features. -/
theorem slice256_lo_apply (x : S2x2048x16x256.Idx → α) (hs : S2x2048x16x256.Slices ![0, 0, 0, 0] S2x2048x16x128)
    (b : Fin 2) (s : Fin 2048) (h : Fin 16) (e : Fin 128) :
    extractStridedSlice S2x2048x16x128 ![0, 0, 0, 0] x hs (ix4 b s h e) = x (ix4 b s h (⟨e.val, by omega⟩ : Fin 256)) :=
  extractStridedSlice_apply ![0, 0, 0, 0] x hs _ _ (fun a => match a with
    | ⟨0, _⟩ => by show b.val = 0 + b.val; omega
    | ⟨1, _⟩ => by show s.val = 0 + s.val; omega
    | ⟨2, _⟩ => by show h.val = 0 + h.val; omega
    | ⟨3, _⟩ => by show e.val = 0 + e.val; omega)

/-- The last 128 of a head's 256 features. -/
theorem slice256_hi_apply (x : S2x2048x16x256.Idx → α) (hs : S2x2048x16x256.Slices ![0, 0, 0, 128] S2x2048x16x128)
    (b : Fin 2) (s : Fin 2048) (h : Fin 16) (e : Fin 128) :
    extractStridedSlice S2x2048x16x128 ![0, 0, 0, 128] x hs (ix4 b s h e) = x (ix4 b s h (⟨128 + e.val, by omega⟩ : Fin 256)) :=
  extractStridedSlice_apply ![0, 0, 0, 128] x hs _ _ (fun a => match a with
    | ⟨0, _⟩ => by show b.val = 0 + b.val; omega
    | ⟨1, _⟩ => by show s.val = 0 + s.val; omega
    | ⟨2, _⟩ => by show h.val = 0 + h.val; omega
    | ⟨3, _⟩ => by show 128 + e.val = 128 + e.val; rfl)

/-- The lower half of a head of 128 (sixteen heads). -/
theorem slice16_lo_apply (x : S2x2048x16x128.Idx → α) (hs : S2x2048x16x128.Slices ![0, 0, 0, 0] S2x2048x16x64)
    (b : Fin 2) (s : Fin 2048) (h : Fin 16) (e : Fin 64) :
    extractStridedSlice S2x2048x16x64 ![0, 0, 0, 0] x hs (ix4 b s h e) = x (ix4 b s h (⟨e.val, by omega⟩ : Fin 128)) :=
  extractStridedSlice_apply ![0, 0, 0, 0] x hs _ _ (fun a => match a with
    | ⟨0, _⟩ => by show b.val = 0 + b.val; omega
    | ⟨1, _⟩ => by show s.val = 0 + s.val; omega
    | ⟨2, _⟩ => by show h.val = 0 + h.val; omega
    | ⟨3, _⟩ => by show e.val = 0 + e.val; omega)

/-- The upper half of a head of 128 (sixteen heads). -/
theorem slice16_hi_apply (x : S2x2048x16x128.Idx → α) (hs : S2x2048x16x128.Slices ![0, 0, 0, 64] S2x2048x16x64)
    (b : Fin 2) (s : Fin 2048) (h : Fin 16) (e : Fin 64) :
    extractStridedSlice S2x2048x16x64 ![0, 0, 0, 64] x hs (ix4 b s h e) = x (ix4 b s h (⟨e.val + 64, by omega⟩ : Fin 128)) :=
  extractStridedSlice_apply ![0, 0, 0, 64] x hs _ _ (fun a => match a with
    | ⟨0, _⟩ => by show b.val = 0 + b.val; omega
    | ⟨1, _⟩ => by show s.val = 0 + s.val; omega
    | ⟨2, _⟩ => by show h.val = 0 + h.val; omega
    | ⟨3, _⟩ => by show e.val + 64 = 64 + e.val; omega)

/-- The lower half of a head of 128 (eight heads). -/
theorem slice8_lo_apply (x : S2x2048x8x128.Idx → α) (hs : S2x2048x8x128.Slices ![0, 0, 0, 0] S2x2048x8x64)
    (b : Fin 2) (s : Fin 2048) (g : Fin 8) (e : Fin 64) :
    extractStridedSlice S2x2048x8x64 ![0, 0, 0, 0] x hs (ix4 b s g e) = x (ix4 b s g (⟨e.val, by omega⟩ : Fin 128)) :=
  extractStridedSlice_apply ![0, 0, 0, 0] x hs _ _ (fun a => match a with
    | ⟨0, _⟩ => by show b.val = 0 + b.val; omega
    | ⟨1, _⟩ => by show s.val = 0 + s.val; omega
    | ⟨2, _⟩ => by show g.val = 0 + g.val; omega
    | ⟨3, _⟩ => by show e.val = 0 + e.val; omega)

/-- The upper half of a head of 128 (eight heads). -/
theorem slice8_hi_apply (x : S2x2048x8x128.Idx → α) (hs : S2x2048x8x128.Slices ![0, 0, 0, 64] S2x2048x8x64)
    (b : Fin 2) (s : Fin 2048) (g : Fin 8) (e : Fin 64) :
    extractStridedSlice S2x2048x8x64 ![0, 0, 0, 64] x hs (ix4 b s g e) = x (ix4 b s g (⟨e.val + 64, by omega⟩ : Fin 128)) :=
  extractStridedSlice_apply ![0, 0, 0, 64] x hs _ _ (fun a => match a with
    | ⟨0, _⟩ => by show b.val = 0 + b.val; omega
    | ⟨1, _⟩ => by show s.val = 0 + s.val; omega
    | ⟨2, _⟩ => by show g.val = 0 + g.val; omega
    | ⟨3, _⟩ => by show e.val + 64 = 64 + e.val; omega)

/-! ## Transposes of the two middle axes -/

/-- Positions and heads exchanged (sixteen heads): entry `(b, h, s, d)` of the result is entry `(b, s, h, d)`. -/
theorem swap16_apply (x : S2x2048x16x128.Idx → α) (ht : S2x2048x16x128.Transposes [0, 2, 1, 3] S2x16x2048x128)
    (b : Fin 2) (h : Fin 16) (s : Fin 2048) (d : Fin 128) :
    transpose S2x16x2048x128 [0, 2, 1, 3] x ht (ix4 b h s d) = x (ix4 b s h d) :=
  transpose_apply [0, 2, 1, 3] x ht _ _ (fun a => match a with
    | ⟨0, _⟩ => rfl | ⟨1, _⟩ => rfl | ⟨2, _⟩ => rfl | ⟨3, _⟩ => rfl)

/-- Positions and heads exchanged (eight heads). -/
theorem swap8_apply (x : S2x2048x8x128.Idx → α) (ht : S2x2048x8x128.Transposes [0, 2, 1, 3] S2x8x2048x128)
    (b : Fin 2) (g : Fin 8) (s : Fin 2048) (d : Fin 128) :
    transpose S2x8x2048x128 [0, 2, 1, 3] x ht (ix4 b g s d) = x (ix4 b s g d) :=
  transpose_apply [0, 2, 1, 3] x ht _ _ (fun a => match a with
    | ⟨0, _⟩ => rfl | ⟨1, _⟩ => rfl | ⟨2, _⟩ => rfl | ⟨3, _⟩ => rfl)

/-- Heads and positions exchanged back (sixteen heads): entry `(b, s, h, d)` of the result is entry `(b, h, s, d)`. -/
theorem unswap16_apply (x : S2x16x2048x128.Idx → α) (ht : S2x16x2048x128.Transposes [0, 2, 1, 3] S2x2048x16x128)
    (b : Fin 2) (s : Fin 2048) (h : Fin 16) (d : Fin 128) :
    transpose S2x2048x16x128 [0, 2, 1, 3] x ht (ix4 b s h d) = x (ix4 b h s d) :=
  transpose_apply [0, 2, 1, 3] x ht _ _ (fun a => match a with
    | ⟨0, _⟩ => rfl | ⟨1, _⟩ => rfl | ⟨2, _⟩ => rfl | ⟨3, _⟩ => rfl)

end Cert.KernelIdeal.HostRead

end
-- ==== Proof.HostReadSmall.lean ====
/-
  The short host stretches and the two pure re-layouts of the long one, read at coordinates.

  Each buffer read here is a chain of reshapes, slices and transposes of one earlier buffer, so one entry of it is one
  entry of that buffer: the row `2048 b + s` and the column `D h + e` of a projection matrix.
-/
import proofs.«164297_j75917841924554_2_alg».proof.Proof.Gen.KernelIdeal.Launch
import proofs.«164297_j75917841924554_2_alg».proof.Proof.HostReadLayout
import Idealize.ShloMosaic.Lib.StableHlo.Run

set_option maxRecDepth 16384

noncomputable section

namespace Cert.KernelIdeal.HostRead

open Idealize.ShloMosaic Idealize.ShloMosaic.TcCoe Idealize.SL.Sem Idealize.ShloMosaic.ValueIdx Idealize.ShloMosaic.StableHlo
open Cert.KernelIdeal Cert.KernelIdeal.Gen

variable (W : Valuation τ sig (Elt Ideal))

/-- The activations as a matrix of 4096 rows. -/
theorem host0 (x : S2x2048x2048.Idx → EReal) (y : S4096x2048.Idx → EReal)
    (hx : W (Proc.devRef .tc main_arg0) = x) (hy : StableHlo.after (hostOps0 (F := Ideal)) W (Proc.devRef .tc main_v0) = y)
    (b : Fin 2) (s k : Fin 2048) :
    y (ix2 (⟨2048 * b.val + s.val, by omega⟩ : Fin 4096) k) = x (ix3 b s k) := by
  have e : y = shapeCast S4096x2048 x shapeCasts_S2x2048x2048_S4096x2048 := by
    subst hx hy; simp only [hostOps0]; after_results; rfl
  rw [e, cast_rows_apply]

/-- The output matrix of 4096 rows as a `[2, 2048, 2048]` array. -/
theorem host5_out (x : S4096x2048.Idx → EReal) (y : S2x2048x2048.Idx → EReal)
    (hx : W (Proc.devRef .tc main_v66) = x) (hy : StableHlo.after (hostOps5 (F := Ideal)) W (Proc.devRef .tc main_v67) = y)
    (b : Fin 2) (s o : Fin 2048) :
    y (ix3 b s o) = x (ix2 (⟨2048 * b.val + s.val, by omega⟩ : Fin 4096) o) := by
  have e : y = shapeCast S2x2048x2048 x shapeCasts_S4096x2048_S2x2048x2048 := by
    subst hx hy; simp only [hostOps5]; after_results; rfl
  rw [e, cast_unrows_apply]

/-- The gated context with its heads side by side in a row. -/
theorem host4_ctx (cx : S2x16x2048x128.Idx → EReal) (y : S4096x2048.Idx → EReal)
    (hcx : W (Proc.devRef .tc main_v63_0) = cx) (hy : StableHlo.after (hostOps4 (F := Ideal)) W (Proc.devRef .tc main_v65) = y)
    (b : Fin 2) (s : Fin 2048) (h : Fin 16) (d : Fin 128) :
    y (ix2 (⟨2048 * b.val + s.val, by omega⟩ : Fin 4096) (⟨128 * h.val + d.val, by omega⟩ : Fin 2048)) = cx (ix4 b h s d) := by
  have e : y = shapeCast S4096x2048
          (transpose S2x2048x16x128 [0, 2, 1, 3] cx transposes_S2x16x2048x128_S2x2048x16x128_0_2_1_3)
          shapeCasts_S2x2048x16x128_S4096x2048 := by
    subst hcx hy; simp only [hostOps4]; after_results; rfl
  rw [e, cast_join16x128_apply, unswap16_apply]

set_option maxHeartbeats 4000000 in
/-- The values: the value projection cut into eight heads, heads before positions. -/
theorem host3_val (x3 : S4096x1024.Idx → EReal) (y : S2x8x2048x128.Idx → EReal)
    (h3 : W (Proc.devRef .tc main_v3) = x3) (hy : StableHlo.after (hostOps3 (F := Ideal)) W (Proc.devRef .tc main_v61) = y)
    (b : Fin 2) (g : Fin 8) (s : Fin 2048) (d : Fin 128) :
    y (ix4 b g s d) = x3 (ix2 (⟨2048 * b.val + s.val, by omega⟩ : Fin 4096) (⟨128 * g.val + d.val, by omega⟩ : Fin 1024)) := by
  have e : y = transpose S2x8x2048x128 [0, 2, 1, 3]
          (shapeCast S2x2048x8x128 x3 shapeCasts_S4096x1024_S2x2048x8x128)
          transposes_S2x2048x8x128_S2x8x2048x128_0_2_1_3 := by
    subst h3 hy; simp only [hostOps3]; after_results_simp; rfl
  rw [e, swap8_apply, cast_heads8x128_apply]

set_option maxHeartbeats 4000000 in
/-- The gate: the last 128 of each query head's 256 projected features, heads before positions. -/
theorem host3_gate (x1 : S4096x4096.Idx → EReal) (y : S2x16x2048x128.Idx → EReal)
    (h1 : W (Proc.devRef .tc main_v1) = x1) (hy : StableHlo.after (hostOps3 (F := Ideal)) W (Proc.devRef .tc main_v62) = y)
    (b : Fin 2) (h : Fin 16) (s : Fin 2048) (d : Fin 128) :
    y (ix4 b h s d) = x1 (ix2 (⟨2048 * b.val + s.val, by omega⟩ : Fin 4096) (⟨256 * h.val + 128 + d.val, by omega⟩ : Fin 4096)) := by
  have e : y = transpose S2x16x2048x128 [0, 2, 1, 3]
          (extractStridedSlice S2x2048x16x128 ![0, 0, 0, 128]
            (shapeCast S2x2048x16x256 x1 shapeCasts_S4096x4096_S2x2048x16x256)
            slices_S2x2048x16x256_S2x2048x16x128_0_0_0_128)
          transposes_S2x2048x16x128_S2x16x2048x128_0_2_1_3 := by
    subst h1 hy; simp only [hostOps3]; after_results_simp; rfl
  rw [e, swap16_apply, slice256_hi_apply, cast_heads16x256_apply]
  exact congrArg x1 (congrArg (ix2 _) (Fin.ext (by show 256 * h.val + (128 + d.val) = 256 * h.val + 128 + d.val; omega)))

end Cert.KernelIdeal.HostRead

end
-- ==== Proof.HostReadNorm.lean ====
/-
  The RMS normalisation and the rotary embedding of the long host stretch, as functions of the projected features.

  The program normalises every head at once, on arrays with the head's 128 features on the last axis: it squares, sums
  the last axis, divides by 128, adds the epsilon, takes the reciprocal square root on a unit axis, and repeats that
  scale along the features; the weights and the cosines and sines are repeated over the axes they do not depend on.
  Read at one entry `(b, s, h, d)`, every repeated array gives back the one number it was made from, and the sum over
  the last axis is the sum over that head's features: the entry is the specification's `rms`, then its `rope`, of the
  head's own 128 features. The half rotation is the join of the negated upper half with the lower half.
-/
import proofs.«164297_j75917841924554_2_alg».proof.Proof.Gen.KernelIdeal
import proofs.«164297_j75917841924554_2_alg».proof.Proof.HostReadLayout
import proofs.«164297_j75917841924554_2_alg».proof.Proof.Spec
import Idealize.ShloMosaic.PureOps.Ideal.Laws

set_option maxRecDepth 16384

noncomputable section

namespace Cert.KernelIdeal.HostRead

open Idealize.ShloMosaic Idealize.ShloMosaic.ValueIdx
open Cert.KernelIdeal Cert.KernelIdeal.Gen

/-! ## The host's pointwise operations at an index -/

section Pointwise
variable {s : Shape} {φ : FTy}

theorem hostRsqrt_apply (x : FVec Ideal s φ) (i : s.Idx) : Host.rsqrt x i = Ideal.rsqrt (x i) := rfl

theorem hostDivf_apply (x y : FVec Ideal s φ) (i : s.Idx) : Host.divf x y i = Ideal.div (x i) (y i) := rfl

theorem hostNegf_apply (x : FVec Ideal s φ) (i : s.Idx) : Host.negf x i = -(x i) := rfl

end Pointwise

/-! ## 16 heads -/

section Heads16

/-- A per-head number repeated along a new unit axis. -/
theorem keep16_apply {α : Type} (x : S2x2048x16.Idx → α) (hb : S2x2048x16.BroadcastsInDim S2x2048x16x1 (![0, 1, 2] : Fin 3 → Fin S2x2048x16x1.rank))
    (b : Fin 2) (s : Fin 2048) (h : Fin 16) (z : Fin 1) :
    broadcastInDim S2x2048x16x1 ![0, 1, 2] hb x (ix4 b s h z) = x (ix3 b s h) :=
  broadcastInDim_apply _ hb x _ _ (fun a => match a with
    | ⟨0, _⟩ => by show b.val = if (2 : Nat) = 1 then 0 else b.val; rw [if_neg (by decide)]
    | ⟨1, _⟩ => by show s.val = if (2048 : Nat) = 1 then 0 else s.val; rw [if_neg (by decide)]
    | ⟨2, _⟩ => by show h.val = if (16 : Nat) = 1 then 0 else h.val; rw [if_neg (by decide)])

/-- One number repeated over every head of every position. -/
theorem splat16_apply {α : Type} (x : S_.Idx → α) (hb : S_.BroadcastsInDim S2x2048x16x1 (![] : Fin 0 → Fin S2x2048x16x1.rank)) (j : S2x2048x16x1.Idx) :
    broadcastInDim S2x2048x16x1 ![] hb x j = x ix0 :=
  broadcastInDim_apply _ hb x j ix0 (fun a => a.elim0)

/-- A per-head number repeated along the head's 128 features. -/
theorem lanes16_apply {α : Type} (x : S2x2048x16x1.Idx → α) (hb : S2x2048x16x1.BroadcastsInDim S2x2048x16x128 (![0, 1, 2, 3] : Fin 4 → Fin S2x2048x16x128.rank))
    (b : Fin 2) (s : Fin 2048) (h : Fin 16) (d : Fin 128) :
    broadcastInDim S2x2048x16x128 ![0, 1, 2, 3] hb x (ix4 b s h d) = x (ix4 b s h (0 : Fin 1)) :=
  broadcastInDim_apply _ hb x _ _ (fun a => match a with
    | ⟨0, _⟩ => by show b.val = if (2 : Nat) = 1 then 0 else b.val; rw [if_neg (by decide)]
    | ⟨1, _⟩ => by show s.val = if (2048 : Nat) = 1 then 0 else s.val; rw [if_neg (by decide)]
    | ⟨2, _⟩ => by show h.val = if (16 : Nat) = 1 then 0 else h.val; rw [if_neg (by decide)]
    | ⟨3, _⟩ => by show 0 = if (1 : Nat) = 1 then 0 else d.val; rw [if_pos rfl])

/-- The 128 normalisation weights repeated over batches, positions and heads. -/
theorem weights16_apply {α : Type} (w : S128.Idx → α) (hb₁ : S128.BroadcastsInDim S1x1x1x128 (![3] : Fin 1 → Fin S1x1x1x128.rank))
    (hb₂ : S1x1x1x128.BroadcastsInDim S2x2048x16x128 (![0, 1, 2, 3] : Fin 4 → Fin S2x2048x16x128.rank))
    (b : Fin 2) (s : Fin 2048) (h : Fin 16) (d : Fin 128) :
    broadcastInDim S2x2048x16x128 ![0, 1, 2, 3] hb₂ (broadcastInDim S1x1x1x128 ![3] hb₁ w) (ix4 b s h d) = w (ix1 d) := by
  refine (broadcastInDim_apply _ hb₂ _ _ (ix4 (0 : Fin 1) (0 : Fin 1) (0 : Fin 1) d) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show 0 = if (1 : Nat) = 1 then 0 else h.val; rw [if_pos rfl]
    | ⟨3, _⟩ => by show d.val = if (128 : Nat) = 1 then 0 else d.val; rw [if_neg (by decide)])).trans ?_
  exact broadcastInDim_apply _ hb₁ w _ _ (fun a => match a with
    | ⟨0, _⟩ => by show d.val = if (128 : Nat) = 1 then 0 else d.val; rw [if_neg (by decide)])

/-- A position's 128 cosines (or sines) repeated over the heads. -/
theorem angles16_apply {α : Type} (c : S2x2048x128.Idx → α) (hb₁ : S2x2048x128.BroadcastsInDim S2x2048x1x128 (![0, 1, 3] : Fin 3 → Fin S2x2048x1x128.rank))
    (hb₂ : S2x2048x1x128.BroadcastsInDim S2x2048x16x128 (![0, 1, 2, 3] : Fin 4 → Fin S2x2048x16x128.rank))
    (b : Fin 2) (s : Fin 2048) (h : Fin 16) (d : Fin 128) :
    broadcastInDim S2x2048x16x128 ![0, 1, 2, 3] hb₂ (broadcastInDim S2x2048x1x128 ![0, 1, 3] hb₁ c) (ix4 b s h d) = c (ix3 b s d) := by
  refine (broadcastInDim_apply _ hb₂ _ _ (ix4 b s (0 : Fin 1) d) (fun a => match a with
    | ⟨0, _⟩ => by show b.val = if (2 : Nat) = 1 then 0 else b.val; rw [if_neg (by decide)]
    | ⟨1, _⟩ => by show s.val = if (2048 : Nat) = 1 then 0 else s.val; rw [if_neg (by decide)]
    | ⟨2, _⟩ => by show 0 = if (1 : Nat) = 1 then 0 else h.val; rw [if_pos rfl]
    | ⟨3, _⟩ => by show d.val = if (128 : Nat) = 1 then 0 else d.val; rw [if_neg (by decide)])).trans ?_
  exact broadcastInDim_apply _ hb₁ c _ _ (fun a => match a with
    | ⟨0, _⟩ => by show b.val = if (2 : Nat) = 1 then 0 else b.val; rw [if_neg (by decide)]
    | ⟨1, _⟩ => by show s.val = if (2048 : Nat) = 1 then 0 else s.val; rw [if_neg (by decide)]
    | ⟨2, _⟩ => by show d.val = if (128 : Nat) = 1 then 0 else d.val; rw [if_neg (by decide)])

/-- The host's sum over a head's 128 features, from the zero word: the plain sum. -/
theorem headsum16_apply (x : FVec Ideal S2x2048x16x128 .f32) (hr : S2x2048x16x128.ReducesTo [3] S2x2048x16) (hu : 0 < S_.numel)
    (b : Fin 2) (s : Fin 2048) (h : Fin 16) :
    Host.reduceAdd (F := Ideal) x (constant (F := Ideal) S_ .f32 0x00000000#32) hr hu (ix3 b s h) = ∑ e : Fin 128, x (ix4 b s h e) := by
  simp only [Host.reduceAdd, Ideal.hostReduceAdd_def]
  rw [Ideal.hostReduceAdd_single hr (by decide)]
  rw [constant_apply, Ideal.ofBits_zero_f32, zero_add]
  refine Finset.sum_congr rfl fun k _ => ?_
  exact congrArg x (funext fun a => Fin.ext (by match a with | ⟨0, _⟩ => rfl | ⟨1, _⟩ => rfl | ⟨2, _⟩ => rfl | ⟨3, _⟩ => rfl))

/-- The half rotation as the program forms it: the negated upper half joined in front of the lower half. -/
theorem halfturn16_apply (p q : FVec Ideal S2x2048x16x64 .f32) (hc : Shape.Concatenates [S2x2048x16x64, S2x2048x16x64] S2x2048x16x128 3)
    (b : Fin 2) (s : Fin 2048) (h : Fin 16) (d : Fin 128) :
    concatenate S2x2048x16x128 3 [⟨S2x2048x16x64, p⟩, ⟨S2x2048x16x64, q⟩] hc (ix4 b s h d)
      = if hd : d.val < 64 then p (ix4 b s h (⟨d.val, hd⟩ : Fin 64)) else q (ix4 b s h (⟨d.val - 64, by omega⟩ : Fin 64)) := by
  by_cases hd : d.val < 64
  · rw [dif_pos hd]
    exact concatenate_pair_apply_left 3 p q hc _ rfl _ (fun a => match a with
      | ⟨0, _⟩ => rfl | ⟨1, _⟩ => rfl | ⟨2, _⟩ => rfl | ⟨3, _⟩ => rfl)
  · rw [dif_neg hd]
    exact concatenate_pair_apply_right 3 p q hc _ rfl rfl _ (fun a => match a with
      | ⟨0, _⟩ => fun _ => rfl | ⟨1, _⟩ => fun _ => rfl | ⟨2, _⟩ => fun _ => rfl | ⟨3, _⟩ => fun hne => absurd rfl hne)
      (by show d.val - 64 + 64 = d.val; omega)

/-- The per-head scale as the program forms it: `rsqrt` of the mean of squares plus the epsilon, on a unit axis. -/
def scale16 (y : FVec Ideal S2x2048x16x128 .f32) : FVec Ideal S2x2048x16x1 .f32 :=
  Host.rsqrt (addf
    (Host.divf
      (broadcastInDim S2x2048x16x1 ![0, 1, 2] bcast_S2x2048x16_S2x2048x16x1_0_1_2
        (Host.reduceAdd (mulf y y) (constant S_ .f32 0x00000000#32) reducesTo_S2x2048x16x128_S2x2048x16_d3 h_S_))
      (broadcastInDim S2x2048x16x1 ![] bcast_S_S2x2048x16x1 (constant S_ .f32 0x43000000#32)))
    (broadcastInDim S2x2048x16x1 ![] bcast_S_S2x2048x16x1 (constant S_ .f32 0x358637BD#32)))

/-- The normalised features as the program forms them: the features times the scale times the weights. -/
def normed16 (y : FVec Ideal S2x2048x16x128 .f32) (w : FVec Ideal S128 .f32) : FVec Ideal S2x2048x16x128 .f32 :=
  mulf (mulf y (broadcastInDim S2x2048x16x128 ![0, 1, 2, 3] bcast_S2x2048x16x1_S2x2048x16x128_0_1_2_3 (scale16 y)))
    (broadcastInDim S2x2048x16x128 ![0, 1, 2, 3] bcast_S1x1x1x128_S2x2048x16x128_0_1_2_3 (broadcastInDim S1x1x1x128 ![3] bcast_S128_S1x1x1x128_3 w))

/-- The rotary embedding as the program forms it. -/
def roped16 (z : FVec Ideal S2x2048x16x128 .f32) (cs sn : FVec Ideal S2x2048x128 .f32) : FVec Ideal S2x2048x16x128 .f32 :=
  addf
    (mulf z (broadcastInDim S2x2048x16x128 ![0, 1, 2, 3] bcast_S2x2048x1x128_S2x2048x16x128_0_1_2_3
      (broadcastInDim S2x2048x1x128 ![0, 1, 3] bcast_S2x2048x128_S2x2048x1x128_0_1_3 cs)))
    (mulf
      (concatenate S2x2048x16x128 3
        [⟨S2x2048x16x64, Host.negf (extractStridedSlice S2x2048x16x64 ![0, 0, 0, 64] z slices_S2x2048x16x128_S2x2048x16x64_0_0_0_64)⟩,
         ⟨S2x2048x16x64, extractStridedSlice S2x2048x16x64 ![0, 0, 0, 0] z slices_S2x2048x16x128_S2x2048x16x64_0_0_0_0⟩]
        concatenates_S2x2048x16x64_S2x2048x16x64_S2x2048x16x128_d3)
      (broadcastInDim S2x2048x16x128 ![0, 1, 2, 3] bcast_S2x2048x1x128_S2x2048x16x128_0_1_2_3
        (broadcastInDim S2x2048x1x128 ![0, 1, 3] bcast_S2x2048x128_S2x2048x1x128_0_1_3 sn)))

/-- The scale of head `(b, s, h)` depends on that head's 128 features only. -/
theorem scale16_apply (y : FVec Ideal S2x2048x16x128 .f32) (b : Fin 2) (s : Fin 2048) (h : Fin 16) (z : Fin 1) :
    scale16 y (ix4 b s h z)
      = Ideal.rsqrt (Ideal.div (∑ e : Fin 128, y (ix4 b s h e) * y (ix4 b s h e)) Cert.Spec.w128 + Cert.Spec.wEps) := by
  unfold scale16
  rw [hostRsqrt_apply, addf_apply, hostDivf_apply, keep16_apply, splat16_apply, splat16_apply, headsum16_apply]
  rfl

/-- The normalised features of head `(b, s, h)` are the specification's normalisation of that head's features. -/
theorem normed16_apply (y : FVec Ideal S2x2048x16x128 .f32) (w : FVec Ideal S128 .f32) (b : Fin 2) (s : Fin 2048) (h : Fin 16) (d : Fin 128) :
    normed16 y w (ix4 b s h d) = Cert.Spec.rms (fun e => y (ix4 b s h e)) (fun e => w (ix1 e)) d := by
  unfold normed16
  rw [mulf_apply, mulf_apply, lanes16_apply, scale16_apply, weights16_apply]
  rfl

/-- The rotated features of head `(b, s, h)` are the specification's rotary embedding of that head's features with
    that position's cosines and sines. -/
theorem roped16_apply (z : FVec Ideal S2x2048x16x128 .f32) (cs sn : FVec Ideal S2x2048x128 .f32) (b : Fin 2) (s : Fin 2048) (h : Fin 16) (d : Fin 128) :
    roped16 z cs sn (ix4 b s h d)
      = Cert.Spec.rope (fun e => z (ix4 b s h e)) (fun e => cs (ix3 b s e)) (fun e => sn (ix3 b s e)) d := by
  unfold roped16
  rw [addf_apply, mulf_apply, mulf_apply, angles16_apply, angles16_apply, halfturn16_apply]
  unfold Cert.Spec.rope Cert.Spec.rot
  by_cases hd : d.val < 64
  · rw [dif_pos hd, dif_pos hd]
    rw [hostNegf_apply, slice16_hi_apply]
  · rw [dif_neg hd, dif_neg hd, slice16_lo_apply]

end Heads16

/-! ## 8 heads -/

section Heads8

/-- A per-head number repeated along a new unit axis. -/
theorem keep8_apply {α : Type} (x : S2x2048x8.Idx → α) (hb : S2x2048x8.BroadcastsInDim S2x2048x8x1 (![0, 1, 2] : Fin 3 → Fin S2x2048x8x1.rank))
    (b : Fin 2) (s : Fin 2048) (h : Fin 8) (z : Fin 1) :
    broadcastInDim S2x2048x8x1 ![0, 1, 2] hb x (ix4 b s h z) = x (ix3 b s h) :=
  broadcastInDim_apply _ hb x _ _ (fun a => match a with
    | ⟨0, _⟩ => by show b.val = if (2 : Nat) = 1 then 0 else b.val; rw [if_neg (by decide)]
    | ⟨1, _⟩ => by show s.val = if (2048 : Nat) = 1 then 0 else s.val; rw [if_neg (by decide)]
    | ⟨2, _⟩ => by show h.val = if (8 : Nat) = 1 then 0 else h.val; rw [if_neg (by decide)])

/-- One number repeated over every head of every position. -/
theorem splat8_apply {α : Type} (x : S_.Idx → α) (hb : S_.BroadcastsInDim S2x2048x8x1 (![] : Fin 0 → Fin S2x2048x8x1.rank)) (j : S2x2048x8x1.Idx) :
    broadcastInDim S2x2048x8x1 ![] hb x j = x ix0 :=
  broadcastInDim_apply _ hb x j ix0 (fun a => a.elim0)

/-- A per-head number repeated along the head's 128 features. -/
theorem lanes8_apply {α : Type} (x : S2x2048x8x1.Idx → α) (hb : S2x2048x8x1.BroadcastsInDim S2x2048x8x128 (![0, 1, 2, 3] : Fin 4 → Fin S2x2048x8x128.rank))
    (b : Fin 2) (s : Fin 2048) (h : Fin 8) (d : Fin 128) :
    broadcastInDim S2x2048x8x128 ![0, 1, 2, 3] hb x (ix4 b s h d) = x (ix4 b s h (0 : Fin 1)) :=
  broadcastInDim_apply _ hb x _ _ (fun a => match a with
    | ⟨0, _⟩ => by show b.val = if (2 : Nat) = 1 then 0 else b.val; rw [if_neg (by decide)]
    | ⟨1, _⟩ => by show s.val = if (2048 : Nat) = 1 then 0 else s.val; rw [if_neg (by decide)]
    | ⟨2, _⟩ => by show h.val = if (8 : Nat) = 1 then 0 else h.val; rw [if_neg (by decide)]
    | ⟨3, _⟩ => by show 0 = if (1 : Nat) = 1 then 0 else d.val; rw [if_pos rfl])

/-- The 128 normalisation weights repeated over batches, positions and heads. -/
theorem weights8_apply {α : Type} (w : S128.Idx → α) (hb₁ : S128.BroadcastsInDim S1x1x1x128 (![3] : Fin 1 → Fin S1x1x1x128.rank))
    (hb₂ : S1x1x1x128.BroadcastsInDim S2x2048x8x128 (![0, 1, 2, 3] : Fin 4 → Fin S2x2048x8x128.rank))
    (b : Fin 2) (s : Fin 2048) (h : Fin 8) (d : Fin 128) :
    broadcastInDim S2x2048x8x128 ![0, 1, 2, 3] hb₂ (broadcastInDim S1x1x1x128 ![3] hb₁ w) (ix4 b s h d) = w (ix1 d) := by
  refine (broadcastInDim_apply _ hb₂ _ _ (ix4 (0 : Fin 1) (0 : Fin 1) (0 : Fin 1) d) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show 0 = if (1 : Nat) = 1 then 0 else h.val; rw [if_pos rfl]
    | ⟨3, _⟩ => by show d.val = if (128 : Nat) = 1 then 0 else d.val; rw [if_neg (by decide)])).trans ?_
  exact broadcastInDim_apply _ hb₁ w _ _ (fun a => match a with
    | ⟨0, _⟩ => by show d.val = if (128 : Nat) = 1 then 0 else d.val; rw [if_neg (by decide)])

/-- A position's 128 cosines (or sines) repeated over the heads. -/
theorem angles8_apply {α : Type} (c : S2x2048x128.Idx → α) (hb₁ : S2x2048x128.BroadcastsInDim S2x2048x1x128 (![0, 1, 3] : Fin 3 → Fin S2x2048x1x128.rank))
    (hb₂ : S2x2048x1x128.BroadcastsInDim S2x2048x8x128 (![0, 1, 2, 3] : Fin 4 → Fin S2x2048x8x128.rank))
    (b : Fin 2) (s : Fin 2048) (h : Fin 8) (d : Fin 128) :
    broadcastInDim S2x2048x8x128 ![0, 1, 2, 3] hb₂ (broadcastInDim S2x2048x1x128 ![0, 1, 3] hb₁ c) (ix4 b s h d) = c (ix3 b s d) := by
  refine (broadcastInDim_apply _ hb₂ _ _ (ix4 b s (0 : Fin 1) d) (fun a => match a with
    | ⟨0, _⟩ => by show b.val = if (2 : Nat) = 1 then 0 else b.val; rw [if_neg (by decide)]
    | ⟨1, _⟩ => by show s.val = if (2048 : Nat) = 1 then 0 else s.val; rw [if_neg (by decide)]
    | ⟨2, _⟩ => by show 0 = if (1 : Nat) = 1 then 0 else h.val; rw [if_pos rfl]
    | ⟨3, _⟩ => by show d.val = if (128 : Nat) = 1 then 0 else d.val; rw [if_neg (by decide)])).trans ?_
  exact broadcastInDim_apply _ hb₁ c _ _ (fun a => match a with
    | ⟨0, _⟩ => by show b.val = if (2 : Nat) = 1 then 0 else b.val; rw [if_neg (by decide)]
    | ⟨1, _⟩ => by show s.val = if (2048 : Nat) = 1 then 0 else s.val; rw [if_neg (by decide)]
    | ⟨2, _⟩ => by show d.val = if (128 : Nat) = 1 then 0 else d.val; rw [if_neg (by decide)])

/-- The host's sum over a head's 128 features, from the zero word: the plain sum. -/
theorem headsum8_apply (x : FVec Ideal S2x2048x8x128 .f32) (hr : S2x2048x8x128.ReducesTo [3] S2x2048x8) (hu : 0 < S_.numel)
    (b : Fin 2) (s : Fin 2048) (h : Fin 8) :
    Host.reduceAdd (F := Ideal) x (constant (F := Ideal) S_ .f32 0x00000000#32) hr hu (ix3 b s h) = ∑ e : Fin 128, x (ix4 b s h e) := by
  simp only [Host.reduceAdd, Ideal.hostReduceAdd_def]
  rw [Ideal.hostReduceAdd_single hr (by decide)]
  rw [constant_apply, Ideal.ofBits_zero_f32, zero_add]
  refine Finset.sum_congr rfl fun k _ => ?_
  exact congrArg x (funext fun a => Fin.ext (by match a with | ⟨0, _⟩ => rfl | ⟨1, _⟩ => rfl | ⟨2, _⟩ => rfl | ⟨3, _⟩ => rfl))

/-- The half rotation as the program forms it: the negated upper half joined in front of the lower half. -/
theorem halfturn8_apply (p q : FVec Ideal S2x2048x8x64 .f32) (hc : Shape.Concatenates [S2x2048x8x64, S2x2048x8x64] S2x2048x8x128 3)
    (b : Fin 2) (s : Fin 2048) (h : Fin 8) (d : Fin 128) :
    concatenate S2x2048x8x128 3 [⟨S2x2048x8x64, p⟩, ⟨S2x2048x8x64, q⟩] hc (ix4 b s h d)
      = if hd : d.val < 64 then p (ix4 b s h (⟨d.val, hd⟩ : Fin 64)) else q (ix4 b s h (⟨d.val - 64, by omega⟩ : Fin 64)) := by
  by_cases hd : d.val < 64
  · rw [dif_pos hd]
    exact concatenate_pair_apply_left 3 p q hc _ rfl _ (fun a => match a with
      | ⟨0, _⟩ => rfl | ⟨1, _⟩ => rfl | ⟨2, _⟩ => rfl | ⟨3, _⟩ => rfl)
  · rw [dif_neg hd]
    exact concatenate_pair_apply_right 3 p q hc _ rfl rfl _ (fun a => match a with
      | ⟨0, _⟩ => fun _ => rfl | ⟨1, _⟩ => fun _ => rfl | ⟨2, _⟩ => fun _ => rfl | ⟨3, _⟩ => fun hne => absurd rfl hne)
      (by show d.val - 64 + 64 = d.val; omega)

/-- The per-head scale as the program forms it: `rsqrt` of the mean of squares plus the epsilon, on a unit axis. -/
def scale8 (y : FVec Ideal S2x2048x8x128 .f32) : FVec Ideal S2x2048x8x1 .f32 :=
  Host.rsqrt (addf
    (Host.divf
      (broadcastInDim S2x2048x8x1 ![0, 1, 2] bcast_S2x2048x8_S2x2048x8x1_0_1_2
        (Host.reduceAdd (mulf y y) (constant S_ .f32 0x00000000#32) reducesTo_S2x2048x8x128_S2x2048x8_d3 h_S_))
      (broadcastInDim S2x2048x8x1 ![] bcast_S_S2x2048x8x1 (constant S_ .f32 0x43000000#32)))
    (broadcastInDim S2x2048x8x1 ![] bcast_S_S2x2048x8x1 (constant S_ .f32 0x358637BD#32)))

/-- The normalised features as the program forms them: the features times the scale times the weights. -/
def normed8 (y : FVec Ideal S2x2048x8x128 .f32) (w : FVec Ideal S128 .f32) : FVec Ideal S2x2048x8x128 .f32 :=
  mulf (mulf y (broadcastInDim S2x2048x8x128 ![0, 1, 2, 3] bcast_S2x2048x8x1_S2x2048x8x128_0_1_2_3 (scale8 y)))
    (broadcastInDim S2x2048x8x128 ![0, 1, 2, 3] bcast_S1x1x1x128_S2x2048x8x128_0_1_2_3 (broadcastInDim S1x1x1x128 ![3] bcast_S128_S1x1x1x128_3 w))

/-- The rotary embedding as the program forms it. -/
def roped8 (z : FVec Ideal S2x2048x8x128 .f32) (cs sn : FVec Ideal S2x2048x128 .f32) : FVec Ideal S2x2048x8x128 .f32 :=
  addf
    (mulf z (broadcastInDim S2x2048x8x128 ![0, 1, 2, 3] bcast_S2x2048x1x128_S2x2048x8x128_0_1_2_3
      (broadcastInDim S2x2048x1x128 ![0, 1, 3] bcast_S2x2048x128_S2x2048x1x128_0_1_3 cs)))
    (mulf
      (concatenate S2x2048x8x128 3
        [⟨S2x2048x8x64, Host.negf (extractStridedSlice S2x2048x8x64 ![0, 0, 0, 64] z slices_S2x2048x8x128_S2x2048x8x64_0_0_0_64)⟩,
         ⟨S2x2048x8x64, extractStridedSlice S2x2048x8x64 ![0, 0, 0, 0] z slices_S2x2048x8x128_S2x2048x8x64_0_0_0_0⟩]
        concatenates_S2x2048x8x64_S2x2048x8x64_S2x2048x8x128_d3)
      (broadcastInDim S2x2048x8x128 ![0, 1, 2, 3] bcast_S2x2048x1x128_S2x2048x8x128_0_1_2_3
        (broadcastInDim S2x2048x1x128 ![0, 1, 3] bcast_S2x2048x128_S2x2048x1x128_0_1_3 sn)))

/-- The scale of head `(b, s, h)` depends on that head's 128 features only. -/
theorem scale8_apply (y : FVec Ideal S2x2048x8x128 .f32) (b : Fin 2) (s : Fin 2048) (h : Fin 8) (z : Fin 1) :
    scale8 y (ix4 b s h z)
      = Ideal.rsqrt (Ideal.div (∑ e : Fin 128, y (ix4 b s h e) * y (ix4 b s h e)) Cert.Spec.w128 + Cert.Spec.wEps) := by
  unfold scale8
  rw [hostRsqrt_apply, addf_apply, hostDivf_apply, keep8_apply, splat8_apply, splat8_apply, headsum8_apply]
  rfl

/-- The normalised features of head `(b, s, h)` are the specification's normalisation of that head's features. -/
theorem normed8_apply (y : FVec Ideal S2x2048x8x128 .f32) (w : FVec Ideal S128 .f32) (b : Fin 2) (s : Fin 2048) (h : Fin 8) (d : Fin 128) :
    normed8 y w (ix4 b s h d) = Cert.Spec.rms (fun e => y (ix4 b s h e)) (fun e => w (ix1 e)) d := by
  unfold normed8
  rw [mulf_apply, mulf_apply, lanes8_apply, scale8_apply, weights8_apply]
  rfl

/-- The rotated features of head `(b, s, h)` are the specification's rotary embedding of that head's features with
    that position's cosines and sines. -/
theorem roped8_apply (z : FVec Ideal S2x2048x8x128 .f32) (cs sn : FVec Ideal S2x2048x128 .f32) (b : Fin 2) (s : Fin 2048) (h : Fin 8) (d : Fin 128) :
    roped8 z cs sn (ix4 b s h d)
      = Cert.Spec.rope (fun e => z (ix4 b s h e)) (fun e => cs (ix3 b s e)) (fun e => sn (ix3 b s e)) d := by
  unfold roped8
  rw [addf_apply, mulf_apply, mulf_apply, angles8_apply, angles8_apply, halfturn8_apply]
  unfold Cert.Spec.rope Cert.Spec.rot
  by_cases hd : d.val < 64
  · rw [dif_pos hd, dif_pos hd]
    rw [hostNegf_apply, slice8_hi_apply]
  · rw [dif_neg hd, dif_neg hd, slice8_lo_apply]

end Heads8

end Cert.KernelIdeal.HostRead

end
-- ==== Proof.HostReadQK.lean ====
/-
  Queries and keys after the long host stretch, read at coordinates.

  The stretch cuts a projection into heads, normalises each head, rotates it and exchanges heads with positions; the
  change of float format on the way in and on the way out is the identity on the extended reals. One entry
  `(b, h, s, d)` is therefore the specification's rotary embedding of the normalised 128 features that head `h` of
  row `2048 b + s` has in the projection matrix.
-/
import proofs.«164297_j75917841924554_2_alg».proof.Proof.Gen.KernelIdeal.Launch
import proofs.«164297_j75917841924554_2_alg».proof.Proof.HostReadNorm
import Idealize.ShloMosaic.Lib.StableHlo.Run

set_option maxRecDepth 16384

noncomputable section

namespace Cert.KernelIdeal.HostRead

open Idealize.ShloMosaic Idealize.ShloMosaic.TcCoe Idealize.SL.Sem Idealize.ShloMosaic.ValueIdx Idealize.ShloMosaic.StableHlo
open Cert.KernelIdeal Cert.KernelIdeal.Gen

variable (W : Valuation τ sig (Elt Ideal))

set_option maxHeartbeats 40000000 in
/-- The keys: normalised, rotated, eight heads before positions. -/
theorem host3_key (x2 : S4096x1024.Idx → EReal) (cs sn : S2x2048x128.Idx → EReal) (nw : S128.Idx → EReal) (y : S2x8x2048x128.Idx → EReal)
    (h2 : W (Proc.devRef .tc main_v2) = x2) (hc : W (Proc.devRef .tc main_arg1) = cs) (hs : W (Proc.devRef .tc main_arg2) = sn)
    (hn : W (Proc.devRef .tc main_arg9) = nw) (hy : StableHlo.after (hostOps3 (F := Ideal)) W (Proc.devRef .tc main_v60) = y)
    (b : Fin 2) (g : Fin 8) (s : Fin 2048) (d : Fin 128) :
    y (ix4 b g s d)
      = Cert.Spec.rope
          (Cert.Spec.rms (fun e => x2 (ix2 (⟨2048 * b.val + s.val, by omega⟩ : Fin 4096) (⟨128 * g.val + e.val, by omega⟩ : Fin 1024)))
                         (fun e => nw (ix1 e)))
          (fun e => cs (ix3 b s e)) (fun e => sn (ix3 b s e)) d := by
  have e : y = transpose S2x8x2048x128 [0, 2, 1, 3]
      (truncf (F := Ideal) .bf16
        (roped8
          (normed8
            (extf (F := Ideal) .f32 (shapeCast S2x2048x8x128 x2 shapeCasts_S4096x1024_S2x2048x8x128 : FVec Ideal S2x2048x8x128 .bf16) bitsLt_bf16_f32)
            nw)
          cs sn)
        bitsLt_bf16_f32)
      transposes_S2x2048x8x128_S2x8x2048x128_0_2_1_3 := by
    subst h2 hc hs hn hy; simp only [hostOps3]; after_results_simp; rfl
  rw [e, swap8_apply, truncf_apply, roped8_apply]
  simp only [normed8_apply, extf_apply, cast_heads8x128_apply]

set_option maxHeartbeats 40000000 in
/-- The queries: the first 128 features of each of the sixteen heads, normalised, rotated, heads before positions. -/
theorem host3_qry (x1 : S4096x4096.Idx → EReal) (cs sn : S2x2048x128.Idx → EReal) (nw : S128.Idx → EReal) (y : S2x16x2048x128.Idx → EReal)
    (h1 : W (Proc.devRef .tc main_v1) = x1) (hc : W (Proc.devRef .tc main_arg1) = cs) (hs : W (Proc.devRef .tc main_arg2) = sn)
    (hn : W (Proc.devRef .tc main_arg8) = nw) (hy : StableHlo.after (hostOps3 (F := Ideal)) W (Proc.devRef .tc main_v49) = y)
    (b : Fin 2) (h : Fin 16) (s : Fin 2048) (d : Fin 128) :
    y (ix4 b h s d)
      = Cert.Spec.rope
          (Cert.Spec.rms (fun e => x1 (ix2 (⟨2048 * b.val + s.val, by omega⟩ : Fin 4096) (⟨256 * h.val + e.val, by omega⟩ : Fin 4096)))
                         (fun e => nw (ix1 e)))
          (fun e => cs (ix3 b s e)) (fun e => sn (ix3 b s e)) d := by
  have e : y = transpose S2x16x2048x128 [0, 2, 1, 3]
      (truncf (F := Ideal) .bf16
        (roped16
          (normed16
            (extf (F := Ideal) .f32
              (extractStridedSlice S2x2048x16x128 ![0, 0, 0, 0]
                (shapeCast S2x2048x16x256 x1 shapeCasts_S4096x4096_S2x2048x16x256)
                slices_S2x2048x16x256_S2x2048x16x128_0_0_0_0 : FVec Ideal S2x2048x16x128 .bf16)
              bitsLt_bf16_f32)
            nw)
          cs sn)
        bitsLt_bf16_f32)
      transposes_S2x2048x16x128_S2x16x2048x128_0_2_1_3 := by
    subst h1 hc hs hn hy; simp only [hostOps3]; after_results_simp; rfl
  rw [e, swap16_apply, truncf_apply, roped16_apply]
  simp only [normed16_apply, extf_apply, slice256_lo_apply, cast_heads16x256_apply]

end Cert.KernelIdeal.HostRead

end
-- ==== Proof.HostRead.lean ====
/-
  What the kernel program's host stretches leave in each buffer the regions read, entry by entry: the reshaped
  activations, output and context, the values and the gate (pure re-layouts of a projection), and the normalised and
  rotated queries and keys.
-/
import proofs.«164297_j75917841924554_2_alg».proof.Proof.HostReadSmall
import proofs.«164297_j75917841924554_2_alg».proof.Proof.HostReadQK
-- ==== Proof.KernelValue.lean ====
/-
  The kernel program's two results, read off its run, are the specification's arrays.

  The output projection at the return is a reshape of what the last matmul region left: row 2048·b + s of
  context · Woᵀ, where the context row is the attention region's gated context with the heads laid side by side
  (feature 128·h + d is head h, feature d). The attention region's two arrays are, entry by entry, the soft-max of the
  masked score row and the value-weighted sum times the logistic of the gate, of the queries, keys, values and gates
  it reads; those are what the host stretch between the projections and the attention makes of the three projection
  regions' outputs (RMS normalisation, rotary embedding, the change of layout from [batch, position, head, feature]
  to [batch, head, position, feature]); and each projection region's output is x·Wᵀ of the reshaped hidden states.
  Every step is read at an index built from coordinates, so the chain closes on the specification's curried functions.
-/
import proofs.«164297_j75917841924554_2_alg».proof.Proof.KernelFold
import proofs.«164297_j75917841924554_2_alg».proof.Proof.SpecArr
import proofs.«164297_j75917841924554_2_alg».proof.Proof.RegionMM
import proofs.«164297_j75917841924554_2_alg».proof.Proof.RegionAttn
import proofs.«164297_j75917841924554_2_alg».proof.Proof.HostRead
import Idealize.ShloMosaic.Lib.ValueIdx

set_option maxRecDepth 16384
noncomputable section

open Idealize.ShloMosaic Idealize.ShloMosaic.TcCoe Idealize.SL.Sem Idealize.ShloMosaic.ValueIdx

/-! # The chain, innermost first

  The ten argument arrays are `x0 … x9` (`hK`: the launch memory holds `xK` at argument K); every buffer read is a
  function from its index set into the extended reals (the mask: into 32-bit words). -/
namespace Cert.KernelIdeal.Value
open Cert.KernelIdeal Cert.KernelIdeal.Gen Cert.Spec

variable (m : (ℓ : Loc nD τ sig) → Buf (Elt Ideal) ℓ) (ρ : Dev nD → PrngReg) (c : Dev nD)
variable (x0 : S2x2048x2048.Idx → EReal) (x1 x2 : S2x2048x128.Idx → EReal) (x3 : S2x1x2048x2048.Idx → BitVec 32)
  (x4 : S4096x2048.Idx → EReal) (x5 x6 : S1024x2048.Idx → EReal) (x7 : S2048x2048.Idx → EReal) (x8 x9 : S128.Idx → EReal)

/-- The hidden states as the three input projections read them: row 2048·b + s of the reshaped array is
    position s of batch b. -/
theorem hidden_row (h0 : m ((c : Thread nD τ).loc main_arg0) = x0) (y : S4096x2048.Idx → EReal) (hy : V1 m ρ c main_v0 = y)
    (b : Fin 2) (s k : Fin 2048) :
    y (ix2 (⟨2048 * b.val + s.val, by omega⟩ : Fin 4096) k) = x0 (ix3 b s k) :=
  HostRead.host0 (W0 m ρ c) x0 y h0 hy b s k

/-- Region 0 leaves the query projection (queries and gates): `lin` of the hidden states and the query weights. -/
theorem proj_q (h0 : m ((c : Thread nD τ).loc main_arg0) = x0) (h4 : m ((c : Thread nD τ).loc main_arg4) = x4)
    (y : S4096x4096.Idx → EReal) (hy : W4 m ρ c (Proc.devRef .tc main_v1) = y) (b : Fin 2) (s : Fin 2048) (o : Fin 4096) :
    y (ix2 (⟨2048 * b.val + s.val, by omega⟩ : Fin 4096) o) = lin (c3 x0) (cW x4) b s o := by
  rw [RegionMM.final0 (V1 m ρ) c (V1 m ρ c main_v0) x4 y rfl ((Fold.arg4_at1 m ρ c).trans h4)
    ((Fold.v1_at4 m ρ c).symm.trans hy) _ o]
  unfold lin
  refine Finset.sum_congr rfl fun k _ => ?_
  rw [hidden_row m ρ c x0 h0 _ rfl b s k]

/-- Region 1 leaves the key projection. -/
theorem proj_k (h0 : m ((c : Thread nD τ).loc main_arg0) = x0) (h5 : m ((c : Thread nD τ).loc main_arg5) = x5)
    (y : S4096x1024.Idx → EReal) (hy : W4 m ρ c (Proc.devRef .tc main_v2) = y) (b : Fin 2) (s : Fin 2048) (o : Fin 1024) :
    y (ix2 (⟨2048 * b.val + s.val, by omega⟩ : Fin 4096) o) = lin (c3 x0) (cW x5) b s o := by
  rw [RegionMM.final1 (V2 m ρ) c (V1 m ρ c main_v0) x5 y (Fold.v0_at2 m ρ c) ((Fold.arg5_at2 m ρ c).trans h5)
    ((Fold.v2_at4 m ρ c).symm.trans hy) _ o]
  unfold lin
  refine Finset.sum_congr rfl fun k _ => ?_
  rw [hidden_row m ρ c x0 h0 _ rfl b s k]

/-- Region 2 leaves the value projection. -/
theorem proj_v (h0 : m ((c : Thread nD τ).loc main_arg0) = x0) (h6 : m ((c : Thread nD τ).loc main_arg6) = x6)
    (y : S4096x1024.Idx → EReal) (hy : W4 m ρ c (Proc.devRef .tc main_v3) = y) (b : Fin 2) (s : Fin 2048) (o : Fin 1024) :
    y (ix2 (⟨2048 * b.val + s.val, by omega⟩ : Fin 4096) o) = lin (c3 x0) (cW x6) b s o := by
  rw [RegionMM.final2 (V3 m ρ) c (V1 m ρ c main_v0) x6 y (Fold.v0_at3 m ρ c) ((Fold.arg6_at3 m ρ c).trans h6)
    ((Fold.v3_at4 m ρ c).symm.trans hy) _ o]
  unfold lin
  refine Finset.sum_congr rfl fun k _ => ?_
  rw [hidden_row m ρ c x0 h0 _ rfl b s k]

/-- The queries the attention region reads: normalised and rotated, head by head. -/
theorem qry_eq (h0 : m ((c : Thread nD τ).loc main_arg0) = x0) (h1 : m ((c : Thread nD τ).loc main_arg1) = x1)
    (h2 : m ((c : Thread nD τ).loc main_arg2) = x2) (h4 : m ((c : Thread nD τ).loc main_arg4) = x4)
    (h8 : m ((c : Thread nD τ).loc main_arg8) = x8)
    (y : S2x16x2048x128.Idx → EReal) (hy : V5 m ρ c main_v49 = y) (b : Fin 2) (h : Fin 16) (s : Fin 2048) (d : Fin 128) :
    y (ix4 b h s d) = qry (c3 x0) (c3 x1) (c3 x2) (cW x4) (cN x8) b h s d := by
  rw [HostRead.host3_qry (W4 m ρ c) (W4 m ρ c (Proc.devRef .tc main_v1)) x1 x2 x8 y rfl ((Fold.arg1_at4 m ρ c).trans h1)
    ((Fold.arg2_at4 m ρ c).trans h2) ((Fold.arg8_at4 m ρ c).trans h8) hy b h s d]
  unfold qry qraw
  simp only [proj_q m ρ c x0 x4 h0 h4 _ rfl]

/-- The keys it reads. -/
theorem key_eq (h0 : m ((c : Thread nD τ).loc main_arg0) = x0) (h1 : m ((c : Thread nD τ).loc main_arg1) = x1)
    (h2 : m ((c : Thread nD τ).loc main_arg2) = x2) (h5 : m ((c : Thread nD τ).loc main_arg5) = x5)
    (h9 : m ((c : Thread nD τ).loc main_arg9) = x9)
    (y : S2x8x2048x128.Idx → EReal) (hy : V5 m ρ c main_v60 = y) (b : Fin 2) (g : Fin 8) (s : Fin 2048) (d : Fin 128) :
    y (ix4 b g s d) = key (c3 x0) (c3 x1) (c3 x2) (cW x5) (cN x9) b g s d := by
  rw [HostRead.host3_key (W4 m ρ c) (W4 m ρ c (Proc.devRef .tc main_v2)) x1 x2 x9 y rfl ((Fold.arg1_at4 m ρ c).trans h1)
    ((Fold.arg2_at4 m ρ c).trans h2) ((Fold.arg9_at4 m ρ c).trans h9) hy b g s d]
  unfold key kraw
  simp only [proj_k m ρ c x0 x5 h0 h5 _ rfl]

/-- The values it reads. -/
theorem val_eq (h0 : m ((c : Thread nD τ).loc main_arg0) = x0) (h6 : m ((c : Thread nD τ).loc main_arg6) = x6)
    (y : S2x8x2048x128.Idx → EReal) (hy : V5 m ρ c main_v61 = y) (b : Fin 2) (g : Fin 8) (s : Fin 2048) (d : Fin 128) :
    y (ix4 b g s d) = val (c3 x0) (cW x6) b g s d := by
  rw [HostRead.host3_val (W4 m ρ c) (W4 m ρ c (Proc.devRef .tc main_v3)) y rfl hy b g s d]
  unfold val
  rw [proj_v m ρ c x0 x6 h0 h6 _ rfl]

/-- The gates it reads. -/
theorem gate_eq (h0 : m ((c : Thread nD τ).loc main_arg0) = x0) (h4 : m ((c : Thread nD τ).loc main_arg4) = x4)
    (y : S2x16x2048x128.Idx → EReal) (hy : V5 m ρ c main_v62 = y) (b : Fin 2) (h : Fin 16) (s : Fin 2048) (d : Fin 128) :
    y (ix4 b h s d) = gate (c3 x0) (cW x4) b h s d := by
  rw [HostRead.host3_gate (W4 m ρ c) (W4 m ρ c (Proc.devRef .tc main_v1)) y rfl hy b h s d]
  unfold gate
  rw [proj_q m ρ c x0 x4 h0 h4 _ rfl]

/-- What the attention region leaves in the attention-weight array. -/
theorem attn_region (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h8 : m ((c : Thread nD τ).loc main_arg8) = x8) (h9 : m ((c : Thread nD τ).loc main_arg9) = x9)
    (y : S2x16x2048x2048.Idx → EReal) (hy : (dat3 (F := Ideal) (V5 m ρ) c).arrAt 6 cfg3.N = y)
    (b : Fin 2) (h : Fin 16) (q s : Fin 2048) :
    y (ix4 b h q s) = attn (c3 x0) (c3 x1) (c3 x2) (cM x3) (cW x4) (cW x5) (cN x8) (cN x9) b h q s := by
  rw [RegionAttn.final_attn (V5 m ρ) c (V5 m ρ c main_v49) (V5 m ρ c main_v60) x3 y rfl rfl ((Fold.arg3_at5 m ρ c).trans h3) hy b h q s]
  unfold attn score
  simp only [qry_eq m ρ c x0 x1 x2 x4 x8 h0 h1 h2 h4 h8 _ rfl, key_eq m ρ c x0 x1 x2 x5 x9 h0 h1 h2 h5 h9 _ rfl]

/-- What it leaves in the gated-context array. -/
theorem ctx_region (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h6 : m ((c : Thread nD τ).loc main_arg6) = x6)
    (h8 : m ((c : Thread nD τ).loc main_arg8) = x8) (h9 : m ((c : Thread nD τ).loc main_arg9) = x9)
    (y : S2x16x2048x128.Idx → EReal) (hy : (dat3 (F := Ideal) (V5 m ρ) c).arrAt 5 cfg3.N = y)
    (b : Fin 2) (h : Fin 16) (q : Fin 2048) (d : Fin 128) :
    y (ix4 b h q d) = ctx (c3 x0) (c3 x1) (c3 x2) (cM x3) (cW x4) (cW x5) (cW x6) (cN x8) (cN x9) b h q d := by
  rw [RegionAttn.final_ctx (V5 m ρ) c (V5 m ρ c main_v61) (V5 m ρ c main_v62) ((dat3 (F := Ideal) (V5 m ρ) c).arrAt 6 cfg3.N) y
    rfl rfl rfl hy b h q d]
  unfold ctx
  simp only [attn_region m ρ c x0 x1 x2 x3 x4 x5 x8 x9 h0 h1 h2 h3 h4 h5 h8 h9 _ rfl, val_eq m ρ c x0 x6 h0 h6 _ rfl,
    gate_eq m ρ c x0 x4 h0 h4 _ rfl]

/-- The second result: the attention weights at the return. -/
theorem attn_result (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h8 : m ((c : Thread nD τ).loc main_arg8) = x8) (h9 : m ((c : Thread nD τ).loc main_arg9) = x9)
    (y : S2x16x2048x2048.Idx → EReal) (hy : W9 m ρ c (Proc.devRef .tc main_v63_1) = y) :
    y = attnArr x0 x1 x2 x3 x4 x5 x8 x9 := by
  funext i
  obtain ⟨b, h, q, s, rfl⟩ : ∃ (b : Fin 2) (h : Fin 16) (q s : Fin 2048), i = ix4 b h q s := ⟨i 0, i 1, i 2, i 3, eq_ix4 i⟩
  rw [attnArr_apply]
  exact attn_region m ρ c x0 x1 x2 x3 x4 x5 x8 x9 h0 h1 h2 h3 h4 h5 h8 h9 y ((Fold.attn_at9 m ρ c).symm.trans hy) b h q s

/-- The first result: the output projection at the return. -/
theorem out_result (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h6 : m ((c : Thread nD τ).loc main_arg6) = x6) (h7 : m ((c : Thread nD τ).loc main_arg7) = x7)
    (h8 : m ((c : Thread nD τ).loc main_arg8) = x8) (h9 : m ((c : Thread nD τ).loc main_arg9) = x9)
    (y : S2x2048x2048.Idx → EReal) (hy : W9 m ρ c (Proc.devRef .tc main_v67) = y) :
    y = outArr x0 x1 x2 x3 x4 x5 x6 x7 x8 x9 := by
  funext i
  obtain ⟨b, s, o, rfl⟩ : ∃ (b : Fin 2) (s o : Fin 2048), i = ix3 b s o := ⟨i 0, i 1, i 2, eq_ix3 i⟩
  rw [outArr_apply]
  rw [HostRead.host5_out (W8 m ρ c) (W8 m ρ c (Proc.devRef .tc main_v66)) y rfl hy b s o,
    RegionMM.final4 (V7 m ρ) c (V7 m ρ c main_v65) x7 (W8 m ρ c (Proc.devRef .tc main_v66)) rfl ((Fold.arg7_at7 m ρ c).trans h7)
      (Fold.out_at8 m ρ c).symm _ o]
  unfold out
  refine Finset.sum_congr rfl fun k _ => ?_
  have hk : k = (⟨128 * (k.val / 128) + k.val % 128, by omega⟩ : Fin 2048) := Fin.ext (Nat.div_add_mod k.val 128).symm
  rw [show V7 m ρ c main_v65 (ix2 (⟨2048 * b.val + s.val, by omega⟩ : Fin 4096) k)
        = ctx (c3 x0) (c3 x1) (c3 x2) (cM x3) (cW x4) (cW x5) (cW x6) (cN x8) (cN x9) b ⟨k.val / 128, by omega⟩ s ⟨k.val % 128, by omega⟩ from by
      conv_lhs => rw [hk]
      rw [HostRead.host4_ctx (W6 m ρ c) (W6 m ρ c (Proc.devRef .tc main_v63_0)) (V7 m ρ c main_v65) rfl rfl b s ⟨k.val / 128, by omega⟩ ⟨k.val % 128, by omega⟩]
      exact ctx_region m ρ c x0 x1 x2 x3 x4 x5 x6 x8 x9 h0 h1 h2 h3 h4 h5 h6 h8 h9 _ (Fold.ctx_at6 m ρ c).symm _ _ _ _]

end Cert.KernelIdeal.Value

end
-- ==== Proof.RefProjVal.lean ====
/-
  The reference's value and gate arrays read at coordinates.

  Both are a linear image of the hidden states followed by layout operations only. The values: the product
  [2,2048,1024] is split as 1024 = 8·128 (row-major position unchanged) and the head axis is moved in front of the
  position axis, so entry (b,g,s,d) is the product's entry (b,s,128 g + d). The gate: the product [2,2048,4096] is
  split as 4096 = 16·256, the upper half 128..255 of each head's 256 features is kept, and the heads are laid side by
  side again, so entry (b,s,128 h + d) is the product's entry (b,s,256 h + 128 + d).
-/
import proofs.«164297_j75917841924554_2_alg».proof.Proof.Gen.ReferenceIdeal.Read
import proofs.«164297_j75917841924554_2_alg».proof.Proof.Spec
import Idealize.ShloMosaic.Lib.ValueIdx

set_option maxRecDepth 16384
noncomputable section

open Idealize.ShloMosaic Idealize.ShloMosaic.TcCoe Idealize.SL.Sem Idealize.ShloMosaic.ValueIdx

namespace Cert.ReferenceIdeal.RefProj
open Cert.ReferenceIdeal Cert.ReferenceIdeal.Read

variable (x0 : Vec Ideal S2x2048x2048 .f32) (x4 : Vec Ideal S4096x2048 .f32) (x6 : Vec Ideal S1024x2048 .f32)

/-- The transposed values at (b,g,s,d) are the split product at (b,s,g,d). -/
theorem idx37 (b : Fin 2) (g : Fin 8) (s : Fin 2048) (d : Fin 128) :
    idx_main_v37 (ix4 b g s d) = ix4 b s g d :=
  funext fun a => Fin.ext (by match a with | ⟨0, _⟩ => rfl | ⟨1, _⟩ => rfl | ⟨2, _⟩ => rfl | ⟨3, _⟩ => rfl)

/-- Splitting 1024 = 8·128: entry (b,s,g,d) of the split array is entry (b,s,128 g + d). -/
theorem idx36 (b : Fin 2) (s : Fin 2048) (g : Fin 8) (d : Fin 128) :
    idx_main_v36 (ix4 b s g d) = ix3 b s (⟨128 * g.val + d.val, by omega⟩ : Fin 1024) :=
  funext fun a => Fin.ext (by
    have hb := b.isLt; have hs := s.isLt; have hg := g.isLt; have hd := d.isLt
    match a with
    | ⟨0, _⟩ => show (((b.val * 2048 + s.val) * 8 + g.val) * 128 + d.val) / 2097152 = b.val; omega
    | ⟨1, _⟩ => show (((b.val * 2048 + s.val) * 8 + g.val) * 128 + d.val) / 1024 % 2048 = s.val; omega
    | ⟨2, _⟩ => show (((b.val * 2048 + s.val) * 8 + g.val) * 128 + d.val) % 1024 = 128 * g.val + d.val; omega)

theorem lidx35 (b : Fin 2) (s : Fin 2048) (o : Fin 1024) (k : Fin 2048) :
    lidx_main_v35 (ix3 b s o) k = ix3 b s k :=
  funext fun a => Fin.ext (by match a with | ⟨0, _⟩ => rfl | ⟨1, _⟩ => rfl | ⟨2, _⟩ => rfl)

theorem ridx35 (b : Fin 2) (s : Fin 2048) (o : Fin 1024) (k : Fin 2048) :
    ridx_main_v35 (ix3 b s o) k = ix2 o k :=
  funext fun a => Fin.ext (by match a with | ⟨0, _⟩ => rfl | ⟨1, _⟩ => rfl)

/-- The reference's values are the specification's. -/
theorem val_core (b : Fin 2) (g : Fin 8) (s : Fin 2048) (d : Fin 128) :
    val_main_v37 (F := Ideal) x0 x6 (ix4 b g s d)
      = Cert.Spec.val (fun b s k => x0 (ix3 b s k)) (fun o k => x6 (ix2 o k)) b g s d := by
  rw [val_main_v37_apply, idx37, val_main_v36_apply, idx36, val_main_v35_apply]
  simp only [lidx35, ridx35]
  rfl

/-- Laying 16 heads of 128 side by side: entry (b,s,128 h + d) of the flat array is entry (b,s,h,d). -/
theorem idx4 (b : Fin 2) (s : Fin 2048) (h : Fin 16) (d : Fin 128) :
    idx_main_v4 (ix3 b s (⟨128 * h.val + d.val, by omega⟩ : Fin 2048)) = ix4 b s h d :=
  funext fun a => Fin.ext (by
    have hb := b.isLt; have hs := s.isLt; have hh := h.isLt; have hd := d.isLt
    match a with
    | ⟨0, _⟩ => show ((b.val * 2048 + s.val) * 2048 + (128 * h.val + d.val)) / 4194304 = b.val; omega
    | ⟨1, _⟩ => show ((b.val * 2048 + s.val) * 2048 + (128 * h.val + d.val)) / 2048 % 2048 = s.val; omega
    | ⟨2, _⟩ => show ((b.val * 2048 + s.val) * 2048 + (128 * h.val + d.val)) / 128 % 16 = h.val; omega
    | ⟨3, _⟩ => show ((b.val * 2048 + s.val) * 2048 + (128 * h.val + d.val)) % 128 = d.val; omega)

/-- The upper half of a head's 256 features: entry d of the slice is entry 128 + d. -/
theorem idx3 (b : Fin 2) (s : Fin 2048) (h : Fin 16) (d : Fin 128) :
    idx_main_v3 (ix4 b s h d) = ix4 b s h (⟨128 + d.val, by omega⟩ : Fin 256) :=
  funext fun a => Fin.ext (by match a with | ⟨0, _⟩ => rfl | ⟨1, _⟩ => rfl | ⟨2, _⟩ => rfl | ⟨3, _⟩ => rfl)

/-- Splitting 4096 = 16·256: entry (b,s,h,e) of the split array is entry (b,s,256 h + e); here at e = 128 + d. -/
theorem idx1_hi (b : Fin 2) (s : Fin 2048) (h : Fin 16) (d : Fin 128) :
    idx_main_v1 (ix4 b s h (⟨128 + d.val, by omega⟩ : Fin 256))
      = ix3 b s (⟨256 * h.val + 128 + d.val, by omega⟩ : Fin 4096) :=
  funext fun a => Fin.ext (by
    have hb := b.isLt; have hs := s.isLt; have hh := h.isLt; have hd := d.isLt
    match a with
    | ⟨0, _⟩ => show (((b.val * 2048 + s.val) * 16 + h.val) * 256 + (128 + d.val)) / 8388608 = b.val; omega
    | ⟨1, _⟩ => show (((b.val * 2048 + s.val) * 16 + h.val) * 256 + (128 + d.val)) / 4096 % 2048 = s.val; omega
    | ⟨2, _⟩ => show (((b.val * 2048 + s.val) * 16 + h.val) * 256 + (128 + d.val)) % 4096 = 256 * h.val + 128 + d.val; omega)

theorem lidx0 (b : Fin 2) (s : Fin 2048) (o : Fin 4096) (k : Fin 2048) :
    lidx_main_v0 (ix3 b s o) k = ix3 b s k :=
  funext fun a => Fin.ext (by match a with | ⟨0, _⟩ => rfl | ⟨1, _⟩ => rfl | ⟨2, _⟩ => rfl)

theorem ridx0 (b : Fin 2) (s : Fin 2048) (o : Fin 4096) (k : Fin 2048) :
    ridx_main_v0 (ix3 b s o) k = ix2 o k :=
  funext fun a => Fin.ext (by match a with | ⟨0, _⟩ => rfl | ⟨1, _⟩ => rfl)

/-- The reference's gate is the specification's. -/
theorem gate_core (b : Fin 2) (h : Fin 16) (s : Fin 2048) (d : Fin 128) :
    val_main_v4 (F := Ideal) x0 x4 (ix3 b s (⟨128 * h.val + d.val, by omega⟩ : Fin 2048))
      = Cert.Spec.gate (fun b s k => x0 (ix3 b s k)) (fun o k => x4 (ix2 o k)) b h s d := by
  rw [val_main_v4_apply, idx4, val_main_v3_apply, idx3, val_main_v1_apply, idx1_hi, val_main_v0_apply]
  simp only [lidx0, ridx0]
  rfl

end Cert.ReferenceIdeal.RefProj

end
-- ==== Proof.RefProjRot.lean ====
/-
  Two half-width arrays joined along the last axis, read at coordinates.

  For arrays of shape [2,B,2048,64] joined along the feature axis into [2,B,2048,128], the joined array at feature d is
  the first piece at d when d < 64 and the second piece at d − 64 otherwise. With the first piece the negated upper
  half of a head's features and the second piece the lower half, this is the half rotation.
-/
import Idealize.ShloMosaic.Lib.Pipeline.Value
import Idealize.ShloMosaic.Lib.ValueIdx

set_option maxRecDepth 16384

namespace Cert.ReferenceIdeal.RefProj

open Idealize.ShloMosaic Idealize.ShloMosaic.ValueIdx

/-- A join of two [2,B,2048,64] arrays along the last axis, at (b,g,s,d). -/
theorem join_halves {α : Type} {B : ℕ}
    (x₁ x₂ : (⟨4, ![2, B, 2048, 64]⟩ : Shape).Idx → α)
    (h : Shape.Concatenates [(⟨4, ![2, B, 2048, 64]⟩ : Shape), ⟨4, ![2, B, 2048, 64]⟩] ⟨4, ![2, B, 2048, 128]⟩ 3)
    (b : Fin 2) (g : Fin B) (s : Fin 2048) (d : Fin 128) :
    concatenate (⟨4, ![2, B, 2048, 128]⟩ : Shape) 3 [⟨⟨4, ![2, B, 2048, 64]⟩, x₁⟩, ⟨⟨4, ![2, B, 2048, 64]⟩, x₂⟩] h (ix4 b g s d)
      = if hd : d.val < 64 then x₁ (ix4 b g s (⟨d.val, hd⟩ : Fin 64))
        else x₂ (ix4 b g s (⟨d.val - 64, by omega⟩ : Fin 64)) := by
  by_cases hd : d.val < 64
  · rw [dif_pos hd]
    exact concatenate_pair_apply_left 3 x₁ x₂ h (ix4 b g s d) rfl (ix4 b g s (⟨d.val, hd⟩ : Fin 64))
      (fun a => by match a with | ⟨0, _⟩ => rfl | ⟨1, _⟩ => rfl | ⟨2, _⟩ => rfl | ⟨3, _⟩ => rfl)
  · rw [dif_neg hd]
    exact concatenate_pair_apply_right 3 x₁ x₂ h (ix4 b g s d) rfl rfl (ix4 b g s (⟨d.val - 64, by omega⟩ : Fin 64))
      (fun a => by
        match a with
        | ⟨0, _⟩ => intro _; rfl
        | ⟨1, _⟩ => intro _; rfl
        | ⟨2, _⟩ => intro _; rfl
        | ⟨3, _⟩ => intro hne; exact absurd rfl hne)
      (by show d.val - 64 + 64 = d.val; omega)

end Cert.ReferenceIdeal.RefProj
-- ==== Proof.RefProjKey.lean ====
/-
  The reference's keys read at coordinates.

  The key projection [2,2048,1024] is split into 8 heads of 128 features (entry (b,s,g,e) is the product's entry
  (b,s,128 g + e)). Each head is normalised: the sum of squares over its 128 features, divided by 128, plus epsilon,
  reciprocal square root, times the feature, times the weight. The head axis is then moved in front of the position
  axis. The rotation joins the negated upper half of the features in front of the lower half, and the result is
  normalised · cos + rotated · sin, with the cosines and sines of (b,s) shared by all heads.
-/
import proofs.«164297_j75917841924554_2_alg».proof.Proof.Gen.ReferenceIdeal.Read
import proofs.«164297_j75917841924554_2_alg».proof.Proof.Spec
import proofs.«164297_j75917841924554_2_alg».proof.Proof.RefProjRot
import Idealize.ShloMosaic.Lib.ValueIdx
import Idealize.ShloMosaic.PureOps.Ideal.Laws

set_option maxRecDepth 16384
noncomputable section

open Idealize.ShloMosaic Idealize.ShloMosaic.TcCoe Idealize.SL.Sem Idealize.ShloMosaic.ValueIdx

namespace Cert.ReferenceIdeal.RefProj
open Cert.ReferenceIdeal Cert.ReferenceIdeal.Read

variable (x0 : Vec Ideal S2x2048x2048 .f32) (x1 x2 : Vec Ideal S2x2048x128 .f32)
  (x5 : Vec Ideal S1024x2048 .f32) (x9 : Vec Ideal S128 .f32)

/-! ### The raw key features -/

/-- Splitting 1024 = 8·128: entry (b,s,g,e) of the split array is entry (b,s,128 g + e). -/
theorem idx20 (b : Fin 2) (s : Fin 2048) (g : Fin 8) (e : Fin 128) :
    idx_main_v20 (ix4 b s g e) = ix3 b s (⟨128 * g.val + e.val, by omega⟩ : Fin 1024) :=
  funext fun a => Fin.ext (by
    have hb := b.isLt; have hs := s.isLt; have hg := g.isLt; have he := e.isLt
    match a with
    | ⟨0, _⟩ => show (((b.val * 2048 + s.val) * 8 + g.val) * 128 + e.val) / 2097152 = b.val; omega
    | ⟨1, _⟩ => show (((b.val * 2048 + s.val) * 8 + g.val) * 128 + e.val) / 1024 % 2048 = s.val; omega
    | ⟨2, _⟩ => show (((b.val * 2048 + s.val) * 8 + g.val) * 128 + e.val) % 1024 = 128 * g.val + e.val; omega)

theorem lidx19 (b : Fin 2) (s : Fin 2048) (o : Fin 1024) (k : Fin 2048) :
    lidx_main_v19 (ix3 b s o) k = ix3 b s k :=
  funext fun a => Fin.ext (by match a with | ⟨0, _⟩ => rfl | ⟨1, _⟩ => rfl | ⟨2, _⟩ => rfl)

theorem ridx19 (b : Fin 2) (s : Fin 2048) (o : Fin 1024) (k : Fin 2048) :
    ridx_main_v19 (ix3 b s o) k = ix2 o k :=
  funext fun a => Fin.ext (by match a with | ⟨0, _⟩ => rfl | ⟨1, _⟩ => rfl)

/-- The split key projection is the specification's raw key features. -/
theorem kraw_core (b : Fin 2) (s : Fin 2048) (g : Fin 8) (e : Fin 128) :
    val_main_v20 (F := Ideal) x0 x5 (ix4 b s g e)
      = Cert.Spec.kraw (fun b s k => x0 (ix3 b s k)) (fun o k => x5 (ix2 o k)) b s g e := by
  rw [val_main_v20_apply, idx20, val_main_v19_apply]
  simp only [lidx19, ridx19]
  rfl

/-! ### The normalisation -/

theorem idx22 (b : Fin 2) (s : Fin 2048) (g : Fin 8) (k : Fin 128) :
    idx_main_v22 (ix3 b s g) k = ix4 b s g k :=
  funext fun a => Fin.ext (by match a with | ⟨0, _⟩ => rfl | ⟨1, _⟩ => rfl | ⟨2, _⟩ => rfl | ⟨3, _⟩ => rfl)

theorem idx23 (b : Fin 2) (s : Fin 2048) (g : Fin 8) (z : Fin 1) :
    idx_main_v23 (ix4 b s g z) = ix3 b s g :=
  funext fun a => Fin.ext (by match a with | ⟨0, _⟩ => rfl | ⟨1, _⟩ => rfl | ⟨2, _⟩ => rfl)

theorem idx29 (b : Fin 2) (s : Fin 2048) (g : Fin 8) (d : Fin 128) :
    idx_main_v29 (ix4 b s g d) = ix4 b s g (0 : Fin 1) :=
  funext fun a => Fin.ext (by match a with | ⟨0, _⟩ => rfl | ⟨1, _⟩ => rfl | ⟨2, _⟩ => rfl | ⟨3, _⟩ => rfl)

theorem idx32 (b : Fin 2) (s : Fin 2048) (g : Fin 8) (d : Fin 128) :
    idx_main_v32 (ix4 b s g d) = ix4 (0 : Fin 1) (0 : Fin 1) (0 : Fin 1) d :=
  funext fun a => Fin.ext (by match a with | ⟨0, _⟩ => rfl | ⟨1, _⟩ => rfl | ⟨2, _⟩ => rfl | ⟨3, _⟩ => rfl)

theorem idx31 (d : Fin 128) :
    idx_main_v31 (ix4 (0 : Fin 1) (0 : Fin 1) (0 : Fin 1) d) = ix1 d :=
  funext fun a => Fin.ext (by match a with | ⟨0, _⟩ => rfl)

theorem idx34 (b : Fin 2) (g : Fin 8) (s : Fin 2048) (d : Fin 128) :
    idx_main_v34 (ix4 b g s d) = ix4 b s g d :=
  funext fun a => Fin.ext (by match a with | ⟨0, _⟩ => rfl | ⟨1, _⟩ => rfl | ⟨2, _⟩ => rfl | ⟨3, _⟩ => rfl)

/-- The sum of squares of a head's raw features (the sum starts from the zero word, which is zero). -/
theorem ksq_core (b : Fin 2) (s : Fin 2048) (g : Fin 8) :
    val_main_v22 (F := Ideal) x0 x5 (ix3 b s g)
      = ∑ e : Fin 128, Cert.Spec.kraw (fun b s k => x0 (ix3 b s k)) (fun o k => x5 (ix2 o k)) b s g e
                        * Cert.Spec.kraw (fun b s k => x0 (ix3 b s k)) (fun o k => x5 (ix2 o k)) b s g e := by
  rw [val_main_v22_apply, val_main_cst_2_apply, Ideal.ofBits_def, Ideal.ofBits_zero_f32, zero_add]
  refine Finset.sum_congr rfl fun k _ => ?_
  rw [idx22, val_main_v21_apply, kraw_core]
  rfl

/-- The normalised keys, head axis in front, are the specification's normalisation of the raw features. -/
theorem knorm_core (b : Fin 2) (g : Fin 8) (s : Fin 2048) (d : Fin 128) :
    val_main_v34 (F := Ideal) x0 x5 x9 (ix4 b g s d)
      = Cert.Spec.rms (Cert.Spec.kraw (fun b s k => x0 (ix3 b s k)) (fun o k => x5 (ix2 o k)) b s g)
          (fun e => x9 (ix1 e)) d := by
  rw [val_main_v34_apply, idx34, val_main_v33_apply, val_main_v30_apply, kraw_core, val_main_v29_apply, idx29,
    val_main_v28_apply, val_main_v27_apply, val_main_v25_apply, val_main_v23_apply, idx23, ksq_core,
    val_main_v24_apply, val_main_cst_3_apply, val_main_v26_apply, val_main_cst_4_apply,
    val_main_v32_apply, idx32, val_main_v31_apply, idx31]
  rfl

/-! ### The rotation and the result -/

theorem idx52 (b : Fin 2) (g : Fin 8) (s : Fin 2048) (d : Fin 128) (hd : d.val < 64) :
    idx_main_v52 (ix4 b g s (⟨d.val, hd⟩ : Fin 64)) = ix4 b g s (⟨d.val + 64, by omega⟩ : Fin 128) :=
  funext fun a => Fin.ext (by
    match a with
    | ⟨0, _⟩ => rfl
    | ⟨1, _⟩ => rfl
    | ⟨2, _⟩ => rfl
    | ⟨3, _⟩ => show 64 + d.val = d.val + 64; omega)

theorem idx51 (b : Fin 2) (g : Fin 8) (s : Fin 2048) (d : Fin 128) (hd : ¬ d.val < 64) :
    idx_main_v51 (ix4 b g s (⟨d.val - 64, by omega⟩ : Fin 64)) = ix4 b g s (⟨d.val - 64, by omega⟩ : Fin 128) :=
  funext fun a => Fin.ext (by match a with | ⟨0, _⟩ => rfl | ⟨1, _⟩ => rfl | ⟨2, _⟩ => rfl | ⟨3, _⟩ => rfl)

/-- The joined halves are the half rotation of the normalised keys. -/
theorem krot_core (b : Fin 2) (g : Fin 8) (s : Fin 2048) (d : Fin 128) :
    val_main_v54 (F := Ideal) x0 x5 x9 (ix4 b g s d)
      = Cert.Spec.rot (Cert.Spec.rms (Cert.Spec.kraw (fun b s k => x0 (ix3 b s k)) (fun o k => x5 (ix2 o k)) b s g)
          (fun e => x9 (ix1 e))) d := by
  unfold val_main_v54 Cert.Spec.rot
  refine (join_halves _ _ _ b g s d).trans ?_
  by_cases hd : d.val < 64
  · rw [dif_pos hd, dif_pos hd, val_main_v53_apply, val_main_v52_apply, idx52, knorm_core]
    rfl
  · rw [dif_neg hd, dif_neg hd, val_main_v51_apply, idx51 b g s d hd, knorm_core]

theorem idx49 (b : Fin 2) (g : Fin 8) (s : Fin 2048) (d : Fin 128) :
    idx_main_v49 (ix4 b g s d) = ix4 b (0 : Fin 1) s d :=
  funext fun a => Fin.ext (by match a with | ⟨0, _⟩ => rfl | ⟨1, _⟩ => rfl | ⟨2, _⟩ => rfl | ⟨3, _⟩ => rfl)

theorem idx55 (b : Fin 2) (g : Fin 8) (s : Fin 2048) (d : Fin 128) :
    idx_main_v55 (ix4 b g s d) = ix4 b (0 : Fin 1) s d :=
  funext fun a => Fin.ext (by match a with | ⟨0, _⟩ => rfl | ⟨1, _⟩ => rfl | ⟨2, _⟩ => rfl | ⟨3, _⟩ => rfl)

theorem idx38 (b : Fin 2) (z : Fin 1) (s : Fin 2048) (d : Fin 128) :
    idx_main_v38 (ix4 b z s d) = ix3 b s d :=
  funext fun a => Fin.ext (by match a with | ⟨0, _⟩ => rfl | ⟨1, _⟩ => rfl | ⟨2, _⟩ => rfl)

theorem idx39 (b : Fin 2) (z : Fin 1) (s : Fin 2048) (d : Fin 128) :
    idx_main_v39 (ix4 b z s d) = ix3 b s d :=
  funext fun a => Fin.ext (by match a with | ⟨0, _⟩ => rfl | ⟨1, _⟩ => rfl | ⟨2, _⟩ => rfl)

/-- The reference's keys are the specification's. -/
theorem key_core (b : Fin 2) (g : Fin 8) (s : Fin 2048) (d : Fin 128) :
    val_main_v57 (F := Ideal) x0 x1 x2 x5 x9 (ix4 b g s d)
      = Cert.Spec.key (fun b s k => x0 (ix3 b s k)) (fun b s e => x1 (ix3 b s e)) (fun b s e => x2 (ix3 b s e))
          (fun o k => x5 (ix2 o k)) (fun e => x9 (ix1 e)) b g s d := by
  rw [val_main_v57_apply, val_main_v50_apply, val_main_v56_apply, knorm_core, krot_core,
    val_main_v49_apply, idx49, val_main_v38_apply, idx38, val_main_v55_apply, idx55, val_main_v39_apply, idx39]
  rfl

end Cert.ReferenceIdeal.RefProj

end
-- ==== Proof.RefProjQry.lean ====
/-
  The reference's queries read at coordinates.

  The query projection [2,2048,4096] is split into 16 heads of 256 features (entry (b,s,h,e) is the product's entry
  (b,s,256 h + e)), of which the first 128 are the query. Each head's query is normalised: the sum of squares over its
  128 features, divided by 128, plus epsilon, reciprocal square root, times the feature, times the weight. The head
  axis is then moved in front of the position axis. The rotation joins the negated upper half of the features in front
  of the lower half, and the result is normalised · cos + rotated · sin, with the cosines and sines of (b,s) shared by
  all heads.
-/
import proofs.«164297_j75917841924554_2_alg».proof.Proof.Gen.ReferenceIdeal.Read
import proofs.«164297_j75917841924554_2_alg».proof.Proof.Spec
import proofs.«164297_j75917841924554_2_alg».proof.Proof.RefProjRot
import proofs.«164297_j75917841924554_2_alg».proof.Proof.RefProjVal
import Idealize.ShloMosaic.Lib.ValueIdx
import Idealize.ShloMosaic.PureOps.Ideal.Laws

set_option maxRecDepth 16384
noncomputable section

open Idealize.ShloMosaic Idealize.ShloMosaic.TcCoe Idealize.SL.Sem Idealize.ShloMosaic.ValueIdx

namespace Cert.ReferenceIdeal.RefProj
open Cert.ReferenceIdeal Cert.ReferenceIdeal.Read

variable (x0 : Vec Ideal S2x2048x2048 .f32) (x1 x2 : Vec Ideal S2x2048x128 .f32)
  (x4 : Vec Ideal S4096x2048 .f32) (x8 : Vec Ideal S128 .f32)

/-! ### The raw query features -/

/-- The lower half of a head's 256 features: entry e of the slice is entry e. -/
theorem idx2 (b : Fin 2) (s : Fin 2048) (h : Fin 16) (e : Fin 128) :
    idx_main_v2 (ix4 b s h e) = ix4 b s h (⟨e.val, by omega⟩ : Fin 256) :=
  funext fun a => Fin.ext (by match a with | ⟨0, _⟩ => rfl | ⟨1, _⟩ => rfl | ⟨2, _⟩ => rfl | ⟨3, _⟩ => rfl)

/-- Splitting 4096 = 16·256: entry (b,s,h,e) of the split array is entry (b,s,256 h + e); here for e < 128. -/
theorem idx1_lo (b : Fin 2) (s : Fin 2048) (h : Fin 16) (e : Fin 128) :
    idx_main_v1 (ix4 b s h (⟨e.val, by omega⟩ : Fin 256))
      = ix3 b s (⟨256 * h.val + e.val, by omega⟩ : Fin 4096) :=
  funext fun a => Fin.ext (by
    have hb := b.isLt; have hs := s.isLt; have hh := h.isLt; have he := e.isLt
    match a with
    | ⟨0, _⟩ => show (((b.val * 2048 + s.val) * 16 + h.val) * 256 + e.val) / 8388608 = b.val; omega
    | ⟨1, _⟩ => show (((b.val * 2048 + s.val) * 16 + h.val) * 256 + e.val) / 4096 % 2048 = s.val; omega
    | ⟨2, _⟩ => show (((b.val * 2048 + s.val) * 16 + h.val) * 256 + e.val) % 4096 = 256 * h.val + e.val; omega)

/-- The lower half of the split query projection is the specification's raw query features. -/
theorem qraw_core (b : Fin 2) (s : Fin 2048) (h : Fin 16) (e : Fin 128) :
    val_main_v2 (F := Ideal) x0 x4 (ix4 b s h e)
      = Cert.Spec.qraw (fun b s k => x0 (ix3 b s k)) (fun o k => x4 (ix2 o k)) b s h e := by
  rw [val_main_v2_apply, idx2, val_main_v1_apply, idx1_lo, val_main_v0_apply]
  simp only [lidx0, ridx0]
  rfl

/-! ### The normalisation -/

theorem idx6 (b : Fin 2) (s : Fin 2048) (h : Fin 16) (k : Fin 128) :
    idx_main_v6 (ix3 b s h) k = ix4 b s h k :=
  funext fun a => Fin.ext (by match a with | ⟨0, _⟩ => rfl | ⟨1, _⟩ => rfl | ⟨2, _⟩ => rfl | ⟨3, _⟩ => rfl)

theorem idx7 (b : Fin 2) (s : Fin 2048) (h : Fin 16) (z : Fin 1) :
    idx_main_v7 (ix4 b s h z) = ix3 b s h :=
  funext fun a => Fin.ext (by match a with | ⟨0, _⟩ => rfl | ⟨1, _⟩ => rfl | ⟨2, _⟩ => rfl)

theorem idx13 (b : Fin 2) (s : Fin 2048) (h : Fin 16) (d : Fin 128) :
    idx_main_v13 (ix4 b s h d) = ix4 b s h (0 : Fin 1) :=
  funext fun a => Fin.ext (by match a with | ⟨0, _⟩ => rfl | ⟨1, _⟩ => rfl | ⟨2, _⟩ => rfl | ⟨3, _⟩ => rfl)

theorem idx16 (b : Fin 2) (s : Fin 2048) (h : Fin 16) (d : Fin 128) :
    idx_main_v16 (ix4 b s h d) = ix4 (0 : Fin 1) (0 : Fin 1) (0 : Fin 1) d :=
  funext fun a => Fin.ext (by match a with | ⟨0, _⟩ => rfl | ⟨1, _⟩ => rfl | ⟨2, _⟩ => rfl | ⟨3, _⟩ => rfl)

theorem idx15 (d : Fin 128) :
    idx_main_v15 (ix4 (0 : Fin 1) (0 : Fin 1) (0 : Fin 1) d) = ix1 d :=
  funext fun a => Fin.ext (by match a with | ⟨0, _⟩ => rfl)

theorem idx18 (b : Fin 2) (h : Fin 16) (s : Fin 2048) (d : Fin 128) :
    idx_main_v18 (ix4 b h s d) = ix4 b s h d :=
  funext fun a => Fin.ext (by match a with | ⟨0, _⟩ => rfl | ⟨1, _⟩ => rfl | ⟨2, _⟩ => rfl | ⟨3, _⟩ => rfl)

/-- The sum of squares of a head's raw features (the sum starts from the zero word, which is zero). -/
theorem qsq_core (b : Fin 2) (s : Fin 2048) (h : Fin 16) :
    val_main_v6 (F := Ideal) x0 x4 (ix3 b s h)
      = ∑ e : Fin 128, Cert.Spec.qraw (fun b s k => x0 (ix3 b s k)) (fun o k => x4 (ix2 o k)) b s h e
                        * Cert.Spec.qraw (fun b s k => x0 (ix3 b s k)) (fun o k => x4 (ix2 o k)) b s h e := by
  rw [val_main_v6_apply, val_main_cst_apply, Ideal.ofBits_def, Ideal.ofBits_zero_f32, zero_add]
  refine Finset.sum_congr rfl fun k _ => ?_
  rw [idx6, val_main_v5_apply, qraw_core]
  rfl

/-- The normalised queries, head axis in front, are the specification's normalisation of the raw features. -/
theorem qnorm_core (b : Fin 2) (h : Fin 16) (s : Fin 2048) (d : Fin 128) :
    val_main_v18 (F := Ideal) x0 x4 x8 (ix4 b h s d)
      = Cert.Spec.rms (Cert.Spec.qraw (fun b s k => x0 (ix3 b s k)) (fun o k => x4 (ix2 o k)) b s h)
          (fun e => x8 (ix1 e)) d := by
  rw [val_main_v18_apply, idx18, val_main_v17_apply, val_main_v14_apply, qraw_core, val_main_v13_apply, idx13,
    val_main_v12_apply, val_main_v11_apply, val_main_v9_apply, val_main_v7_apply, idx7, qsq_core,
    val_main_v8_apply, val_main_cst_0_apply, val_main_v10_apply, val_main_cst_1_apply,
    val_main_v16_apply, idx16, val_main_v15_apply, idx15]
  rfl

/-! ### The rotation and the result -/

theorem idx43 (b : Fin 2) (h : Fin 16) (s : Fin 2048) (d : Fin 128) (hd : d.val < 64) :
    idx_main_v43 (ix4 b h s (⟨d.val, hd⟩ : Fin 64)) = ix4 b h s (⟨d.val + 64, by omega⟩ : Fin 128) :=
  funext fun a => Fin.ext (by
    match a with
    | ⟨0, _⟩ => rfl
    | ⟨1, _⟩ => rfl
    | ⟨2, _⟩ => rfl
    | ⟨3, _⟩ => show 64 + d.val = d.val + 64; omega)

theorem idx42 (b : Fin 2) (h : Fin 16) (s : Fin 2048) (d : Fin 128) (hd : ¬ d.val < 64) :
    idx_main_v42 (ix4 b h s (⟨d.val - 64, by omega⟩ : Fin 64)) = ix4 b h s (⟨d.val - 64, by omega⟩ : Fin 128) :=
  funext fun a => Fin.ext (by match a with | ⟨0, _⟩ => rfl | ⟨1, _⟩ => rfl | ⟨2, _⟩ => rfl | ⟨3, _⟩ => rfl)

/-- The joined halves are the half rotation of the normalised queries. -/
theorem qrot_core (b : Fin 2) (h : Fin 16) (s : Fin 2048) (d : Fin 128) :
    val_main_v45 (F := Ideal) x0 x4 x8 (ix4 b h s d)
      = Cert.Spec.rot (Cert.Spec.rms (Cert.Spec.qraw (fun b s k => x0 (ix3 b s k)) (fun o k => x4 (ix2 o k)) b s h)
          (fun e => x8 (ix1 e))) d := by
  unfold val_main_v45 Cert.Spec.rot
  refine (join_halves _ _ _ b h s d).trans ?_
  by_cases hd : d.val < 64
  · rw [dif_pos hd, dif_pos hd, val_main_v44_apply, val_main_v43_apply, idx43, qnorm_core]
    rfl
  · rw [dif_neg hd, dif_neg hd, val_main_v42_apply, idx42 b h s d hd, qnorm_core]

theorem idx40 (b : Fin 2) (h : Fin 16) (s : Fin 2048) (d : Fin 128) :
    idx_main_v40 (ix4 b h s d) = ix4 b (0 : Fin 1) s d :=
  funext fun a => Fin.ext (by match a with | ⟨0, _⟩ => rfl | ⟨1, _⟩ => rfl | ⟨2, _⟩ => rfl | ⟨3, _⟩ => rfl)

theorem idx46 (b : Fin 2) (h : Fin 16) (s : Fin 2048) (d : Fin 128) :
    idx_main_v46 (ix4 b h s d) = ix4 b (0 : Fin 1) s d :=
  funext fun a => Fin.ext (by match a with | ⟨0, _⟩ => rfl | ⟨1, _⟩ => rfl | ⟨2, _⟩ => rfl | ⟨3, _⟩ => rfl)

theorem idx38q (b : Fin 2) (z : Fin 1) (s : Fin 2048) (d : Fin 128) :
    idx_main_v38 (ix4 b z s d) = ix3 b s d :=
  funext fun a => Fin.ext (by match a with | ⟨0, _⟩ => rfl | ⟨1, _⟩ => rfl | ⟨2, _⟩ => rfl)

theorem idx39q (b : Fin 2) (z : Fin 1) (s : Fin 2048) (d : Fin 128) :
    idx_main_v39 (ix4 b z s d) = ix3 b s d :=
  funext fun a => Fin.ext (by match a with | ⟨0, _⟩ => rfl | ⟨1, _⟩ => rfl | ⟨2, _⟩ => rfl)

/-- The reference's queries are the specification's. -/
theorem qry_core (b : Fin 2) (h : Fin 16) (s : Fin 2048) (d : Fin 128) :
    val_main_v48 (F := Ideal) x0 x1 x2 x4 x8 (ix4 b h s d)
      = Cert.Spec.qry (fun b s k => x0 (ix3 b s k)) (fun b s e => x1 (ix3 b s e)) (fun b s e => x2 (ix3 b s e))
          (fun o k => x4 (ix2 o k)) (fun e => x8 (ix1 e)) b h s d := by
  rw [val_main_v48_apply, val_main_v41_apply, val_main_v47_apply, qnorm_core, qrot_core,
    val_main_v40_apply, idx40, val_main_v38_apply, idx38q, val_main_v46_apply, idx46, val_main_v39_apply, idx39q]
  rfl

end Cert.ReferenceIdeal.RefProj

end
-- ==== Proof.RefProj.lean ====
/-
  The reference's first half against the specification: its queries, keys, values and gate, each read at an index
  built from coordinates, are the specification's functions of the arguments read at coordinates.
-/
import proofs.«164297_j75917841924554_2_alg».proof.Proof.RefProjVal
import proofs.«164297_j75917841924554_2_alg».proof.Proof.RefProjKey
import proofs.«164297_j75917841924554_2_alg».proof.Proof.RefProjQry

set_option maxRecDepth 16384
noncomputable section

open Idealize.ShloMosaic Idealize.ShloMosaic.TcCoe Idealize.SL.Sem Idealize.ShloMosaic.ValueIdx

namespace Cert.ReferenceIdeal.RefSpec
open Cert.ReferenceIdeal Cert.ReferenceIdeal.Read
variable (x0 : Vec Ideal S2x2048x2048 .f32) (x1 x2 : Vec Ideal S2x2048x128 .f32) (x3 : S2x1x2048x2048.Idx → BitVec 32)
  (x4 : Vec Ideal S4096x2048 .f32) (x5 x6 : Vec Ideal S1024x2048 .f32) (x7 : Vec Ideal S2048x2048 .f32) (x8 x9 : Vec Ideal S128 .f32)

/-- the arguments as curried functions of their coordinates -/
abbrev aX : Fin 2 → Fin 2048 → Fin 2048 → EReal := fun b s k => x0 (ix3 b s k)
abbrev aC (x : Vec Ideal S2x2048x128 .f32) : Fin 2 → Fin 2048 → Fin 128 → EReal := fun b s e => x (ix3 b s e)
abbrev aM : Fin 2 → Fin 2048 → Fin 2048 → BitVec 32 := fun b q s => x3 (ix4 b (0 : Fin 1) q s)
abbrev aW {N : ℕ} (x : Vec Ideal ⟨2, ![N, 2048]⟩ .f32) : Fin N → Fin 2048 → EReal := fun o k => x (ix2 o k)
abbrev aN (x : Vec Ideal S128 .f32) : Fin 128 → EReal := fun e => x (ix1 e)

theorem ref_qry (b : Fin 2) (h : Fin 16) (s : Fin 2048) (d : Fin 128) :
    val_main_v48 (F := Ideal) x0 x1 x2 x4 x8 (ix4 b h s d) = Cert.Spec.qry (aX x0) (aC x1) (aC x2) (aW x4) (aN x8) b h s d :=
  RefProj.qry_core x0 x1 x2 x4 x8 b h s d
theorem ref_key (b : Fin 2) (g : Fin 8) (s : Fin 2048) (d : Fin 128) :
    val_main_v57 (F := Ideal) x0 x1 x2 x5 x9 (ix4 b g s d) = Cert.Spec.key (aX x0) (aC x1) (aC x2) (aW x5) (aN x9) b g s d :=
  RefProj.key_core x0 x1 x2 x5 x9 b g s d
theorem ref_val (b : Fin 2) (g : Fin 8) (s : Fin 2048) (d : Fin 128) :
    val_main_v37 (F := Ideal) x0 x6 (ix4 b g s d) = Cert.Spec.val (aX x0) (aW x6) b g s d :=
  RefProj.val_core x0 x6 b g s d
theorem ref_gate (b : Fin 2) (h : Fin 16) (s : Fin 2048) (d : Fin 128) :
    val_main_v4 (F := Ideal) x0 x4 (ix3 b s (⟨128 * h.val + d.val, by omega⟩ : Fin 2048)) = Cert.Spec.gate (aX x0) (aW x4) b h s d :=
  RefProj.gate_core x0 x4 b h s d
end Cert.ReferenceIdeal.RefSpec

end
-- ==== Proof.RefAttnScore.lean ====
import proofs.«164297_j75917841924554_2_alg».proof.Proof.Gen.ReferenceIdeal.Read
import proofs.«164297_j75917841924554_2_alg».proof.Proof.Spec
import Idealize.ShloMosaic.Lib.ValueIdx

set_option maxRecDepth 16384
noncomputable section

open Idealize.ShloMosaic Idealize.ShloMosaic.TcCoe Idealize.SL.Sem Idealize.ShloMosaic.ValueIdx

namespace Cert.ReferenceIdeal.RefAttnScore
open Cert.ReferenceIdeal Cert.ReferenceIdeal.Read

variable (x0 : Vec Ideal S2x2048x2048 .f32) (x1 x2 : Vec Ideal S2x2048x128 .f32)
  (x4 : Vec Ideal S4096x2048 .f32) (x5 : Vec Ideal S1024x2048 .f32) (x8 x9 : Vec Ideal S128 .f32)

/-- The key head that query head `h` reads: two query heads share one key head. -/
abbrev kvHead (h : Fin 16) : Fin 8 := ⟨h.val / 2, by omega⟩

/-- Splitting a head of 16 into (key head, repeat) and flattening back is the identity on row-major positions, so
    the reshape of the repeated keys reads key head `h / 2`. -/
theorem idx_v59 (b : Fin 2) (h : Fin 16) (s : Fin 2048) (d : Fin 128) :
    idx_main_v58 (idx_main_v59 (ix4 b h s d)) = ix4 b (kvHead h) s d := by
  funext a
  match a with
  | ⟨0, _⟩ => exact Fin.ext (by show (((b.val * 16 + h.val) * 2048 + s.val) * 128 + d.val) / 4194304 = b.val; omega)
  | ⟨1, _⟩ => exact Fin.ext (by show (((b.val * 16 + h.val) * 2048 + s.val) * 128 + d.val) / 524288 % 8 = h.val / 2; omega)
  | ⟨2, _⟩ => exact Fin.ext (by show (((b.val * 16 + h.val) * 2048 + s.val) * 128 + d.val) / 128 % 2048 = s.val; omega)
  | ⟨3, _⟩ => exact Fin.ext (by show (((b.val * 16 + h.val) * 2048 + s.val) * 128 + d.val) % 128 = d.val; omega)

/-- The repeated keys at head `h` are the keys of key head `h / 2`. -/
theorem v59_at (b : Fin 2) (h : Fin 16) (s : Fin 2048) (d : Fin 128) :
    val_main_v59 (F := Ideal) x0 x1 x2 x5 x9 (ix4 b h s d) = val_main_v57 (F := Ideal) x0 x1 x2 x5 x9 (ix4 b (kvHead h) s d) := by
  rw [val_main_v59_apply, val_main_v58_apply, idx_v59]

/-- The unscaled score: the inner product over the 128 features of the query at `(b, h, q)` with the key at
    `(b, h / 2, s)`. -/
theorem v62_at (b : Fin 2) (h : Fin 16) (q s : Fin 2048) :
    val_main_v62 (F := Ideal) x0 x1 x2 x4 x5 x8 x9 (ix4 b h q s)
      = ∑ d : Fin 128, val_main_v48 (F := Ideal) x0 x1 x2 x4 x8 (ix4 b h q d)
          * val_main_v57 (F := Ideal) x0 x1 x2 x5 x9 (ix4 b (kvHead h) s d) := by
  rw [val_main_v62_apply]
  refine Finset.sum_congr rfl fun d _ => ?_
  have el : lidx_main_v62 (ix4 b h q s) d = ix4 b h q d :=
    funext fun a => by match a with | ⟨0, _⟩ => rfl | ⟨1, _⟩ => rfl | ⟨2, _⟩ => rfl | ⟨3, _⟩ => rfl
  have er : ridx_main_v62 (ix4 b h q s) d = ix4 b h s d :=
    funext fun a => by match a with | ⟨0, _⟩ => rfl | ⟨1, _⟩ => rfl | ⟨2, _⟩ => rfl | ⟨3, _⟩ => rfl
  rw [el, er, v59_at]

/-- The scaled score at `(b, h, q, s)`. -/
theorem v64_at (b : Fin 2) (h : Fin 16) (q s : Fin 2048) :
    val_main_v64 (F := Ideal) x0 x1 x2 x4 x5 x8 x9 (ix4 b h q s)
      = (∑ d : Fin 128, val_main_v48 (F := Ideal) x0 x1 x2 x4 x8 (ix4 b h q d)
          * val_main_v57 (F := Ideal) x0 x1 x2 x5 x9 (ix4 b (kvHead h) s d)) * Cert.Spec.wScale := by
  rw [val_main_v64_apply, val_main_v63_apply, val_main_cst_5_apply, v62_at]
  rfl

end Cert.ReferenceIdeal.RefAttnScore

end
-- ==== Proof.RefAttnMask.lean ====
import proofs.«164297_j75917841924554_2_alg».proof.Proof.Gen.ReferenceIdeal.Read
import proofs.«164297_j75917841924554_2_alg».proof.Proof.Spec
import Idealize.ShloMosaic.Lib.ValueIdx
import Idealize.ShloMosaic.PureOps.Reduce

set_option maxRecDepth 16384
noncomputable section

open Idealize.ShloMosaic Idealize.ShloMosaic.TcCoe Idealize.SL.Sem Idealize.ShloMosaic.ValueIdx

namespace Cert.ReferenceIdeal.RefAttnMask
open Cert.ReferenceIdeal Cert.ReferenceIdeal.Gen Cert.ReferenceIdeal.Read

variable (x0 : Vec Ideal S2x2048x2048 .f32) (x1 x2 : Vec Ideal S2x2048x128 .f32) (x3 : S2x1x2048x2048.Idx → BitVec 32)
  (x4 : Vec Ideal S4096x2048 .f32) (x5 : Vec Ideal S1024x2048 .f32) (x8 x9 : Vec Ideal S128 .f32)

/-- One row of scaled scores: query `(b, h, q)` against every key position. -/
abbrev scRow (b : Fin 2) (h : Fin 16) (q : Fin 2048) : Fin 2048 → EReal :=
  fun s => val_main_v64 (F := Ideal) x0 x1 x2 x4 x5 x8 x9 (ix4 b h q s)

/-- One row of mask words: the mask has a single head, shared by all sixteen. -/
abbrev mkRow (b : Fin 2) (q : Fin 2048) : Fin 2048 → BitVec 32 :=
  fun s => x3 (ix4 b (0 : Fin 1) q s)

/-- Dropping the last of four axes: the index over `(b, h, q)` with `k` inserted on the dropped axis is `(b, h, q, k)`. -/
theorem lift_d3 (hR : S2x16x2048x2048.Reduces [3] S2x16x2048) (b : Fin 2) (h : Fin 16) (q k : Fin 2048) :
    hR.lift (ix3 b h q) k = ix4 b h q k :=
  funext fun a => Fin.ext (by match a with | ⟨0, _⟩ => rfl | ⟨1, _⟩ => rfl | ⟨2, _⟩ => rfl | ⟨3, _⟩ => rfl)

/-- At the extended reals the float minimum is `min`, so a fold of one is a fold of the other. -/
theorem fold_minimumf {ι : Type} (s : Finset ι) (c : EReal) (f : ι → EReal)
    [Std.Commutative (FloatOps.minimumf (F := Ideal) (φ := .f32))] [Std.Associative (FloatOps.minimumf (F := Ideal) (φ := .f32))] :
    s.fold (FloatOps.minimumf (F := Ideal) (φ := .f32)) c f = s.fold min c f := rfl

/-- At the extended reals the float maximum is `max`. -/
theorem fold_maximumf {ι : Type} (s : Finset ι) (c : EReal) (f : ι → EReal)
    [Std.Commutative (FloatOps.maximumf (F := Ideal) (φ := .f32))] [Std.Associative (FloatOps.maximumf (F := Ideal) (φ := .f32))] :
    s.fold (FloatOps.maximumf (F := Ideal) (φ := .f32)) c f = s.fold max c f := rfl

/-- A minimum-reduction over the last of four axes, read at `(b, h, q)`: the fold of `min` over the row, from the
    initial value. -/
theorem reduce_min_row (y : S2x16x2048x2048.Idx → EReal) (init : S_.Idx → EReal) (b : Fin 2) (h : Fin 16) (q : Fin 2048) :
    Host.reduce (FloatOps.minimumf (F := Ideal) (φ := .f32)) y init reducesTo_S2x16x2048x2048_S2x16x2048_d3 h_S_ (ix3 b h q)
      = (Finset.univ : Finset (Fin 2048)).fold min (init (Shape.Idx.first h_S_)) (fun s => y (ix4 b h q s)) := by
  have hR : S2x16x2048x2048.Reduces [3] S2x16x2048 := by decide
  haveI : Std.Commutative (FloatOps.minimumf (F := Ideal) (φ := .f32)) := ⟨fun a b => min_comm a b⟩
  haveI : Std.Associative (FloatOps.minimumf (F := Ideal) (φ := .f32)) := ⟨fun a b c => min_assoc a b c⟩
  refine (Host.reduce_eq_fold_single (FloatOps.minimumf (F := Ideal) (φ := .f32)) y init
    reducesTo_S2x16x2048x2048_S2x16x2048_d3 hR h_S_ (ix3 b h q)).trans ?_
  have hf : (y ∘ hR.lift (ix3 b h q)) = fun s => y (ix4 b h q s) := funext fun k => congrArg y (lift_d3 hR b h q k)
  rw [hf]
  exact fold_minimumf _ _ _

/-- A maximum-reduction over the last of four axes, read at `(b, h, q)`: the fold of `max` over the row. -/
theorem reduce_max_row (y : S2x16x2048x2048.Idx → EReal) (init : S_.Idx → EReal) (b : Fin 2) (h : Fin 16) (q : Fin 2048) :
    Host.reduce (FloatOps.maximumf (F := Ideal) (φ := .f32)) y init reducesTo_S2x16x2048x2048_S2x16x2048_d3 h_S_ (ix3 b h q)
      = (Finset.univ : Finset (Fin 2048)).fold max (init (Shape.Idx.first h_S_)) (fun s => y (ix4 b h q s)) := by
  have hR : S2x16x2048x2048.Reduces [3] S2x16x2048 := by decide
  haveI : Std.Commutative (FloatOps.maximumf (F := Ideal) (φ := .f32)) := ⟨fun a b => max_comm a b⟩
  haveI : Std.Associative (FloatOps.maximumf (F := Ideal) (φ := .f32)) := ⟨fun a b c => max_assoc a b c⟩
  refine (Host.reduce_eq_fold_single (FloatOps.maximumf (F := Ideal) (φ := .f32)) y init
    reducesTo_S2x16x2048x2048_S2x16x2048_d3 hR h_S_ (ix3 b h q)).trans ?_
  have hf : (y ∘ hR.lift (ix3 b h q)) = fun s => y (ix4 b h q s) := funext fun k => congrArg y (lift_d3 hR b h q k)
  rw [hf]
  exact fold_maximumf _ _ _

/-- The row minimum: the reduction over the last axis with `min` from `+∞` is the fold of `min` over the row. -/
theorem v65_at (b : Fin 2) (h : Fin 16) (q : Fin 2048) :
    val_main_v65 (F := Ideal) x0 x1 x2 x4 x5 x8 x9 (ix3 b h q)
      = (Finset.univ : Finset (Fin 2048)).fold min Cert.Spec.wPosInf (scRow x0 x1 x2 x4 x5 x8 x9 b h q) := by
  unfold val_main_v65
  rw [reduce_min_row]
  rfl

/-- What a masked score becomes: the row minimum less 20. -/
theorem v68_at (b : Fin 2) (h : Fin 16) (q : Fin 2048) :
    val_main_v68 (F := Ideal) x0 x1 x2 x4 x5 x8 x9 (ix4 b h q (0 : Fin 1))
      = Cert.Spec.fill (scRow x0 x1 x2 x4 x5 x8 x9 b h q) := by
  have e : idx_main_v66 (ix4 b h q (0 : Fin 1)) = ix3 b h q :=
    funext fun a => by match a with | ⟨0, _⟩ => rfl | ⟨1, _⟩ => rfl | ⟨2, _⟩ => rfl
  rw [val_main_v68_apply, val_main_v66_apply, val_main_v67_apply, val_main_cst_7_apply, e, v65_at]
  rfl

/-- The masked row: where the mask word is zero the score stays, elsewhere it is replaced. -/
theorem v71_at (b : Fin 2) (h : Fin 16) (q s : Fin 2048) :
    val_main_v71 (F := Ideal) x0 x1 x2 x3 x4 x5 x8 x9 (ix4 b h q s)
      = Cert.Spec.masked (scRow x0 x1 x2 x4 x5 x8 x9 b h q) (mkRow x3 b q) s := by
  have e0 : idx_main_call0_v0 (ix4 b h q s) = ix4 b (0 : Fin 1) q s :=
    funext fun a => by match a with | ⟨0, _⟩ => rfl | ⟨1, _⟩ => rfl | ⟨2, _⟩ => rfl | ⟨3, _⟩ => rfl
  have e1 : idx_main_call0_v1 (ix4 b h q s) = ix4 b h q (0 : Fin 1) :=
    funext fun a => by match a with | ⟨0, _⟩ => rfl | ⟨1, _⟩ => rfl | ⟨2, _⟩ => rfl | ⟨3, _⟩ => rfl
  rw [val_main_v71_apply, val_main_call0_v0_apply, val_main_v70_apply, val_main_v69_apply, val_main_c_apply,
    val_main_call0_v1_apply, e0, e1, v68_at]
  unfold Cert.Spec.masked
  by_cases hm : x3 (ix4 b (0 : Fin 1) q s) = 0#32
  · rw [if_pos hm, hm]; rfl
  · rw [if_neg hm]
    have hc : IntOp.cmpi .eq (x3 (ix4 b (0 : Fin 1) q s)) 0#32 = 0#1 := by
      unfold IntOp.cmpi
      rw [show (x3 (ix4 b (0 : Fin 1) q s) == 0#32) = false from beq_eq_false_iff_ne.2 hm]
      rfl
    rw [hc]; rfl

end Cert.ReferenceIdeal.RefAttnMask

end
-- ==== Proof.RefAttnSoft.lean ====
import proofs.«164297_j75917841924554_2_alg».proof.Proof.RefAttnMask
import Idealize.ShloMosaic.PureOps.Ideal.Laws

set_option maxRecDepth 16384
noncomputable section

open Idealize.ShloMosaic Idealize.ShloMosaic.TcCoe Idealize.SL.Sem Idealize.ShloMosaic.ValueIdx

namespace Cert.ReferenceIdeal.RefAttnSoft
open Cert.ReferenceIdeal Cert.ReferenceIdeal.Gen Cert.ReferenceIdeal.Read Cert.ReferenceIdeal.RefAttnMask

variable (x0 : Vec Ideal S2x2048x2048 .f32) (x1 x2 : Vec Ideal S2x2048x128 .f32) (x3 : S2x1x2048x2048.Idx → BitVec 32)
  (x4 : Vec Ideal S4096x2048 .f32) (x5 : Vec Ideal S1024x2048 .f32) (x8 x9 : Vec Ideal S128 .f32)

/-- One masked row of scores. -/
abbrev mRow (b : Fin 2) (h : Fin 16) (q : Fin 2048) : Fin 2048 → EReal :=
  Cert.Spec.masked (scRow x0 x1 x2 x4 x5 x8 x9 b h q) (mkRow x3 b q)

/-- A fold of `max` is at least its starting value, so taking the maximum with that value again changes nothing. -/
theorem max_fold_max_self {ι : Type} (s : Finset ι) (c : EReal) (f : ι → EReal) :
    max c (s.fold max c f) = s.fold max c f :=
  max_eq_right ((Finset.le_fold_max c).2 (Or.inl le_rfl))

/-- The row maximum of the masked row, from `−∞`. -/
theorem v72_at (b : Fin 2) (h : Fin 16) (q : Fin 2048) :
    val_main_v72 (F := Ideal) x0 x1 x2 x3 x4 x5 x8 x9 (ix3 b h q)
      = Cert.Spec.rowmax (mRow x0 x1 x2 x3 x4 x5 x8 x9 b h q) := by
  unfold val_main_v72
  rw [reduce_max_row]
  have hf : (fun s => val_main_v71 (F := Ideal) x0 x1 x2 x3 x4 x5 x8 x9 (ix4 b h q s))
      = mRow x0 x1 x2 x3 x4 x5 x8 x9 b h q := funext fun s => v71_at x0 x1 x2 x3 x4 x5 x8 x9 b h q s
  rw [hf]
  rfl

/-- The reference takes the maximum with `−∞` once more: the same row maximum. -/
theorem v74_at (b : Fin 2) (h : Fin 16) (q : Fin 2048) :
    val_main_v74 (F := Ideal) x0 x1 x2 x3 x4 x5 x8 x9 (ix3 b h q)
      = Cert.Spec.rowmax (mRow x0 x1 x2 x3 x4 x5 x8 x9 b h q) := by
  rw [val_main_v74_apply, val_main_v73_apply, val_main_cst_9_apply, v72_at]
  exact max_fold_max_self _ _ _

/-- The row maximum spread back over the row. -/
theorem v76_at (b : Fin 2) (h : Fin 16) (q s : Fin 2048) :
    val_main_v76 (F := Ideal) x0 x1 x2 x3 x4 x5 x8 x9 (ix4 b h q s)
      = Cert.Spec.rowmax (mRow x0 x1 x2 x3 x4 x5 x8 x9 b h q) := by
  have e0 : idx_main_v76 (ix4 b h q s) = ix4 b h q (0 : Fin 1) :=
    funext fun a => by match a with | ⟨0, _⟩ => rfl | ⟨1, _⟩ => rfl | ⟨2, _⟩ => rfl | ⟨3, _⟩ => rfl
  have e1 : idx_main_v75 (ix4 b h q (0 : Fin 1)) = ix3 b h q :=
    funext fun a => by match a with | ⟨0, _⟩ => rfl | ⟨1, _⟩ => rfl | ⟨2, _⟩ => rfl
  rw [val_main_v76_apply, e0, val_main_v75_apply, e1, v74_at]

/-- The exponential of the masked score less the row maximum. -/
theorem v78_at (b : Fin 2) (h : Fin 16) (q s : Fin 2048) :
    val_main_v78 (F := Ideal) x0 x1 x2 x3 x4 x5 x8 x9 (ix4 b h q s)
      = Ideal.exp (mRow x0 x1 x2 x3 x4 x5 x8 x9 b h q s - Cert.Spec.rowmax (mRow x0 x1 x2 x3 x4 x5 x8 x9 b h q)) := by
  rw [val_main_v78_apply, val_main_v77_apply, v71_at, v76_at]
  rfl

/-- The row's sum of exponentials: the sum starts from the zero word, which denotes zero. -/
theorem v79_at (b : Fin 2) (h : Fin 16) (q : Fin 2048) :
    val_main_v79 (F := Ideal) x0 x1 x2 x3 x4 x5 x8 x9 (ix3 b h q)
      = ∑ s' : Fin 2048, Ideal.exp (mRow x0 x1 x2 x3 x4 x5 x8 x9 b h q s'
          - Cert.Spec.rowmax (mRow x0 x1 x2 x3 x4 x5 x8 x9 b h q)) := by
  rw [val_main_v79_apply, val_main_cst_10_apply, Ideal.ofBits_def, Ideal.ofBits_zero_f32, zero_add]
  refine Finset.sum_congr rfl fun k _ => ?_
  have e : idx_main_v79 (ix3 b h q) k = ix4 b h q k :=
    funext fun a => by match a with | ⟨0, _⟩ => rfl | ⟨1, _⟩ => rfl | ⟨2, _⟩ => rfl | ⟨3, _⟩ => rfl
  rw [e, v78_at]

/-- The attention weights: the soft-max of the masked row. -/
theorem v82_at (b : Fin 2) (h : Fin 16) (q s : Fin 2048) :
    val_main_v82 (F := Ideal) x0 x1 x2 x3 x4 x5 x8 x9 (ix4 b h q s)
      = Cert.Spec.softrow (scRow x0 x1 x2 x4 x5 x8 x9 b h q) (mkRow x3 b q) s := by
  have e0 : idx_main_v81 (ix4 b h q s) = ix4 b h q (0 : Fin 1) :=
    funext fun a => by match a with | ⟨0, _⟩ => rfl | ⟨1, _⟩ => rfl | ⟨2, _⟩ => rfl | ⟨3, _⟩ => rfl
  have e1 : idx_main_v80 (ix4 b h q (0 : Fin 1)) = ix3 b h q :=
    funext fun a => by match a with | ⟨0, _⟩ => rfl | ⟨1, _⟩ => rfl | ⟨2, _⟩ => rfl
  rw [val_main_v82_apply, val_main_v81_apply, e0, val_main_v80_apply, e1, v79_at, v78_at]
  rfl

end Cert.ReferenceIdeal.RefAttnSoft

end
-- ==== Proof.RefAttn.lean ====
import proofs.«164297_j75917841924554_2_alg».proof.Proof.RefProj
import proofs.«164297_j75917841924554_2_alg».proof.Proof.RefAttnScore
import proofs.«164297_j75917841924554_2_alg».proof.Proof.RefAttnSoft

set_option maxRecDepth 16384
noncomputable section

open Idealize.ShloMosaic Idealize.ShloMosaic.TcCoe Idealize.SL.Sem Idealize.ShloMosaic.ValueIdx

namespace Cert.ReferenceIdeal.RefSpec
open Cert.ReferenceIdeal Cert.ReferenceIdeal.Read
variable (x0 : Vec Ideal S2x2048x2048 .f32) (x1 x2 : Vec Ideal S2x2048x128 .f32) (x3 : S2x1x2048x2048.Idx → BitVec 32)
  (x4 : Vec Ideal S4096x2048 .f32) (x5 x6 : Vec Ideal S1024x2048 .f32) (x7 : Vec Ideal S2048x2048 .f32) (x8 x9 : Vec Ideal S128 .f32)

/-- A row of the reference's scaled scores is the specification's row of scores: the queries and the keys it is the
    inner product of are the specification's. -/
theorem ref_score_row (b : Fin 2) (h : Fin 16) (q : Fin 2048) :
    RefAttnMask.scRow x0 x1 x2 x4 x5 x8 x9 b h q
      = Cert.Spec.score (aX x0) (aC x1) (aC x2) (aW x4) (aW x5) (aN x8) (aN x9) b h q := by
  funext s
  show val_main_v64 (F := Ideal) x0 x1 x2 x4 x5 x8 x9 (ix4 b h q s) = _
  rw [RefAttnScore.v64_at]
  unfold Cert.Spec.score
  refine congrArg (· * Cert.Spec.wScale) (Finset.sum_congr rfl fun d _ => ?_)
  rw [ref_qry, ref_key]

/-- The attention weights the reference returns are the specification's. -/
theorem ref_attn (b : Fin 2) (h : Fin 16) (q s : Fin 2048) :
    val_main_v82 (F := Ideal) x0 x1 x2 x3 x4 x5 x8 x9 (ix4 b h q s)
      = Cert.Spec.attn (aX x0) (aC x1) (aC x2) (aM x3) (aW x4) (aW x5) (aN x8) (aN x9) b h q s := by
  rw [RefAttnSoft.v82_at, ref_score_row]
  rfl

end Cert.ReferenceIdeal.RefSpec

end
-- ==== Proof.LibIndexCoords.lean ====
/-
  An array read at an index is the array read at the index's coordinates; and three scalar facts at the exact values.

  An index of a literal shape is determined by its coordinates (`eq_ix1` … `eq_ix3`), so `x u` can be rewritten to
  `x (ix2 (u 0) (u 1))` for ANY index term `u`, however it was computed: after that the coordinates `u 0`, `u 1` reduce by
  evaluation where `u` is a composition of index maps written by cases on the axis, and a closing `rfl` sees through
  them. On an axis of extent one the coordinate is `0`. These are meant for `rw [app_ab x]`, with the array `x` named and
  the index left to unification.

  The scalar facts: the word `0x3F800000` denotes one, the square root of one is one, and division by one is the
  identity on every extended real.
-/
import Idealize.ShloMosaic.PureOps.Ideal
import Idealize.ShloMosaic.PureOps.IdealRules
import Idealize.ShloMosaic.Lib.ValueIdx

namespace Idealize.ShloMosaic.ValueIdx

open Idealize.ShloMosaic

section Index
variable {α : Type}

/-- A vector at any index is the vector at that index's coordinate. -/
theorem app_a {n : ℕ} (x : (⟨1, ![n]⟩ : Shape).Idx → α) (u : (⟨1, ![n]⟩ : Shape).Idx) : x u = x (ix1 (u 0)) :=
  congrArg x (eq_ix1 u)

/-- A matrix at any index is the matrix at that index's two coordinates. -/
theorem app_ab {n0 n1 : ℕ} (x : (⟨2, ![n0, n1]⟩ : Shape).Idx → α) (u : (⟨2, ![n0, n1]⟩ : Shape).Idx) :
    x u = x (ix2 (u 0) (u 1)) :=
  congrArg x (eq_ix2 u)

/-- A rank-3 array at any index is the array at that index's three coordinates. -/
theorem app_abc {n0 n1 n2 : ℕ} (x : (⟨3, ![n0, n1, n2]⟩ : Shape).Idx → α) (u : (⟨3, ![n0, n1, n2]⟩ : Shape).Idx) :
    x u = x (ix3 (u 0) (u 1) (u 2)) :=
  congrArg x (eq_ix3 u)

/-- An axis of extent one has the single coordinate zero. -/
theorem fin_one (a : Fin 1) : a = 0 := Subsingleton.elim _ _

/-- A one-entry vector is read at `0` whatever the index. -/
theorem app_1 (x : (⟨1, ![1]⟩ : Shape).Idx → α) (u : (⟨1, ![1]⟩ : Shape).Idx) : x u = x (ix1 0) := by
  rw [app_a x u, fin_one (u 0)]

/-- A one-entry matrix is read at `(0, 0)` whatever the index. -/
theorem app_11 (x : (⟨2, ![1, 1]⟩ : Shape).Idx → α) (u : (⟨2, ![1, 1]⟩ : Shape).Idx) : x u = x (ix2 0 0) := by
  rw [app_ab x u, fin_one (u 0), fin_one (u 1)]

/-- A one-row matrix is read in row `0`. -/
theorem app_1b {n : ℕ} (x : (⟨2, ![1, n]⟩ : Shape).Idx → α) (u : (⟨2, ![1, n]⟩ : Shape).Idx) : x u = x (ix2 0 (u 1)) := by
  rw [app_ab x u, fin_one (u 0)]

/-- A one-column matrix is read in column `0`. -/
theorem app_a1 {n : ℕ} (x : (⟨2, ![n, 1]⟩ : Shape).Idx → α) (u : (⟨2, ![n, 1]⟩ : Shape).Idx) : x u = x (ix2 (u 0) 0) := by
  rw [app_ab x u, fin_one (u 1)]

/-- A rank-3 array with a leading unit axis is read at `0` on it. -/
theorem app_1ab {n1 n2 : ℕ} (x : (⟨3, ![1, n1, n2]⟩ : Shape).Idx → α) (u : (⟨3, ![1, n1, n2]⟩ : Shape).Idx) :
    x u = x (ix3 0 (u 1) (u 2)) := by
  rw [app_abc x u, fin_one (u 0)]

end Index

/-- The f32 word of `1.0` denotes one. -/
theorem ofBits_one_f32 : Ideal.ofBits .f32 0x3F800000#32 = 1 := IdealRules.sign_bit.ideal_onePat .f32

/-- The square root of one is one. -/
theorem ideal_sqrt_one : Ideal.sqrt 1 = 1 := by
  rw [← EReal.coe_one, Ideal.sqrt_coe, if_neg (by norm_num), Real.sqrt_one]

/-- Dividing by one changes nothing, at the infinities too. -/
theorem ideal_div_one (x : EReal) : Ideal.div x 1 = x := by
  rw [← EReal.coe_one, Ideal.div_coe one_ne_zero, _root_.div_one, EReal.coe_one, mul_one]

end Idealize.ShloMosaic.ValueIdx
-- ==== Proof.RefOutVals.lean ====
/-
  Two ingredients of the reference's output: the repeated values and the logistic of the gate.

  The values [2,8,2048,128] are repeated along a new axis of extent 2 and that axis is merged with the head axis, so
  query head h reads value head h / 2. The logistic of the gate is computed as 1 / (1 + exp(−x)); the word of 1.0
  denotes one, so this is the extended-real logistic function.
-/
import proofs.«164297_j75917841924554_2_alg».proof.Proof.RefProj
import proofs.«164297_j75917841924554_2_alg».proof.Proof.LibIndexCoords

set_option maxRecDepth 16384
noncomputable section

open Idealize.ShloMosaic Idealize.ShloMosaic.TcCoe Idealize.SL.Sem Idealize.ShloMosaic.ValueIdx

namespace Cert.ReferenceIdeal.RefOut
open Cert.ReferenceIdeal Cert.ReferenceIdeal.Read Cert.ReferenceIdeal.RefSpec

variable (x0 : Vec Ideal S2x2048x2048 .f32) (x4 : Vec Ideal S4096x2048 .f32) (x6 : Vec Ideal S1024x2048 .f32)

/-- Merging the axes 8 and 2 into 16: entry (b,h,s,d) of the merged array is entry (b, h/2, h%2, s, d). -/
theorem idx61 (b : Fin 2) (h : Fin 16) (s : Fin 2048) (d : Fin 128) :
    idx_main_v61 (ix4 b h s d)
      = ix5 b (⟨h.val / 2, by omega⟩ : Fin 8) (⟨h.val % 2, by omega⟩ : Fin 2) s d :=
  funext fun a => Fin.ext (by
    have hb := b.isLt; have hh := h.isLt; have hs := s.isLt; have hd := d.isLt
    match a with
    | ⟨0, _⟩ => show (((b.val * 16 + h.val) * 2048 + s.val) * 128 + d.val) / 4194304 = b.val; omega
    | ⟨1, _⟩ => show (((b.val * 16 + h.val) * 2048 + s.val) * 128 + d.val) / 524288 % 8 = h.val / 2; omega
    | ⟨2, _⟩ => show (((b.val * 16 + h.val) * 2048 + s.val) * 128 + d.val) / 262144 % 2 = h.val % 2; omega
    | ⟨3, _⟩ => show (((b.val * 16 + h.val) * 2048 + s.val) * 128 + d.val) / 128 % 2048 = s.val; omega
    | ⟨4, _⟩ => show (((b.val * 16 + h.val) * 2048 + s.val) * 128 + d.val) % 128 = d.val; omega)

/-- The repetition does not depend on the new axis. -/
theorem idx60 (b : Fin 2) (g : Fin 8) (r : Fin 2) (s : Fin 2048) (d : Fin 128) :
    idx_main_v60 (ix5 b g r s d) = ix4 b g s d :=
  funext fun a => Fin.ext (by match a with | ⟨0, _⟩ => rfl | ⟨1, _⟩ => rfl | ⟨2, _⟩ => rfl | ⟨3, _⟩ => rfl)

/-- Query head h reads the values of value head h / 2. -/
theorem vrep_core (b : Fin 2) (h : Fin 16) (s : Fin 2048) (d : Fin 128) :
    val_main_v61 (F := Ideal) x0 x6 (ix4 b h s d)
      = Cert.Spec.val (aX x0) (aW x6) b (⟨h.val / 2, by omega⟩ : Fin 8) s d := by
  rw [val_main_v61_apply, idx61, val_main_v60_apply, idx60]
  exact ref_val x0 x6 b (⟨h.val / 2, by omega⟩ : Fin 8) s d

/-- 1 / (1 + exp(−gate)) is the logistic of the gate. -/
theorem glog_core (b : Fin 2) (h : Fin 16) (s : Fin 2048) (d : Fin 128) :
    val_main_v91 (F := Ideal) x0 x4 (ix3 b s (⟨128 * h.val + d.val, by omega⟩ : Fin 2048))
      = Ideal.logistic (Cert.Spec.gate (aX x0) (aW x4) b h s d) := by
  rw [val_main_v91_apply, val_main_v90_apply, val_main_cst_12_apply, val_main_v89_apply, val_main_v88_apply,
    val_main_cst_11_apply, val_main_v87_apply, val_main_v86_apply, ref_gate]
  simp only [Ideal.ofBits_def, ofBits_one_f32]
  rfl

end Cert.ReferenceIdeal.RefOut

end
-- ==== Proof.RefOutCtx.lean ====
/-
  The reference's output from its attention weights.

  The context of head h is the attention-weighted sum over key positions of the repeated values; the heads are laid
  side by side (entry (b,s,128 h + d) of the flat array is entry (b,h,s,d)), multiplied by the logistic of the gate,
  and mapped linearly by the output weights. A flat feature k is head k / 128, feature k % 128, since
  128 (k / 128) + k % 128 = k. The attention weights enter as a hypothesis: whatever array they are read as, the output
  is the same function of it.
-/
import proofs.«164297_j75917841924554_2_alg».proof.Proof.RefOutVals

set_option maxRecDepth 16384
noncomputable section

open Idealize.ShloMosaic Idealize.ShloMosaic.TcCoe Idealize.SL.Sem Idealize.ShloMosaic.ValueIdx

namespace Cert.ReferenceIdeal.RefOut
open Cert.ReferenceIdeal Cert.ReferenceIdeal.Read Cert.ReferenceIdeal.RefSpec

variable (x0 : Vec Ideal S2x2048x2048 .f32) (x1 x2 : Vec Ideal S2x2048x128 .f32) (x3 : S2x1x2048x2048.Idx → BitVec 32)
  (x4 : Vec Ideal S4096x2048 .f32) (x5 x6 : Vec Ideal S1024x2048 .f32) (x7 : Vec Ideal S2048x2048 .f32) (x8 x9 : Vec Ideal S128 .f32)

/-- Laying 16 heads of 128 side by side: entry (b,s,128 h + d) of the flat array is entry (b,s,h,d). -/
theorem idx85 (b : Fin 2) (s : Fin 2048) (h : Fin 16) (d : Fin 128) :
    idx_main_v85 (ix3 b s (⟨128 * h.val + d.val, by omega⟩ : Fin 2048)) = ix4 b s h d :=
  funext fun a => Fin.ext (by
    have hb := b.isLt; have hs := s.isLt; have hh := h.isLt; have hd := d.isLt
    match a with
    | ⟨0, _⟩ => show ((b.val * 2048 + s.val) * 2048 + (128 * h.val + d.val)) / 4194304 = b.val; omega
    | ⟨1, _⟩ => show ((b.val * 2048 + s.val) * 2048 + (128 * h.val + d.val)) / 2048 % 2048 = s.val; omega
    | ⟨2, _⟩ => show ((b.val * 2048 + s.val) * 2048 + (128 * h.val + d.val)) / 128 % 16 = h.val; omega
    | ⟨3, _⟩ => show ((b.val * 2048 + s.val) * 2048 + (128 * h.val + d.val)) % 128 = d.val; omega)

theorem idx84 (b : Fin 2) (s : Fin 2048) (h : Fin 16) (d : Fin 128) :
    idx_main_v84 (ix4 b s h d) = ix4 b h s d :=
  funext fun a => Fin.ext (by match a with | ⟨0, _⟩ => rfl | ⟨1, _⟩ => rfl | ⟨2, _⟩ => rfl | ⟨3, _⟩ => rfl)

theorem lidx83 (b : Fin 2) (h : Fin 16) (q : Fin 2048) (d : Fin 128) (k : Fin 2048) :
    lidx_main_v83 (ix4 b h q d) k = ix4 b h q k :=
  funext fun a => Fin.ext (by match a with | ⟨0, _⟩ => rfl | ⟨1, _⟩ => rfl | ⟨2, _⟩ => rfl | ⟨3, _⟩ => rfl)

theorem ridx83 (b : Fin 2) (h : Fin 16) (q : Fin 2048) (d : Fin 128) (k : Fin 2048) :
    ridx_main_v83 (ix4 b h q d) k = ix4 b h k d :=
  funext fun a => Fin.ext (by match a with | ⟨0, _⟩ => rfl | ⟨1, _⟩ => rfl | ⟨2, _⟩ => rfl | ⟨3, _⟩ => rfl)

theorem lidx93 (b : Fin 2) (s o k : Fin 2048) :
    lidx_main_v93 (ix3 b s o) k = ix3 b s k :=
  funext fun a => Fin.ext (by match a with | ⟨0, _⟩ => rfl | ⟨1, _⟩ => rfl | ⟨2, _⟩ => rfl)

theorem ridx93 (b : Fin 2) (s o k : Fin 2048) :
    ridx_main_v93 (ix3 b s o) k = ix2 o k :=
  funext fun a => Fin.ext (by match a with | ⟨0, _⟩ => rfl | ⟨1, _⟩ => rfl)

section FromAttn

variable (hattn : ∀ (b : Fin 2) (h : Fin 16) (q s : Fin 2048),
  val_main_v82 (F := Ideal) x0 x1 x2 x3 x4 x5 x8 x9 (ix4 b h q s)
    = Cert.Spec.attn (aX x0) (aC x1) (aC x2) (aM x3) (aW x4) (aW x5) (aN x8) (aN x9) b h q s)
include hattn

/-- The gated context, heads side by side, at flat feature 128 h + d. -/
theorem ctx_core (b : Fin 2) (s : Fin 2048) (h : Fin 16) (d : Fin 128) :
    val_main_v92 (F := Ideal) x0 x1 x2 x3 x4 x5 x6 x8 x9 (ix3 b s (⟨128 * h.val + d.val, by omega⟩ : Fin 2048))
      = Cert.Spec.ctx (aX x0) (aC x1) (aC x2) (aM x3) (aW x4) (aW x5) (aW x6) (aN x8) (aN x9) b h s d := by
  rw [val_main_v92_apply, glog_core, val_main_v85_apply, idx85, val_main_v84_apply, idx84, val_main_v83_apply]
  unfold Cert.Spec.ctx
  refine congrArg (· * _) (Finset.sum_congr rfl fun k _ => ?_)
  rw [lidx83, ridx83, hattn, vrep_core]

/-- The gated context at any flat feature k: head k / 128, feature k % 128. -/
theorem ctx_flat (b : Fin 2) (s k : Fin 2048) :
    val_main_v92 (F := Ideal) x0 x1 x2 x3 x4 x5 x6 x8 x9 (ix3 b s k)
      = Cert.Spec.ctx (aX x0) (aC x1) (aC x2) (aM x3) (aW x4) (aW x5) (aW x6) (aN x8) (aN x9) b
          (⟨k.val / 128, by omega⟩ : Fin 16) s (⟨k.val % 128, by omega⟩ : Fin 128) := by
  have hk : k = (⟨128 * (k.val / 128) + k.val % 128, by omega⟩ : Fin 2048) := Fin.ext (by show k.val = 128 * (k.val / 128) + k.val % 128; omega)
  exact (congrArg (fun z => val_main_v92 (F := Ideal) x0 x1 x2 x3 x4 x5 x6 x8 x9 (ix3 b s z)) hk).trans
    (ctx_core x0 x1 x2 x3 x4 x5 x6 x8 x9 hattn b s (⟨k.val / 128, by omega⟩ : Fin 16) (⟨k.val % 128, by omega⟩ : Fin 128))

/-- The reference's first result is the specification's output, given that its attention weights are the specification's. -/
theorem out_of_attn (b : Fin 2) (s o : Fin 2048) :
    val_main_v93 (F := Ideal) x0 x1 x2 x3 x4 x5 x6 x7 x8 x9 (ix3 b s o)
      = Cert.Spec.out (aX x0) (aC x1) (aC x2) (aM x3) (aW x4) (aW x5) (aW x6) (aW x7) (aN x8) (aN x9) b s o := by
  rw [val_main_v93_apply]
  unfold Cert.Spec.out
  refine Finset.sum_congr rfl fun k _ => ?_
  rw [lidx93, ridx93, ctx_flat x0 x1 x2 x3 x4 x5 x6 x8 x9 hattn]

end FromAttn

end Cert.ReferenceIdeal.RefOut

end
-- ==== Proof.RefOut.lean ====
/-
  The reference's first result against the specification: with the attention weights the specification's, the gated,
  linearly mapped context is the specification's output.
-/
import proofs.«164297_j75917841924554_2_alg».proof.Proof.RefAttn
import proofs.«164297_j75917841924554_2_alg».proof.Proof.RefOutCtx

set_option maxRecDepth 16384
noncomputable section

open Idealize.ShloMosaic Idealize.ShloMosaic.TcCoe Idealize.SL.Sem Idealize.ShloMosaic.ValueIdx

namespace Cert.ReferenceIdeal.RefSpec
open Cert.ReferenceIdeal Cert.ReferenceIdeal.Read
variable (x0 : Vec Ideal S2x2048x2048 .f32) (x1 x2 : Vec Ideal S2x2048x128 .f32) (x3 : S2x1x2048x2048.Idx → BitVec 32)
  (x4 : Vec Ideal S4096x2048 .f32) (x5 x6 : Vec Ideal S1024x2048 .f32) (x7 : Vec Ideal S2048x2048 .f32) (x8 x9 : Vec Ideal S128 .f32)

theorem ref_out (b : Fin 2) (s o : Fin 2048) :
    val_main_v93 (F := Ideal) x0 x1 x2 x3 x4 x5 x6 x7 x8 x9 (ix3 b s o)
      = Cert.Spec.out (aX x0) (aC x1) (aC x2) (aM x3) (aW x4) (aW x5) (aW x6) (aW x7) (aN x8) (aN x9) b s o :=
  RefOut.out_of_attn x0 x1 x2 x3 x4 x5 x6 x7 x8 x9
    (fun b h q s => ref_attn x0 x1 x2 x3 x4 x5 x8 x9 b h q s) b s o

end Cert.ReferenceIdeal.RefSpec

end
-- ==== Proof.RefValue.lean ====
/-
  The reference program's two results are the specification's arrays.

  The reference's run ends with each result at the composed term of its operations; read at an index built from
  coordinates that term is the specification's function of the arguments (the attention weights, and the output
  projection), so the whole arrays are the specification's arrays.
-/
import proofs.«164297_j75917841924554_2_alg».proof.Proof.Gen.ReferenceIdeal.Read
import proofs.«164297_j75917841924554_2_alg».proof.Proof.RefProj
import proofs.«164297_j75917841924554_2_alg».proof.Proof.RefAttn
import proofs.«164297_j75917841924554_2_alg».proof.Proof.RefOut
import proofs.«164297_j75917841924554_2_alg».proof.Proof.SpecArr
import Idealize.ShloMosaic.Lib.ValueIdx

set_option maxRecDepth 16384
noncomputable section

open Idealize.ShloMosaic Idealize.ShloMosaic.TcCoe Idealize.SL.Sem Idealize.ShloMosaic.ValueIdx

namespace Cert.ReferenceIdeal.RefValue
open Cert.ReferenceIdeal Cert.ReferenceIdeal.Read Cert.Spec

variable (m : (ℓ : Loc nD τ sig) → Buf (Elt Ideal) ℓ) (c : Dev nD)
variable (x0 : S2x2048x2048.Idx → EReal) (x1 x2 : S2x2048x128.Idx → EReal) (x3 : S2x1x2048x2048.Idx → BitVec 32)
  (x4 : S4096x2048.Idx → EReal) (x5 x6 : S1024x2048.Idx → EReal) (x7 : S2048x2048.Idx → EReal) (x8 x9 : S128.Idx → EReal)

/-- The attention weights the reference returns, as one array of its arguments. -/
theorem attn_result (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (h5 : m ((c.tc : Thread nD τ).loc main_arg5) = x5)
    (h8 : m ((c.tc : Thread nD τ).loc main_arg8) = x8) (h9 : m ((c.tc : Thread nD τ).loc main_arg9) = x9)
    (y : S2x16x2048x2048.Idx → EReal) (hy : Cert.ReferenceIdeal.Value.res_main_v82 (F := Ideal) m c = y) :
    y = attnArr x0 x1 x2 x3 x4 x5 x8 x9 := by
  funext i
  obtain ⟨b, h, q, s, rfl⟩ : ∃ (b : Fin 2) (h : Fin 16) (q s : Fin 2048), i = ix4 b h q s := ⟨i 0, i 1, i 2, i 3, eq_ix4 i⟩
  rw [attnArr_apply, ← hy, val_main_v82_eq m c, h0, h1, h2, h3, h4, h5, h8, h9]
  exact RefSpec.ref_attn x0 x1 x2 x3 x4 x5 x8 x9 b h q s

/-- The output projection the reference returns, as one array of its arguments. -/
theorem out_result (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (h5 : m ((c.tc : Thread nD τ).loc main_arg5) = x5)
    (h6 : m ((c.tc : Thread nD τ).loc main_arg6) = x6) (h7 : m ((c.tc : Thread nD τ).loc main_arg7) = x7)
    (h8 : m ((c.tc : Thread nD τ).loc main_arg8) = x8) (h9 : m ((c.tc : Thread nD τ).loc main_arg9) = x9)
    (y : S2x2048x2048.Idx → EReal) (hy : Cert.ReferenceIdeal.Value.res_main_v93 (F := Ideal) m c = y) :
    y = outArr x0 x1 x2 x3 x4 x5 x6 x7 x8 x9 := by
  funext i
  obtain ⟨b, s, o, rfl⟩ : ∃ (b : Fin 2) (s o : Fin 2048), i = ix3 b s o := ⟨i 0, i 1, i 2, eq_ix3 i⟩
  rw [outArr_apply, ← hy, val_main_v93_eq m c, h0, h1, h2, h3, h4, h5, h6, h7, h8, h9]
  exact RefSpec.ref_out x0 x1 x2 x3 x4 x5 x6 x7 x8 x9 b s o

end Cert.ReferenceIdeal.RefValue

end
-- ==== Proof.lean ====
/-
  The certificate of a gated grouped-query attention layer (five pipelined regions among stretches of host
  operations) against its jnp reference.

  Both idealized programs compute ONE function of the ten arguments over the extended reals (Proof/Spec.lean): linear
  projections y = x Wᵀ; per-head RMS normalisation and rotary embedding of queries and keys; scaled scores, masked
  entries replaced by (row minimum − 20); a row soft-max — the attention weights, the second result; the
  value-weighted sum gated by the logistic of a second query projection; and the output projection, the first result.
  The kernel takes every contraction in one block (no regrouped sum), tiles rows and columns, rotates before it
  transposes and keeps intermediate arrays in bf16 (the identity on the extended reals); the reference computes the
  same sums and pointwise operations in another layout. No law used needs finiteness, so the precondition is never
  opened.

  The kernel program's run names its two results at the last boundary of its nine segments (Proof/KernelRun.lean); the
  boundary contents are walked back (Proof/KernelFold.lean) through the regions' values (Proof/RegionMM.lean,
  Proof/RegionAttn.lean) and the host stretches (Proof/HostRead.lean) to the specification's arrays
  (Proof/KernelValue.lean). The reference's run is read one operation at a time against the same specification
  (Proof/RefProj.lean, Proof/RefAttn.lean, Proof/RefOut.lean, Proof/RefValue.lean). The three frames are the generated
  ones; the idealisation rewrote no operation, so `preserves` is trivial.
-/
import proofs.«164297_j75917841924554_2_alg».proof.Defs
import proofs.«164297_j75917841924554_2_alg».proof.Proof.Gen.Kernel
import proofs.«164297_j75917841924554_2_alg».proof.Proof.Gen.Kernel.Frame
import proofs.«164297_j75917841924554_2_alg».proof.Proof.Gen.KernelIdeal
import proofs.«164297_j75917841924554_2_alg».proof.Proof.Gen.KernelIdeal.Frame
import proofs.«164297_j75917841924554_2_alg».proof.Proof.Gen.ReferenceIdeal
import proofs.«164297_j75917841924554_2_alg».proof.Proof.Gen.ReferenceIdeal.Run
import proofs.«164297_j75917841924554_2_alg».proof.Proof.Gen.ReferenceIdeal.Read
import proofs.«164297_j75917841924554_2_alg».proof.Proof.Gen.Pre_finite_inputs
import proofs.«164297_j75917841924554_2_alg».proof.Proof.KernelRun
import proofs.«164297_j75917841924554_2_alg».proof.Proof.KernelValue
import proofs.«164297_j75917841924554_2_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealisation rewrote no operation. -/
theorem preserves : Cert.preserves_Kernel_KernelIdeal := trivial

/-- From memories agreeing on the arguments both idealized programs end with the specification's two arrays of the
    kernel's arguments: the kernel by its value chain, the reference by its run read against the specification and
    the arguments' agreement. -/
theorem algebraic : Cert.algebraic_KernelIdeal_ReferenceIdeal := by
  intro m ρ m' ρ' _ hagree
  refine ⟨fun c => Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c).1.trans (Cert.KernelIdeal.Value.out_result m ρ c _ _ _ _ _ _ _ _ _ _ rfl rfl rfl rfl rfl rfl rfl rfl rfl rfl _ rfl),
       (h c).2.1.trans (Cert.KernelIdeal.Value.attn_result m ρ c _ _ _ _ _ _ _ _ rfl rfl rfl rfl rfl rfl rfl rfl _ rfl),
       (h c).2.2⟩) (Cert.KernelIdeal.Run.results (F := Ideal) m ρ)
  · exact (θ_run Cert.ReferenceIdeal.defs _ _).mono (fun r h c =>
      ⟨(h c).1.trans (Cert.ReferenceIdeal.RefValue.out_result m' c _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2 _ rfl),
       (h c).2.1.trans (Cert.ReferenceIdeal.RefValue.attn_result m' c _ _ _ _ _ _ _ _ (hagree c).1 (hagree c).2.1 (hagree c).2.2.1 (hagree c).2.2.2.1 (hagree c).2.2.2.2.1 (hagree c).2.2.2.2.2.1 (hagree c).2.2.2.2.2.2.2.2.1 (hagree c).2.2.2.2.2.2.2.2.2 _ rfl),
       (h c).2.2⟩) (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
